-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x165 : Shape := ⟨2, ![100000, 165]⟩
abbrev S2x3200000 : Shape := ⟨2, ![2, 3200000]⟩
abbrev S165x32 : Shape := ⟨2, ![165, 32]⟩
abbrev S32 : Shape := ⟨1, ![32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S100000x165 : S_.BroadcastsInDim S100000x165 (![] : Fin 0 → Fin S100000x165.rank)
  reducesTo_S100000x165_S_d0_1 : S100000x165.ReducesTo [0, 1] S_
  h_S_ : 0 < S_.numel
  bcast_S_S165x32 : S_.BroadcastsInDim S165x32 (![] : Fin 0 → Fin S165x32.rank)
  reducesTo_S165x32_S_d0_1 : S165x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S16 .f32) (main_arg6 : FVec F S16x2 .f32) (main_arg7 : FVec F S2 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x2 .f32 := Host.absf main_arg6
  let main_cst_8 : FVec F S_ .f32 := constant S_ .f32 0x7F800000#32
  let main_v25 : FVec F S16x2 .f32 := broadcastInDim S16x2 ![] bcast_S_S16x2 main_cst_8
  let main_v26 : IVec S16x2 1 := cmpf .olt main_v24 main_v25
  let main_c_9 : IVec S_ 1 := constantI S_ 1 1#1
  let main_v27 : IVec S_ 1 := (fun x v => Host.reduce IntOp.andi x v reducesTo_S16x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x165 .f32) (main_arg1 : IVec S2x3200000 32) (main_arg2 : FVec F S165x32 .f32) (main_arg3 : FVec F S32 .f32) (main_arg4 : FVec F S32x16 .f32) (main_arg5 : FVec F S16 .f32) (main_arg6 : FVec F S16x2 .f32) (main_arg7 : FVec F S2 .f32) : IVec S_ 1 :=
  let main_v0 : FVec F S100000x165 .f32 := Host.absf main_arg0
  let main_cst : FVec F S_ .f32 := constant S_ .f32 0x7F800000#32
  let main_v1 : FVec F S100000x165 .f32 := broadcastInDim S100000x165 ![] bcast_S_S100000x165 main_cst
  let main_v2 : IVec S100000x165 1 := cmpf .olt main_v0 main_v1
  let main_c : IVec S_ 1 := constantI S_ 1 1#1
  let main_v3 : IVec S_ 1 := (fun x v => Host.reduce IntOp.andi x v reducesTo_S100000x165_S_d0_1 h_S_) main_v2 main_c
  let main_v4 : FVec F S165x32 .f32 := Host.absf main_arg2
  let main_cst_0 : FVec F S_ .f32 := constant S_ .f32 0x7F800000#32
  let main_v5 : FVec F S165x32 .f32 := broadcastInDim S165x32 ![] bcast_S_S165x32 main_cst_0
  let main_v6 : IVec S165x32 1 := cmpf .olt main_v4 main_v5
  let main_c_1 : IVec S_ 1 := constantI S_ 1 1#1
  let main_v7 : IVec S_ 1 := (fun x v => Host.reduce IntOp.andi x v reducesTo_S165x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x16 .f32 := Host.absf main_arg4
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg5 main_arg6 main_arg7 main_v13 main_v16
-- ==== Kernel.lean ====
abbrev S100000x165 : Shape := ⟨2, ![100000, 165]⟩
abbrev S2x3200000 : Shape := ⟨2, ![2, 3200000]⟩
abbrev S165x32 : Shape := ⟨2, ![165, 32]⟩
abbrev S32 : Shape := ⟨1, ![32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x32 : Shape := ⟨2, ![100000, 32]⟩
abbrev S5000x165 : Shape := ⟨2, ![5000, 165]⟩
abbrev S5000x32 : Shape := ⟨2, ![5000, 32]⟩
abbrev S3200000x32 : Shape := ⟨2, ![3200000, 32]⟩
abbrev S1x32 : Shape := ⟨2, ![1, 32]⟩
abbrev S5000x1 : Shape := ⟨2, ![5000, 1]⟩
abbrev S100000x16 : Shape := ⟨2, ![100000, 16]⟩
abbrev S5000x16 : Shape := ⟨2, ![5000, 16]⟩
abbrev S3200000x16 : Shape := ⟨2, ![3200000, 16]⟩
abbrev S1x16 : Shape := ⟨2, ![1, 16]⟩
abbrev S100000x2 : Shape := ⟨2, ![100000, 2]⟩
abbrev S5000x2 : Shape := ⟨2, ![5000, 2]⟩
abbrev S3200000x2 : Shape := ⟨2, ![3200000, 2]⟩
abbrev S1x2 : Shape := ⟨2, ![1, 2]⟩
abbrev S5000 : Shape := ⟨1, ![5000]⟩

abbrev nBuf : Space → Nat
  | .hbm => 100
  | .vmem => 42
  | .smem => 0
  | _ => 0

abbrev bufTy : (tb : Table) → Fin (tcTables nBuf tb) → BufTy
  | .hbm, ⟨0, _⟩ => ⟨S100000x165, .f32⟩
  | .hbm, ⟨1, _⟩ => ⟨S2x3200000, .i32⟩
  | .hbm, ⟨2, _⟩ => ⟨S165x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S16x2, .f32⟩
  | .hbm, ⟨7, _⟩ => ⟨S2, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S_, .f32⟩
  | .hbm, ⟨13, _⟩ => ⟨S3200000, .f32⟩
  | .hbm, ⟨14, _⟩ => ⟨S_, .f32⟩
  | .hbm, ⟨15, _⟩ => ⟨S100000, .f32⟩
  | .hbm, ⟨16, _⟩ => ⟨S3200000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S3200000, .i32⟩
  | .hbm, ⟨24, _⟩ => ⟨S3200000, .i1⟩
  | .hbm, ⟨25, _⟩ => ⟨S_, .i32⟩
  | .hbm, ⟨26, _⟩ => ⟨S3200000, .i32⟩
  | .hbm, ⟨27, _⟩ => ⟨S3200000, .i32⟩
  | .hbm, ⟨28, _⟩ => ⟨S3200000, .i32⟩
  | .hbm, ⟨29, _⟩ => ⟨S3200000x1, .i32⟩
  | .hbm, ⟨30, _⟩ => ⟨S3200000, .f32⟩
  | .hbm, ⟨31, _⟩ => ⟨S_, .i32⟩
  | .hbm, ⟨32, _⟩ => ⟨S3200000, .i32⟩
  | .hbm, ⟨33, _⟩ => ⟨S3200000, .i1⟩
  | .hbm, ⟨34, _⟩ => ⟨S_, .i32⟩
  | .hbm, ⟨35, _⟩ => ⟨S3200000, .i32⟩
  | .hbm, ⟨36, _⟩ => ⟨S3200000, .i32⟩
  | .hbm, ⟨37, _⟩ => ⟨S3200000, .i32⟩
  | .hbm, ⟨38, _⟩ => ⟨S3200000x1, .i32⟩
  | .hbm, ⟨39, _⟩ => ⟨S3200000, .f32⟩
  | .hbm, ⟨40, _⟩ => ⟨S3200000, .f32⟩
  | .hbm, ⟨41, _⟩ => ⟨S100000, .f32⟩
  | .hbm, ⟨42, _⟩ => ⟨S100000x1, .f32⟩
  | .hbm, ⟨43, _⟩ => ⟨S100000x32, .f32⟩
  | .hbm, ⟨44, _⟩ => ⟨S_, .i32⟩
  | .hbm, ⟨45, _⟩ => ⟨S3200000, .i32⟩
  | .hbm, ⟨46, _⟩ => ⟨S3200000, .i1⟩
  | .hbm, ⟨47, _⟩ => ⟨S_, .i32⟩
  | .hbm, ⟨48, _⟩ => ⟨S3200000, .i32⟩
  | .hbm, ⟨49, _⟩ => ⟨S3200000, .i32⟩
  | .hbm, ⟨50, _⟩ => ⟨S3200000, .i32⟩
  | .hbm, ⟨51, _⟩ => ⟨S3200000x1, .i32⟩
  | .hbm, ⟨52, _⟩ => ⟨S3200000x32, .f32⟩
  | .hbm, ⟨53, _⟩ => ⟨S3200000x1, .f32⟩
  | .hbm, ⟨54, _⟩ => ⟨S3200000x32, .f32⟩
  | .hbm, ⟨55, _⟩ => ⟨S3200000x32, .f32⟩
  | .hbm, ⟨56, _⟩ => ⟨S_, .f32⟩
  | .hbm, ⟨57, _⟩ => ⟨S100000x32, .f32⟩
  | .hbm, ⟨58, _⟩ => ⟨S3200000x1, .i32⟩
  | .hbm, ⟨59, _⟩ => ⟨S100000x32, .f32⟩
  | .hbm, ⟨60, _⟩ => ⟨S1x32, .f32⟩
  | .hbm, ⟨61, _⟩ => ⟨S100000x32, .f32⟩
  | .hbm, ⟨62, _⟩ => ⟨S100000x16, .f32⟩
  | .hbm, ⟨63, _⟩ => ⟨S_, .i32⟩
  | .hbm, ⟨64, _⟩ => ⟨S3200000, .i32⟩
  | .hbm, ⟨65, _⟩ => ⟨S3200000, .i1⟩
  | .hbm, ⟨66, _⟩ => ⟨S_, .i32⟩
  | .hbm, ⟨67, _⟩ => ⟨S3200000, .i32⟩
  | .hbm, ⟨68, _⟩ => ⟨S3200000, .i32⟩
  | .hbm, ⟨69, _⟩ => ⟨S3200000, .i32⟩
  | .hbm, ⟨70, _⟩ => ⟨S3200000x1, .i32⟩
  | .hbm, ⟨71, _⟩ => ⟨S3200000x16, .f32⟩
  | .hbm, ⟨72, _⟩ => ⟨S3200000x1, .f32⟩
  | .hbm, ⟨73, _⟩ => ⟨S3200000x16, .f32⟩
  | .hbm, ⟨74, _⟩ => ⟨S3200000x16, .f32⟩
  | .hbm, ⟨75, _⟩ => ⟨S_, .f32⟩
  | .hbm, ⟨76, _⟩ => ⟨S100000x16, .f32⟩
  | .hbm, ⟨77, _⟩ => ⟨S3200000x1, .i32⟩
  | .hbm, ⟨78, _⟩ => ⟨S100000x16, .f32⟩
  | .hbm, ⟨79, _⟩ => ⟨S1x16, .f32⟩
  | .hbm, ⟨80, _⟩ => ⟨S100000x16, .f32⟩
  | .hbm, ⟨81, _⟩ => ⟨S100000x2, .f32⟩
  | .hbm, ⟨82, _⟩ => ⟨S_, .i32⟩
  | .hbm, ⟨83, _⟩ => ⟨S3200000, .i32⟩
  | .hbm, ⟨84, _⟩ => ⟨S3200000, .i1⟩
  | .hbm, ⟨85, _⟩ => ⟨S_, .i32⟩
  | .hbm, ⟨86, _⟩ => ⟨S3200000, .i32⟩
  | .hbm, ⟨87, _⟩ => ⟨S3200000, .i32⟩
  | .hbm, ⟨88, _⟩ => ⟨S3200000, .i32⟩
  | .hbm, ⟨89, _⟩ => ⟨S3200000x1, .i32⟩
  | .hbm, ⟨90, _⟩ => ⟨S3200000x2, .f32⟩
  | .hbm, ⟨91, _⟩ => ⟨S3200000x1, .f32⟩
  | .hbm, ⟨92, _⟩ => ⟨S3200000x2, .f32⟩
  | .hbm, ⟨93, _⟩ => ⟨S3200000x2, .f32⟩
  | .hbm, ⟨94, _⟩ => ⟨S_, .f32⟩
  | .hbm, ⟨95, _⟩ => ⟨S100000x2, .f32⟩
  | .hbm, ⟨96, _⟩ => ⟨S3200000x1, .i32⟩
  | .hbm, ⟨97, _⟩ => ⟨S100000x2, .f32⟩
  | .hbm, ⟨98, _⟩ => ⟨S1x2, .f32⟩
  | .hbm, ⟨99, _⟩ => ⟨S100000x2, .f32⟩
  | .local _ .vmem, ⟨0, _⟩ => ⟨S5000x165, .f32⟩
  | .local _ .vmem, ⟨1, _⟩ => ⟨S5000x165, .f32⟩
  | .local _ .vmem, ⟨2, _⟩ => ⟨S165x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S5000x32, .f32⟩
  | .local _ .vmem, ⟨8, _⟩ => ⟨S5000x32, .f32⟩
  | .local _ .vmem, ⟨9, _⟩ => ⟨S5000x1, .f32⟩
  | .local _ .vmem, ⟨10, _⟩ => ⟨S5000x1, .f32⟩
  | .local _ .vmem, ⟨11, _⟩ => ⟨S1x32, .f32⟩
  | .local _ .vmem, ⟨12, _⟩ => ⟨S5000x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S32x16, .f32⟩
  | .local _ .vmem, ⟨17, _⟩ => ⟨S5000x16, .f32⟩
  | .local _ .vmem, ⟨18, _⟩ => ⟨S5000x16, .f32⟩
  | .local _ .vmem, ⟨19, _⟩ => ⟨S5000x16, .f32⟩
  | .local _ .vmem, ⟨20, _⟩ => ⟨S5000x16, .f32⟩
  | .local _ .vmem, ⟨21, _⟩ => ⟨S5000x16, .f32⟩
  | .local _ .vmem, ⟨22, _⟩ => ⟨S5000x16, .f32⟩
  | .local _ .vmem, ⟨23, _⟩ => ⟨S5000x1, .f32⟩
  | .local _ .vmem, ⟨24, _⟩ => ⟨S5000x1, .f32⟩
  | .local _ .vmem, ⟨25, _⟩ => ⟨S1x16, .f32⟩
  | .local _ .vmem, ⟨26, _⟩ => ⟨S5000x16, .f32⟩
  | .local _ .vmem, ⟨27, _⟩ => ⟨S5000x16, .f32⟩
  | .local _ .vmem, ⟨28, _⟩ => ⟨S5000x16, .f32⟩
  | .local _ .vmem, ⟨29, _⟩ => ⟨S5000x16, .f32⟩
  | .local _ .vmem, ⟨30, _⟩ => ⟨S16x2, .f32⟩
  | .local _ .vmem, ⟨31, _⟩ => ⟨S5000x2, .f32⟩
  | .local _ .vmem, ⟨32, _⟩ => ⟨S5000x2, .f32⟩
  | .local _ .vmem, ⟨33, _⟩ => ⟨S5000x2, .f32⟩
  | .local _ .vmem, ⟨34, _⟩ => ⟨S5000x2, .f32⟩
  | .local _ .vmem, ⟨35, _⟩ => ⟨S5000x2, .f32⟩
  | .local _ .vmem, ⟨36, _⟩ => ⟨S5000x2, .f32⟩
  | .local _ .vmem, ⟨37, _⟩ => ⟨S5000x1, .f32⟩
  | .local _ .vmem, ⟨38, _⟩ => ⟨S5000x1, .f32⟩
  | .local _ .vmem, ⟨39, _⟩ => ⟨S1x2, .f32⟩
  | .local _ .vmem, ⟨40, _⟩ => ⟨S5000x2, .f32⟩
  | .local _ .vmem, ⟨41, _⟩ => ⟨S5000x2, .f32⟩
  | _, _ => ⟨S100000x165, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_8 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_11 : Ref sig .tc := ⟨.hbm, 82, rfl⟩
abbrev main_v61 : Ref sig .tc := ⟨.hbm, 83, rfl⟩
abbrev main_v62 : Ref sig .tc := ⟨.hbm, 84, rfl⟩
abbrev main_c_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_13 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x165 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S165x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x16 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S16x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x2 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x2 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x2 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x2 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x2 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  inb_S5000x165_S5000x165_0_0 : ∀ a, (![0, 0] : Fin 2 → Nat) a + S5000x165.size a ≤ S5000x165.size a
  h_S5000x165 : 0 < S5000x165.numel
  bitsLt_bf16_f32 : FTy.bits .bf16 < FTy.bits .f32
  inb_S165x32_S165x32_0_0 : ∀ a, (![0, 0] : Fin 2 → Nat) a + S165x32.size a ≤ S165x32.size a
  h_S165x32 : 0 < S165x32.numel
  inb_S5000x32_S5000x32_0_0 : ∀ a, (![0, 0] : Fin 2 → Nat) a + S5000x32.size a ≤ S5000x32.size a
  h_S5000x32 : 0 < S5000x32.numel
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x32 : S5000x1.Broadcasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x16_S32x16_0_0 : ∀ a, (![0, 0] : Fin 2 → Nat) a + S32x16.size a ≤ S32x16.size a
  h_S32x16 : 0 < S32x16.numel
  inb_S5000x16_S5000x16_0_0 : ∀ a, (![0, 0] : Fin 2 → Nat) a + S5000x16.size a ≤ S5000x16.size a
  h_S5000x16 : 0 < S5000x16.numel
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  broadcasts_S5000x1_S5000x16 : S5000x1.Broadcasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x2_S16x2_0_0 : ∀ a, (![0, 0] : Fin 2 → Nat) a + S16x2.size a ≤ S16x2.size a
  h_S16x2 : 0 < S16x2.numel
  inb_S5000x2_S5000x2_0_0 : ∀ a, (![0, 0] : Fin 2 → Nat) a + S5000x2.size a ≤ S5000x2.size a
  h_S5000x2 : 0 < S5000x2.numel
  bcast_S3200000x1_S3200000x2_0_1 : S3200000x1.BroadcastsInDim S3200000x2 (![0, 1] : Fin 2 → Fin S3200000x2.rank)
  bcast_S_S100000x2 : S_.BroadcastsInDim S100000x2 (![] : Fin 0 → Fin S100000x2.rank)
  shapeCasts_S2_S1x2 : S2.ShapeCasts S1x2
  shapeCasts_S5000x2_S5000x2 : S5000x2.ShapeCasts S5000x2
  broadcasts_S5000x1_S5000x2 : S5000x1.Broadcasts S5000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  reduces_S5000x2_S5000 : S5000x2.Reduces [1] S5000
  shapeCasts_S5000_S5000x1 : S5000.ShapeCasts S5000x1
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S5000x165_S165x32_S5000x32_1_0_0_1_n_n_wf : DotDims.WF S5000x165 S165x32 S5000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S5000x32_S32x16_S5000x16_1_0_0_1_n_n_wf : DotDims.WF S5000x32 S32x16 S5000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S5000x16_S16x2_S5000x2_1_0_0_1_n_n_wf : DotDims.WF S5000x16 S16x2 S5000x2 [1] [0] [0] [1] [] []
  gather_S100000x2_S3200000x1_S3200000x2_1_0_n_n_0_1_12_wf : GatherDims.WF S100000x2 S3200000x1 S3200000x2 [1] [0] [] [0] [] 1 ![1, 2]
  scatter_S100000x2_S3200000x1_S3200000x2_1_0_0_1_wf : ScatterDims.WF S100000x2 S3200000x1 S3200000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x165.size a ≤ S100000x165.size a
  hwx0_0 : ∀ i : grid0.Coords, EltTy.bits .f32 = 32 ∨ (Rect.block (s := S100000x165) S5000x165.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S165x32.size a ≤ S165x32.size a
  hwx0_1 : ∀ i : grid0.Coords, EltTy.bits .f32 = 32 ∨ (Rect.block (s := S165x32) S165x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x32.size a ≤ S100000x32.size a
  hwx1_4 : ∀ i : grid1.Coords, EltTy.bits .f32 = 32 ∨ (Rect.block (s := S100000x32) S5000x32.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x16.size a ≤ S32x16.size a
  hwx2_1 : ∀ i : grid2.Coords, EltTy.bits .f32 = 32 ∨ (Rect.block (s := S32x16) S32x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S100000x16.size a
  hwx2_2 : ∀ i : grid2.Coords, EltTy.bits .f32 = 32 ∨ (Rect.block (s := S100000x16) S5000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S100000x16.size a
  hwx3_0 : ∀ i : grid3.Coords, EltTy.bits .f32 = 32 ∨ (Rect.block (s := S100000x16) S5000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x16.size a ≤ S100000x16.size a
  hwx3_1 : ∀ i : grid3.Coords, EltTy.bits .f32 = 32 ∨ (Rect.block (s := S100000x16) S5000x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x16.size a ≤ S1x16.size a
  hwx3_3 : ∀ i : grid3.Coords, EltTy.bits .f32 = 32 ∨ (Rect.block (s := S1x16) S1x16.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x16.size a ≤ S100000x16.size a
  hwx3_4 : ∀ i : grid3.Coords, EltTy.bits .f32 = 32 ∨ (Rect.block (s := S100000x16) S5000x16.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x16.size a ≤ S100000x16.size a
  hwx4_0 : ∀ i : grid4.Coords, EltTy.bits .f32 = 32 ∨ (Rect.block (s := S100000x16) S5000x16.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S16x2.size a ≤ S16x2.size a
  hwx4_1 : ∀ i : grid4.Coords, EltTy.bits .f32 = 32 ∨ (Rect.block (s := S16x2) S16x2.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x2.size a ≤ S100000x2.size a
  hwx4_2 : ∀ i : grid4.Coords, EltTy.bits .f32 = 32 ∨ (Rect.block (s := S100000x2) S5000x2.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x2.size a ≤ S100000x2.size a
  hwx5_0 : ∀ i : grid5.Coords, EltTy.bits .f32 = 32 ∨ (Rect.block (s := S100000x2) S5000x2.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x2.size a ≤ S100000x2.size a
  hwx5_1 : ∀ i : grid5.Coords, EltTy.bits .f32 = 32 ∨ (Rect.block (s := S100000x2) S5000x2.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x2.size a ≤ S1x2.size a
  hwx5_3 : ∀ i : grid5.Coords, EltTy.bits .f32 = 32 ∨ (Rect.block (s := S1x2) S1x2.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x2.size a ≤ S100000x2.size a
  hwx5_4 : ∀ i : grid5.Coords, EltTy.bits .f32 = 32 ∨ (Rect.block (s := S100000x2) S5000x2.size (cc5_transform_4 i) (hinb5_4 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S5000x165_S165x32_S5000x32_1_0_0_1_n_n : DotDims S5000x165 S165x32 S5000x32 where
  lhsContracting := [1]
  rhsContracting := [0]
  lhsNonContracting := [0]
  rhsNonContracting := [1]
  lhsBatch := []
  rhsBatch := []
  wf := dot_S5000x165_S165x32_S5000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S5000x16_S16x2_S5000x2_1_0_0_1_n_n : DotDims S5000x16 S16x2 S5000x2 where
  lhsContracting := [1]
  rhsContracting := [0]
  lhsNonContracting := [0]
  rhsNonContracting := [1]
  lhsBatch := []
  rhsBatch := []
  wf := dot_S5000x16_S16x2_S5000x2_1_0_0_1_n_n_wf
def gather_S100000x2_S3200000x1_S3200000x2_1_0_n_n_0_1_12 : GatherDims S100000x2 S3200000x1 S3200000x2 where
  offsetDims := [1]
  collapsedSliceDims := [0]
  operandBatchingDims := []
  startIndicesBatchingDims := []
  startIndexMap := [0]
  indexVectorDim := 1
  sliceSizes := ![1, 2]
  wf := gather_S100000x2_S3200000x1_S3200000x2_1_0_n_n_0_1_12_wf
def scatter_S100000x2_S3200000x1_S3200000x2_1_0_0_1 : ScatterDims S100000x2 S3200000x1 S3200000x2 where
  updateWindowDims := [1]
  insertedWindowDims := [0]
  scatterDimsToOperandDims := [0]
  indexVectorDim := 1
  wf := scatter_S100000x2_S3200000x1_S3200000x2_1_0_0_1_wf

abbrev win0_0 : Pipeline.Window sig grid0 :=
  Pipeline.Window.ofSpec (Memref.whole main_arg0) S5000x165.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S165x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S32x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S5000x16.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v59) S5000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S16x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v60) S5000x2.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v73) S5000x2.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v60) S5000x2.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v27) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v74) S1x2.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v75) S5000x2.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x165 : Shape := ⟨2, ![100000, 165]⟩
abbrev S2x3200000 : Shape := ⟨2, ![2, 3200000]⟩
abbrev S165x32 : Shape := ⟨2, ![165, 32]⟩
abbrev S32 : Shape := ⟨1, ![32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S1x3200000 : Shape := ⟨2, ![1, 3200000]⟩
abbrev S3200000 : Shape := ⟨1, ![3200000]⟩
abbrev S100000x32 : Shape := ⟨2, ![100000, 32]⟩
abbrev S_ : Shape := ⟨0, ![]⟩
abbrev S100000 : Shape := ⟨1, ![100000]⟩
abbrev S3200000x1 : Shape := ⟨2, ![3200000, 1]⟩
abbrev S3200000x32 : Shape := ⟨2, ![3200000, 32]⟩
abbrev S100000x1 : Shape := ⟨2, ![100000, 1]⟩
abbrev S1x32 : Shape := ⟨2, ![1, 32]⟩
abbrev S100000x16 : Shape := ⟨2, ![100000, 16]⟩
abbrev S3200000x16 : Shape := ⟨2, ![3200000, 16]⟩
abbrev S1x16 : Shape := ⟨2, ![1, 16]⟩
abbrev S100000x2 : Shape := ⟨2, ![100000, 2]⟩
abbrev S3200000x2 : Shape := ⟨2, ![3200000, 2]⟩
abbrev S1x2 : Shape := ⟨2, ![1, 2]⟩

abbrev nBuf : Space → Nat
  | .hbm => 195
  | .vmem => 0
  | .smem => 0
  | _ => 0

abbrev hbmTy0_0 (i : Nat) : BufTy := match i % 128 with
  | 0 => ⟨S100000x165, .f32⟩
  | 1 => ⟨S2x3200000, .i32⟩
  | 2 => ⟨S165x32, .f32⟩
  | 3 => ⟨S32, .f32⟩
  | 4 => ⟨S32x16, .f32⟩
  | 5 => ⟨S16, .f32⟩
  | 6 => ⟨S16x2, .f32⟩
  | 7 => ⟨S2, .f32⟩
  | 8 => ⟨S1x3200000, .i32⟩
  | 9 => ⟨S3200000, .i32⟩
  | 10 => ⟨S1x3200000, .i32⟩
  | 11 => ⟨S3200000, .i32⟩
  | 12 => ⟨S100000x32, .f32⟩
  | 13 => ⟨S_, .f32⟩
  | 14 => ⟨S3200000, .f32⟩
  | 15 => ⟨S_, .f32⟩
  | 16 => ⟨S100000, .f32⟩
  | 17 => ⟨S3200000x1, .i32⟩
  | 18 => ⟨S100000, .f32⟩
  | 19 => ⟨S_, .f32⟩
  | 20 => ⟨S100000, .f32⟩
  | 21 => ⟨S100000, .f32⟩
  | 22 => ⟨S100000, .f32⟩
  | 23 => ⟨S_, .i32⟩
  | 24 => ⟨S3200000, .i32⟩
  | 25 => ⟨S3200000, .i1⟩
  | 26 => ⟨S_, .i32⟩
  | 27 => ⟨S3200000, .i32⟩
  | 28 => ⟨S3200000, .i32⟩
  | 29 => ⟨S3200000, .i32⟩
  | 30 => ⟨S3200000x1, .i32⟩
  | 31 => ⟨S3200000, .f32⟩
  | 32 => ⟨S_, .i32⟩
  | 33 => ⟨S3200000, .i32⟩
  | 34 => ⟨S3200000, .i1⟩
  | 35 => ⟨S_, .i32⟩
  | 36 => ⟨S3200000, .i32⟩
  | 37 => ⟨S3200000, .i32⟩
  | 38 => ⟨S3200000, .i32⟩
  | 39 => ⟨S3200000x1, .i32⟩
  | 40 => ⟨S3200000, .f32⟩
  | 41 => ⟨S3200000, .f32⟩
  | 42 => ⟨S_, .i32⟩
  | 43 => ⟨S3200000, .i32⟩
  | 44 => ⟨S3200000, .i1⟩
  | 45 => ⟨S_, .i32⟩
  | 46 => ⟨S3200000, .i32⟩
  | 47 => ⟨S3200000, .i32⟩
  | 48 => ⟨S3200000, .i32⟩
  | 49 => ⟨S3200000x1, .i32⟩
  | 50 => ⟨S3200000x32, .f32⟩
  | 51 => ⟨S3200000x1, .f32⟩
  | 52 => ⟨S3200000x32, .f32⟩
  | 53 => ⟨S3200000x32, .f32⟩
  | 54 => ⟨S_, .f32⟩
  | 55 => ⟨S100000x32, .f32⟩
  | 56 => ⟨S3200000x1, .i32⟩
  | 57 => ⟨S100000x32, .f32⟩
  | 58 => ⟨S100000, .f32⟩
  | 59 => ⟨S100000x1, .f32⟩
  | 60 => ⟨S100000x32, .f32⟩
  | 61 => ⟨S100000x32, .f32⟩
  | 62 => ⟨S100000x32, .f32⟩
  | 63 => ⟨S1x32, .f32⟩
  | 64 => ⟨S100000x32, .f32⟩
  | 65 => ⟨S100000x32, .f32⟩
  | 66 => ⟨S_, .f32⟩
  | 67 => ⟨S100000x32, .f32⟩
  | 68 => ⟨S100000x32, .f32⟩
  | 69 => ⟨S100000x16, .f32⟩
  | 70 => ⟨S_, .f32⟩
  | 71 => ⟨S3200000, .f32⟩
  | 72 => ⟨S_, .f32⟩
  | 73 => ⟨S100000, .f32⟩
  | 74 => ⟨S3200000x1, .i32⟩
  | 75 => ⟨S100000, .f32⟩
  | 76 => ⟨S_, .f32⟩
  | 77 => ⟨S100000, .f32⟩
  | 78 => ⟨S100000, .f32⟩
  | 79 => ⟨S100000, .f32⟩
  | 80 => ⟨S_, .i32⟩
  | 81 => ⟨S3200000, .i32⟩
  | 82 => ⟨S3200000, .i1⟩
  | 83 => ⟨S_, .i32⟩
  | 84 => ⟨S3200000, .i32⟩
  | 85 => ⟨S3200000, .i32⟩
  | 86 => ⟨S3200000, .i32⟩
  | 87 => ⟨S3200000x1, .i32⟩
  | 88 => ⟨S3200000, .f32⟩
  | 89 => ⟨S_, .i32⟩
  | 90 => ⟨S3200000, .i32⟩
  | 91 => ⟨S3200000, .i1⟩
  | 92 => ⟨S_, .i32⟩
  | 93 => ⟨S3200000, .i32⟩
  | 94 => ⟨S3200000, .i32⟩
  | 95 => ⟨S3200000, .i32⟩
  | 96 => ⟨S3200000x1, .i32⟩
  | 97 => ⟨S3200000, .f32⟩
  | 98 => ⟨S3200000, .f32⟩
  | 99 => ⟨S_, .i32⟩
  | 100 => ⟨S3200000, .i32⟩
  | 101 => ⟨S3200000, .i1⟩
  | 102 => ⟨S_, .i32⟩
  | 103 => ⟨S3200000, .i32⟩
  | 104 => ⟨S3200000, .i32⟩
  | 105 => ⟨S3200000, .i32⟩
  | 106 => ⟨S3200000x1, .i32⟩
  | 107 => ⟨S3200000x16, .f32⟩
  | 108 => ⟨S3200000x1, .f32⟩
  | 109 => ⟨S3200000x16, .f32⟩
  | 110 => ⟨S3200000x16, .f32⟩
  | 111 => ⟨S_, .f32⟩
  | 112 => ⟨S100000x16, .f32⟩
  | 113 => ⟨S3200000x1, .i32⟩
  | 114 => ⟨S100000x16, .f32⟩
  | 115 => ⟨S100000, .f32⟩
  | 116 => ⟨S100000x1, .f32⟩
  | 117 => ⟨S100000x16, .f32⟩
  | 118 => ⟨S100000x16, .f32⟩
  | 119 => ⟨S100000x16, .f32⟩
  | 120 => ⟨S1x16, .f32⟩
  | 121 => ⟨S100000x16, .f32⟩
  | 122 => ⟨S100000x16, .f32⟩
  | 123 => ⟨S_, .f32⟩
  | 124 => ⟨S100000x16, .f32⟩
  | 125 => ⟨S100000x16, .f32⟩
  | 126 => ⟨S100000x2, .f32⟩
  | 127 => ⟨S_, .f32⟩
  | _ => ⟨S100000x165, .f32⟩

abbrev hbmTy0_1 (i : Nat) : BufTy := match i % 128 with
  | 0 => ⟨S3200000, .f32⟩
  | 1 => ⟨S_, .f32⟩
  | 2 => ⟨S100000, .f32⟩
  | 3 => ⟨S3200000x1, .i32⟩
  | 4 => ⟨S100000, .f32⟩
  | 5 => ⟨S_, .f32⟩
  | 6 => ⟨S100000, .f32⟩
  | 7 => ⟨S100000, .f32⟩
  | 8 => ⟨S100000, .f32⟩
  | 9 => ⟨S_, .i32⟩
  | 10 => ⟨S3200000, .i32⟩
  | 11 => ⟨S3200000, .i1⟩
  | 12 => ⟨S_, .i32⟩
  | 13 => ⟨S3200000, .i32⟩
  | 14 => ⟨S3200000, .i32⟩
  | 15 => ⟨S3200000, .i32⟩
  | 16 => ⟨S3200000x1, .i32⟩
  | 17 => ⟨S3200000, .f32⟩
  | 18 => ⟨S_, .i32⟩
  | 19 => ⟨S3200000, .i32⟩
  | 20 => ⟨S3200000, .i1⟩
  | 21 => ⟨S_, .i32⟩
  | 22 => ⟨S3200000, .i32⟩
  | 23 => ⟨S3200000, .i32⟩
  | 24 => ⟨S3200000, .i32⟩
  | 25 => ⟨S3200000x1, .i32⟩
  | 26 => ⟨S3200000, .f32⟩
  | 27 => ⟨S3200000, .f32⟩
  | 28 => ⟨S_, .i32⟩
  | 29 => ⟨S3200000, .i32⟩
  | 30 => ⟨S3200000, .i1⟩
  | 31 => ⟨S_, .i32⟩
  | 32 => ⟨S3200000, .i32⟩
  | 33 => ⟨S3200000, .i32⟩
  | 34 => ⟨S3200000, .i32⟩
  | 35 => ⟨S3200000x1, .i32⟩
  | 36 => ⟨S3200000x2, .f32⟩
  | 37 => ⟨S3200000x1, .f32⟩
  | 38 => ⟨S3200000x2, .f32⟩
  | 39 => ⟨S3200000x2, .f32⟩
  | 40 => ⟨S_, .f32⟩
  | 41 => ⟨S100000x2, .f32⟩
  | 42 => ⟨S3200000x1, .i32⟩
  | 43 => ⟨S100000x2, .f32⟩
  | 44 => ⟨S100000, .f32⟩
  | 45 => ⟨S100000x1, .f32⟩
  | 46 => ⟨S100000x2, .f32⟩
  | 47 => ⟨S100000x2, .f32⟩
  | 48 => ⟨S100000x2, .f32⟩
  | 49 => ⟨S1x2, .f32⟩
  | 50 => ⟨S100000x2, .f32⟩
  | 51 => ⟨S100000x2, .f32⟩
  | 52 => ⟨S_, .f32⟩
  | 53 => ⟨S100000, .f32⟩
  | 54 => ⟨S_, .f32⟩
  | 55 => ⟨S100000, .f32⟩
  | 56 => ⟨S100000, .f32⟩
  | 57 => ⟨S100000x1, .f32⟩
  | 58 => ⟨S100000x2, .f32⟩
  | 59 => ⟨S100000x2, .f32⟩
  | 60 => ⟨S100000x2, .f32⟩
  | 61 => ⟨S_, .f32⟩
  | 62 => ⟨S100000, .f32⟩
  | 63 => ⟨S100000x1, .f32⟩
  | 64 => ⟨S100000x1, .f32⟩
  | 65 => ⟨S100000x2, .f32⟩
  | 66 => ⟨S100000x2, .f32⟩
  | _ => ⟨S100000x165, .f32⟩

abbrev hbmTy (i : Nat) : BufTy := match i / 128 with
  | 0 => hbmTy0_0 i
  | 1 => hbmTy0_1 i
  | _ => ⟨S100000x165, .f32⟩

abbrev bufTy : (tb : Table) → Fin (tcTables nBuf tb) → BufTy
  | .hbm, ⟨i, _⟩ => hbmTy i
  | _, _ => ⟨S100000x165, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_c_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_15 : Ref sig .tc := ⟨.hbm, 99, rfl⟩
abbrev main_v72 : Ref sig .tc := ⟨.hbm, 100, rfl⟩
abbrev main_v73 : Ref sig .tc := ⟨.hbm, 101, rfl⟩
abbrev main_c_16 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_17 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_call1_cst : Ref sig .tc := ⟨.hbm, 123, rfl⟩
abbrev main_call1_v0 : Ref sig .tc := ⟨.hbm, 124, rfl⟩
abbrev main_v93 : Ref sig .tc := ⟨.hbm, 125, rfl⟩
abbrev main_v94 : Ref sig .tc := ⟨.hbm, 126, rfl⟩
abbrev main_cst_18 : Ref sig .tc := ⟨.hbm, 127, rfl⟩
abbrev main_v95 : Ref sig .tc := ⟨.hbm, 128, rfl⟩
abbrev main_cst_19 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_cst_20 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_c_21 : Ref sig .tc := ⟨.hbm, 137, rfl⟩
abbrev main_v102 : Ref sig .tc := ⟨.hbm, 138, rfl⟩
abbrev main_v103 : Ref sig .tc := ⟨.hbm, 139, rfl⟩
abbrev main_c_22 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_c_23 : Ref sig .tc := ⟨.hbm, 146, rfl⟩
abbrev main_v109 : Ref sig .tc := ⟨.hbm, 147, rfl⟩
abbrev main_v110 : Ref sig .tc := ⟨.hbm, 148, rfl⟩
abbrev main_c_24 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_c_25 : Ref sig .tc := ⟨.hbm, 156, rfl⟩
abbrev main_v117 : Ref sig .tc := ⟨.hbm, 157, rfl⟩
abbrev main_v118 : Ref sig .tc := ⟨.hbm, 158, rfl⟩
abbrev main_c_26 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_cst_27 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_call2_cst : Ref sig .tc := ⟨.hbm, 180, rfl⟩
abbrev main_call2_v0 : Ref sig .tc := ⟨.hbm, 181, rfl⟩
abbrev main_call2_cst_0 : Ref sig .tc := ⟨.hbm, 182, rfl⟩
abbrev main_call2_v1 : Ref sig .tc := ⟨.hbm, 183, rfl⟩
abbrev main_call2_v2 : Ref sig .tc := ⟨.hbm, 184, rfl⟩
abbrev main_call2_v3 : Ref sig .tc := ⟨.hbm, 185, rfl⟩
abbrev main_call2_v4 : Ref sig .tc := ⟨.hbm, 186, rfl⟩
abbrev main_call2_v5 : Ref sig .tc := ⟨.hbm, 187, rfl⟩
abbrev main_call2_v6 : Ref sig .tc := ⟨.hbm, 188, rfl⟩
abbrev main_call2_cst_1 : Ref sig .tc := ⟨.hbm, 189, rfl⟩
abbrev main_call2_v7 : Ref sig .tc := ⟨.hbm, 190, rfl⟩
abbrev main_call2_v8 : Ref sig .tc := ⟨.hbm, 191, rfl⟩
abbrev main_call2_v9 : Ref sig .tc := ⟨.hbm, 192, rfl⟩
abbrev main_call2_v10 : Ref sig .tc := ⟨.hbm, 193, rfl⟩
abbrev main_v138 : Ref sig .tc := ⟨.hbm, 194, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3200000x1_S3200000x2_0_1 : S3200000x1.BroadcastsInDim S3200000x2 (![0, 1] : Fin 2 → Fin S3200000x2.rank)
  bcast_S_S100000x2 : S_.BroadcastsInDim S100000x2 (![] : Fin 0 → Fin S100000x2.rank)
  bcast_S100000x1_S100000x2_0_1 : S100000x1.BroadcastsInDim S100000x2 (![0, 1] : Fin 2 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  dot_S100000x165_S165x32_S100000x32_1_0_0_1_n_n_wf : DotDims.WF S100000x165 S165x32 S100000x32 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S100000x32_S32x16_S100000x16_1_0_0_1_n_n_wf : DotDims.WF S100000x32 S32x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x2_S100000x2_1_0_0_1_n_n_wf : DotDims.WF S100000x16 S16x2 S100000x2 [1] [0] [0] [1] [] []
  gather_S100000x2_S3200000x1_S3200000x2_1_0_n_n_0_1_12_wf : GatherDims.WF S100000x2 S3200000x1 S3200000x2 [1] [0] [] [0] [] 1 ![1, 2]
  scatter_S100000x2_S3200000x1_S3200000x2_1_0_0_1_wf : ScatterDims.WF S100000x2 S3200000x1 S3200000x2 [1] [0] [0] 1

variable [Facts₀]

def dot_S100000x165_S165x32_S100000x32_1_0_0_1_n_n : DotDims S100000x165 S165x32 S100000x32 where
  lhsContracting := [1]
  rhsContracting := [0]
  lhsNonContracting := [0]
  rhsNonContracting := [1]
  lhsBatch := []
  rhsBatch := []
  wf := dot_S100000x165_S165x32_S100000x32_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf
def gather_S100000x2_S3200000x1_S3200000x2_1_0_n_n_0_1_12 : GatherDims S100000x2 S3200000x1 S3200000x2 where
  offsetDims := [1]
  collapsedSliceDims := [0]
  operandBatchingDims := []
  startIndicesBatchingDims := []
  startIndexMap := [0]
  indexVectorDim := 1
  sliceSizes := ![1, 2]
  wf := gather_S100000x2_S3200000x1_S3200000x2_1_0_n_n_0_1_12_wf
def scatter_S100000x2_S3200000x1_S3200000x2_1_0_0_1 : ScatterDims S100000x2 S3200000x1 S3200000x2 where
  updateWindowDims := [1]
  insertedWindowDims := [0]
  scatterDimsToOperandDims := [0]
  indexVectorDim := 1
  wf := scatter_S100000x2_S3200000x1_S3200000x2_1_0_0_1_wf

class Facts : Prop extends Facts₀ where

variable [Facts]
-- ==== Proof.KernelRun.lean ====
/-
  The idealized kernel's run with its RESULT named.  @main is six regions among four stretches of host
  operations; the buffer contents at each boundary are a fold `W0 … W10` from the launch memory.  The last
  thread state holds every unscoped buffer at `W10`, so every weakly fair execution ends with the result
  buffer at `W10` read at that buffer, and with the argument arrays as launched.
-/
import proofs.«170347_j17600775979431_1_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last
    boundary's contents `W10`, and the eight argument arrays end as launched. -/
theorem run_value : θ_run defs (onTc (τ := τ) (main (F := F))) ⟨m, fun _ => 0, ρ⟩ (fun r => ∀ c : Dev nD,
      r.2.mem ((c.tc : Thread nD τ).loc main_v75) = W10 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v75 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.Val

end
-- ==== Proof.Spec.lean ====
/-
  The mathematics of one graph-convolution layer on the extended reals, as plain functions of arrays,
  index by index.  Nothing here mentions a program.

  * `matProd x w` : the matrix product, `(x · w)[r, j] = ∑ k, x[r, k] · w[k, j]`.
  * `combine agg h s b` : the per-node update before the activation,
      `(agg[r, j] + h[r, j] · s[r, 0]) + b[0, j]`
    (the aggregated neighbours, the self-loop scaled by the squared inverse root degree, the bias).
  * `reluOf v` : `max v 0`, entry by entry.
  * `logSoftmax2 v` : over rows of two entries, `(v − M) − log (exp (v[r,0] − M) + exp (v[r,1] − M))` with
    `M = max (−∞) (max over the row, folded from −∞)`.
  The scalar operations are the exact ones on the extended reals (sum, product, maximum, `exp`, `log`).
-/
import Idealize.ShloMosaic.PureOps.Ideal
import Idealize.ShloMosaic.Lib.ValueIdx

noncomputable section

namespace Cert.Spec

open Idealize.ShloMosaic Idealize.ShloMosaic.ValueIdx

/-- `(x · w)[r, j] = ∑ k, x[r, k] · w[k, j]`. -/
def matProd {n kk d : Nat} (x : (⟨2, ![n, kk]⟩ : Shape).Idx → EReal) (w : (⟨2, ![kk, d]⟩ : Shape).Idx → EReal) :
    (⟨2, ![n, d]⟩ : Shape).Idx → EReal :=
  fun i => ∑ k : Fin kk, x (ix2 (⟨(i 0).val, (i 0).isLt⟩ : Fin n) k) * w (ix2 k (⟨(i 1).val, (i 1).isLt⟩ : Fin d))

/-- `(agg[r, j] + h[r, j] · s[r, 0]) + b[0, j]`. -/
def combine {n d : Nat} (agg h : (⟨2, ![n, d]⟩ : Shape).Idx → EReal) (s : (⟨2, ![n, 1]⟩ : Shape).Idx → EReal)
    (b : (⟨2, ![1, d]⟩ : Shape).Idx → EReal) : (⟨2, ![n, d]⟩ : Shape).Idx → EReal :=
  fun i => FloatOps.addf (F := Ideal) (φ := .f32)
    (FloatOps.addf (F := Ideal) (φ := .f32) (agg i)
      (FloatOps.mulf (F := Ideal) (φ := .f32) (h i) (s (ix2 (⟨(i 0).val, (i 0).isLt⟩ : Fin n) (0 : Fin 1)))))
    (b (ix2 (0 : Fin 1) (⟨(i 1).val, (i 1).isLt⟩ : Fin d)))

/-- `max v 0`, entry by entry. -/
def reluOf {n d : Nat} (v : (⟨2, ![n, d]⟩ : Shape).Idx → EReal) : (⟨2, ![n, d]⟩ : Shape).Idx → EReal :=
  fun i => FloatOps.maximumf (F := Ideal) (φ := .f32) (v i) (FloatOps.ofBits (F := Ideal) .f32 0x00000000#32)

/-- The shift of a row of two: `max (−∞) (the row's maximum folded from −∞)`. -/
def rowShift2 {n : Nat} (v : (⟨2, ![n, 2]⟩ : Shape).Idx → EReal) (r : Fin n) : EReal :=
  FloatOps.maximumf (F := Ideal) (φ := .f32) (FloatOps.ofBits (F := Ideal) .f32 0xFF800000#32)
    ((Finset.univ : Finset (Fin 2)).fold max (FloatOps.ofBits (F := Ideal) .f32 0xFF800000#32) (fun k => v (ix2 r k)))

/-- `(v − M) − log (∑ over the row of exp (v − M))` over rows of two entries. -/
def logSoftmax2 {n : Nat} (v : (⟨2, ![n, 2]⟩ : Shape).Idx → EReal) : (⟨2, ![n, 2]⟩ : Shape).Idx → EReal :=
  fun i => FloatOps.subf (F := Ideal) (φ := .f32)
    (FloatOps.subf (F := Ideal) (φ := .f32) (v i) (rowShift2 v ⟨(i 0).val, (i 0).isLt⟩))
    (FloatOps.log (F := Ideal) (φ := .f32)
      (∑ k : Fin 2, FloatOps.exp (F := Ideal) (φ := .f32)
        (FloatOps.subf (F := Ideal) (φ := .f32) (v (ix2 (⟨(i 0).val, (i 0).isLt⟩ : Fin n) k)) (rowShift2 v ⟨(i 0).val, (i 0).isLt⟩))))

/-- The log-softmax of a row depends on that row only: two arrays that agree on a pair of rows have the same
    log-softmax on them. -/
theorem logSoftmax2_row {n n' : Nat} (v : (⟨2, ![n, 2]⟩ : Shape).Idx → EReal) (v' : (⟨2, ![n', 2]⟩ : Shape).Idx → EReal)
    (r : Fin n) (r' : Fin n') (h : ∀ k : Fin 2, v (ix2 r k) = v' (ix2 r' k)) (q : Fin 2) :
    logSoftmax2 v (ix2 r q) = logSoftmax2 v' (ix2 r' q) := by
  have hs : rowShift2 v r = rowShift2 v' r' := by
    unfold rowShift2
    rw [show (fun k => v (ix2 r k)) = fun k => v' (ix2 r' k) from funext h]
  show FloatOps.subf (F := Ideal) (φ := .f32)
      (FloatOps.subf (F := Ideal) (φ := .f32) (v (ix2 r q)) (rowShift2 v r))
      (FloatOps.log (F := Ideal) (φ := .f32)
        (∑ k : Fin 2, FloatOps.exp (F := Ideal) (φ := .f32)
          (FloatOps.subf (F := Ideal) (φ := .f32) (v (ix2 r k)) (rowShift2 v r))))
    = FloatOps.subf (F := Ideal) (φ := .f32)
      (FloatOps.subf (F := Ideal) (φ := .f32) (v' (ix2 r' q)) (rowShift2 v' r'))
      (FloatOps.log (F := Ideal) (φ := .f32)
        (∑ k : Fin 2, FloatOps.exp (F := Ideal) (φ := .f32)
          (FloatOps.subf (F := Ideal) (φ := .f32) (v' (ix2 r' k)) (rowShift2 v' r'))))
  have hsum : (∑ k : Fin 2, FloatOps.exp (F := Ideal) (φ := .f32)
        (FloatOps.subf (F := Ideal) (φ := .f32) (v (ix2 r k)) (rowShift2 v' r')))
      = ∑ k : Fin 2, FloatOps.exp (F := Ideal) (φ := .f32)
        (FloatOps.subf (F := Ideal) (φ := .f32) (v' (ix2 r' k)) (rowShift2 v' r')) :=
    Finset.sum_congr rfl fun k _ => by rw [h k]
  rw [hs, h q, hsum]

end Cert.Spec

end
-- ==== Proof.Chain.lean ====
/-
  The host operations both programs apply around the dense products, as plain functions of arrays at the
  ideal values: the two rows of the edge list, a node index counted from the end when negative, the inverse
  root degrees, the per-edge normalisation, the self-loop column, and per layer the gather / scale /
  scatter-add that aggregates neighbours.  Both programs print these operation for operation, so a proof
  about either names them and never opens a gather or a scatter.
-/
import proofs.«170347_j17600775979431_1_alg».proof.ReferenceIdeal
import proofs.«170347_j17600775979431_1_alg».proof.Proof.Gen.ReferenceIdeal
import Idealize.ShloMosaic.PureOps.Ideal

noncomputable section

namespace Cert.Chain

open Cert.ReferenceIdeal Cert.ReferenceIdeal.Gen Idealize.ShloMosaic

abbrev IVec (s : Shape) : Type := Vec Ideal s .i32
abbrev RVec (s : Shape) : Type := FVec Ideal s .f32

/-- Row 0 of the edge list: the source nodes. -/
def srcOf (e : IVec S2x3200000) : IVec S3200000 :=
  shapeCast _ (extractStridedSlice S1x3200000 ![0, 0] e slices_S2x3200000_S1x3200000_0_0) shapeCasts_S1x3200000_S3200000

/-- Row 1 of the edge list: the destination nodes. -/
def dstOf (e : IVec S2x3200000) : IVec S3200000 :=
  shapeCast _ (extractStridedSlice S1x3200000 ![1, 0] e slices_S2x3200000_S1x3200000_1_0) shapeCasts_S1x3200000_S3200000

/-- A node index, counted from the end when negative, as a column of indices. -/
def wrapIdx (v : IVec S3200000) : IVec S3200000x1 :=
  broadcastInDim S3200000x1 ![0] bcast_S3200000_S3200000x1_0
    (select (cmpi .slt v (broadcastInDim S3200000 ![] bcast_S_S3200000 (constantI S_ 32 0#32)))
      (addi v (broadcastInDim S3200000 ![] bcast_S_S3200000 (constantI S_ 32 100000#32))) v)

/-- The inverse root of each node's degree: one per incoming edge (summed from zero), plus one for the self-loop. -/
def dinvOf (dst : IVec S3200000) : RVec S100000 :=
  Host.rsqrt (F := Ideal) (addf (F := Ideal)
    (Host.scatterAdd (F := Ideal) scatter_S100000_S3200000x1_S3200000_n_0_0_1
      (broadcastInDim S100000 ![] bcast_S_S100000 (constant (F := Ideal) S_ .f32 0x00000000#32))
      (broadcastInDim S3200000x1 ![0] bcast_S3200000_S3200000x1_0 dst)
      (broadcastInDim S3200000 ![] bcast_S_S3200000 (constant (F := Ideal) S_ .f32 0x3F800000#32)))
    (broadcastInDim S100000 ![] bcast_S_S100000 (constant (F := Ideal) S_ .f32 0x3F800000#32)))

/-- The per-edge normalisation: the inverse root degrees of the edge's two ends, multiplied. -/
def normOf (src dst : IVec S3200000) : RVec S3200000 :=
  mulf (F := Ideal) (Host.gather gather_S100000_S3200000x1_S3200000_n_0_n_n_0_1_1 (dinvOf dst) (wrapIdx src))
    (Host.gather gather_S100000_S3200000x1_S3200000_n_0_n_n_0_1_1 (dinvOf dst) (wrapIdx dst))

/-- The self-loop weights as a column: the squared inverse root degrees. -/
def selfColOf (dst : IVec S3200000) : RVec S100000x1 :=
  broadcastInDim S100000x1 ![0] bcast_S100000_S100000x1_0 (mulf (F := Ideal) (dinvOf dst) (dinvOf dst))

/-- The aggregated neighbours over 32 features: every edge carries `h[src] · norm` into its destination
    node, summed from zero. -/
def agg32 (h : RVec S100000x32) (src dst : IVec S3200000) (nrm : RVec S3200000) : RVec S100000x32 :=
  Host.scatterAdd (F := Ideal) scatter_S100000x32_S3200000x1_S3200000x32_1_0_0_1
    (broadcastInDim S100000x32 ![] bcast_S_S100000x32 (constant (F := Ideal) S_ .f32 0x00000000#32))
    (broadcastInDim S3200000x1 ![0] bcast_S3200000_S3200000x1_0 dst)
    (mulf (F := Ideal) (Host.gather gather_S100000x32_S3200000x1_S3200000x32_1_0_n_n_0_1_132 h (wrapIdx src))
      (broadcastInDim S3200000x32 ![0, 1] bcast_S3200000x1_S3200000x32_0_1
        (broadcastInDim S3200000x1 ![0] bcast_S3200000_S3200000x1_0 nrm)))

/-- The layer's update over 32 features as the host writes it: the self-loop column and the bias vector
    spread over the whole array, then two sums. -/
def layerHost32 (agg h : RVec S100000x32) (selfCol : RVec S100000x1) (b : RVec S32) : RVec S100000x32 :=
  addf (F := Ideal) (addf (F := Ideal) agg (mulf (F := Ideal) h (broadcastInDim S100000x32 ![0, 1] bcast_S100000x1_S100000x32_0_1 selfCol)))
    (broadcastInDim S100000x32 ![0, 1] bcast_S1x32_S100000x32_0_1 (broadcastInDim S1x32 ![1] bcast_S32_S1x32_1 b))

/-- The maximum with zero as the host writes it. -/
def reluHost32 (v : RVec S100000x32) : RVec S100000x32 :=
  maximumf (F := Ideal) v (broadcastInDim S100000x32 ![] bcast_S_S100000x32 (constant (F := Ideal) S_ .f32 0x00000000#32))

/-- The aggregated neighbours over 16 features: every edge carries `h[src] · norm` into its destination
    node, summed from zero. -/
def agg16 (h : RVec S100000x16) (src dst : IVec S3200000) (nrm : RVec S3200000) : RVec S100000x16 :=
  Host.scatterAdd (F := Ideal) scatter_S100000x16_S3200000x1_S3200000x16_1_0_0_1
    (broadcastInDim S100000x16 ![] bcast_S_S100000x16 (constant (F := Ideal) S_ .f32 0x00000000#32))
    (broadcastInDim S3200000x1 ![0] bcast_S3200000_S3200000x1_0 dst)
    (mulf (F := Ideal) (Host.gather gather_S100000x16_S3200000x1_S3200000x16_1_0_n_n_0_1_116 h (wrapIdx src))
      (broadcastInDim S3200000x16 ![0, 1] bcast_S3200000x1_S3200000x16_0_1
        (broadcastInDim S3200000x1 ![0] bcast_S3200000_S3200000x1_0 nrm)))

/-- The layer's update over 16 features as the host writes it: the self-loop column and the bias vector
    spread over the whole array, then two sums. -/
def layerHost16 (agg h : RVec S100000x16) (selfCol : RVec S100000x1) (b : RVec S16) : RVec S100000x16 :=
  addf (F := Ideal) (addf (F := Ideal) agg (mulf (F := Ideal) h (broadcastInDim S100000x16 ![0, 1] bcast_S100000x1_S100000x16_0_1 selfCol)))
    (broadcastInDim S100000x16 ![0, 1] bcast_S1x16_S100000x16_0_1 (broadcastInDim S1x16 ![1] bcast_S16_S1x16_1 b))

/-- The maximum with zero as the host writes it. -/
def reluHost16 (v : RVec S100000x16) : RVec S100000x16 :=
  maximumf (F := Ideal) v (broadcastInDim S100000x16 ![] bcast_S_S100000x16 (constant (F := Ideal) S_ .f32 0x00000000#32))

/-- The aggregated neighbours over 2 features: every edge carries `h[src] · norm` into its destination
    node, summed from zero. -/
def agg2 (h : RVec S100000x2) (src dst : IVec S3200000) (nrm : RVec S3200000) : RVec S100000x2 :=
  Host.scatterAdd (F := Ideal) scatter_S100000x2_S3200000x1_S3200000x2_1_0_0_1
    (broadcastInDim S100000x2 ![] bcast_S_S100000x2 (constant (F := Ideal) S_ .f32 0x00000000#32))
    (broadcastInDim S3200000x1 ![0] bcast_S3200000_S3200000x1_0 dst)
    (mulf (F := Ideal) (Host.gather gather_S100000x2_S3200000x1_S3200000x2_1_0_n_n_0_1_12 h (wrapIdx src))
      (broadcastInDim S3200000x2 ![0, 1] bcast_S3200000x1_S3200000x2_0_1
        (broadcastInDim S3200000x1 ![0] bcast_S3200000_S3200000x1_0 nrm)))

/-- The layer's update over 2 features as the host writes it: the self-loop column and the bias vector
    spread over the whole array, then two sums. -/
def layerHost2 (agg h : RVec S100000x2) (selfCol : RVec S100000x1) (b : RVec S2) : RVec S100000x2 :=
  addf (F := Ideal) (addf (F := Ideal) agg (mulf (F := Ideal) h (broadcastInDim S100000x2 ![0, 1] bcast_S100000x1_S100000x2_0_1 selfCol)))
    (broadcastInDim S100000x2 ![0, 1] bcast_S1x2_S100000x2_0_1 (broadcastInDim S1x2 ![1] bcast_S2_S1x2_1 b))

/-- The maximum with zero as the host writes it. -/
def reluHost2 (v : RVec S100000x2) : RVec S100000x2 :=
  maximumf (F := Ideal) v (broadcastInDim S100000x2 ![] bcast_S_S100000x2 (constant (F := Ideal) S_ .f32 0x00000000#32))

end Cert.Chain

end
-- ==== Proof.Network.lean ====
/-
  The three-layer graph convolution as ONE function of the eight argument arrays, on the extended reals:
    p₁ = x · W₁,   h₁ = max (agg(p₁) + p₁ · s + b₁) 0,
    p₂ = h₁ · W₂,  h₂ = max (agg(p₂) + p₂ · s + b₂) 0,
    p₃ = h₂ · W₃,  out = logSoftmax (agg(p₃) + p₃ · s + b₃),
  where `agg` gathers each edge's source row, scales it by the edge's normalisation and sums it into the edge's
  destination row, and `s` is the column of squared inverse root degrees.  Both programs are shown to end at `out`.
-/
import proofs.«170347_j17600775979431_1_alg».proof.Proof.Spec
import proofs.«170347_j17600775979431_1_alg».proof.Proof.Chain

noncomputable section

namespace Cert.Network

open Cert.ReferenceIdeal Cert.Spec Cert.Chain Idealize.ShloMosaic

theorem cast32 : S32.ShapeCasts S1x32 := by decide
theorem cast16 : S16.ShapeCasts S1x16 := by decide
theorem cast2 : S2.ShapeCasts S1x2 := by decide

variable (x : RVec S100000x165) (e : IVec S2x3200000) (w1 : RVec S165x32) (b1 : RVec S32) (w2 : RVec S32x16) (b2 : RVec S16)
  (w3 : RVec S16x2) (b3 : RVec S2)

/-- The first dense product. -/
def p1 : RVec S100000x32 := matProd (n := 100000) (kk := 165) (d := 32) x w1

/-- The first layer's output. -/
def h1 : RVec S100000x32 :=
  reluOf (n := 100000) (d := 32) (combine (n := 100000) (d := 32)
    (agg32 (p1 x w1) (srcOf e) (dstOf e) (normOf (srcOf e) (dstOf e))) (p1 x w1) (selfColOf (dstOf e)) (shapeCast S1x32 b1 cast32))

/-- The second dense product. -/
def p2 : RVec S100000x16 := matProd (n := 100000) (kk := 32) (d := 16) (h1 x e w1 b1) w2

/-- The second layer's output. -/
def h2 : RVec S100000x16 :=
  reluOf (n := 100000) (d := 16) (combine (n := 100000) (d := 16)
    (agg16 (p2 x e w1 b1 w2) (srcOf e) (dstOf e) (normOf (srcOf e) (dstOf e))) (p2 x e w1 b1 w2) (selfColOf (dstOf e)) (shapeCast S1x16 b2 cast16))

/-- The third dense product. -/
def p3 : RVec S100000x2 := matProd (n := 100000) (kk := 16) (d := 2) (h2 x e w1 b1 w2 b2) w3

/-- The network's result. -/
def out : RVec S100000x2 :=
  logSoftmax2 (n := 100000) (combine (n := 100000) (d := 2)
    (agg2 (p3 x e w1 b1 w2 b2 w3) (srcOf e) (dstOf e) (normOf (srcOf e) (dstOf e))) (p3 x e w1 b1 w2 b2 w3) (selfColOf (dstOf e)) (shapeCast S1x2 b3 cast2))

end Cert.Network

end
-- ==== Proof.Matmul0.lean ====
/-
  Region 0 of the idealized kernel: twenty row blocks of `x` (5000 × 165 each) against the whole
  `W1` (165 × 32).  On the extended reals a change of float format is the identity and the product into a
  zero accumulator is the plain sum, so block `t` of the output is rows `5000 t … 5000 t + 4999` of the one
  product `x · W1`; the twenty blocks tile the output array, which therefore ends holding `x · W1` —
  whatever the buffers hold when the region is entered (`V`).
-/
import proofs.«170347_j17600775979431_1_alg».proof.Proof.Gen.KernelIdeal.Frame
import proofs.«170347_j17600775979431_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.Spec
open Idealize.ShloMosaic Idealize.ShloMosaic.TcCoe Idealize.SL.Sem Idealize.ShloMosaic.ValueIdx
open Idealize.ShloMosaic.Pipeline (Dat)

/-- One entry of the block product: the sum over the contracted axis. -/
theorem pay0_apply (x0 : Vec Ideal S5000x165 .f32) (x1 : Vec Ideal S165x32 .f32) (j : S5000x32.Idx) :
    k0_pay1 (F := Ideal) x0 x1 j
      = ∑ k : Fin 165, x0 (ix2 (⟨(j 0).val, (j 0).isLt⟩ : Fin 5000) k) * x1 (ix2 k (⟨(j 1).val, (j 1).isLt⟩ : Fin 32)) := by
  unfold k0_pay1
  dsimp only
  refine (Ideal.matmul_constant_zero_apply dot_S5000x165_S165x32_S5000x32_1_0_0_1_n_n none _ _ j).trans ?_
  rw [← Equiv.sum_comp (contrEquiv1 dot_S5000x165_S165x32_S5000x32_1_0_0_1_n_n 165 rfl rfl).symm]
  refine Finset.sum_congr rfl fun k _ => ?_
  have hk := contrEquiv1_symm_val dot_S5000x165_S165x32_S5000x32_1_0_0_1_n_n 165 rfl rfl k
  have el : dot_S5000x165_S165x32_S5000x32_1_0_0_1_n_n.lhsIdx j ((contrEquiv1 dot_S5000x165_S165x32_S5000x32_1_0_0_1_n_n 165 rfl rfl).symm k)
      = ix2 (⟨(j 0).val, (j 0).isLt⟩ : Fin 5000) k := funext fun a => Fin.ext (by
    match a with
    | ⟨0, _⟩ =>
      show (dot_S5000x165_S165x32_S5000x32_1_0_0_1_n_n.lhsIdx j _ 0).val = (j 0).val
      unfold DotDims.lhsIdx
      rw [dif_neg (show ¬(0 : Fin S5000x165.rank) ∈ dot_S5000x165_S165x32_S5000x32_1_0_0_1_n_n.lhsBatch by decide),
        dif_pos (show (0 : Fin S5000x165.rank) ∈ dot_S5000x165_S165x32_S5000x32_1_0_0_1_n_n.lhsNonContracting by decide)]
      rfl
    | ⟨1, _⟩ => exact (dot_S5000x165_S165x32_S5000x32_1_0_0_1_n_n.lhsIdx_val_of_single rfl j _).trans hk)
  have er : dot_S5000x165_S165x32_S5000x32_1_0_0_1_n_n.rhsIdx j ((contrEquiv1 dot_S5000x165_S165x32_S5000x32_1_0_0_1_n_n 165 rfl rfl).symm k)
      = ix2 k (⟨(j 1).val, (j 1).isLt⟩ : Fin 32) := funext fun a => Fin.ext (by
    match a with
    | ⟨0, _⟩ => exact (dot_S5000x165_S165x32_S5000x32_1_0_0_1_n_n.rhsIdx_val_of_single rfl j _).trans hk
    | ⟨1, _⟩ =>
      show (dot_S5000x165_S165x32_S5000x32_1_0_0_1_n_n.rhsIdx j _ 1).val = (j 1).val
      unfold DotDims.rhsIdx
      rw [dif_neg (show ¬(1 : Fin S165x32.rank) ∈ dot_S5000x165_S165x32_S5000x32_1_0_0_1_n_n.rhsBatch by decide),
        dif_pos (show (1 : Fin S165x32.rank) ∈ dot_S5000x165_S165x32_S5000x32_1_0_0_1_n_n.rhsNonContracting by decide)]
      rfl)
  rw [el, er]
  rfl

variable (V : (c : Dev nD) → (b : Ref sig .tc) → Buf (Elt Ideal) ((c : Thread nD τ).loc b))

private theorem zero2 : (![0, 0] : Fin 2 → Nat) = fun _ => 0 := funext fun a => by fin_cases a <;> rfl

/-- The index maps over the grid: the `x` block and the output block move down one block per point, the
    weight block stays. -/
theorem index_maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `x · W1`. -/
theorem flushed0 (c : Dev nD) (t : Fin cfg0.N) :
    (dat0 V c).flushed 2 t = ((cfg0.win 2).blk t).view.read (Elt Ideal)
      (matProd (n := 100000) (kk := 165) (d := 32) (V c main_arg0) (V c main_arg2)) := by
  show (cfg0.win 2).cut (grid0.coords t) ((dat0 V c).after 2 t) = _
  rw [after0_2]
  unfold out0_2
  rw [View.canon_unit_zero zero2]
  simp only [View.ld_unit_zero (S := S5000x165) zero2, View.ld_unit_zero (S := S165x32) zero2]
  obtain ⟨e0, e1, e2, e3, e4, e5⟩ := index_maps0 t
  funext j
  refine (pay0_apply _ _ j).trans ?_
  show _ = matProd (n := 100000) (kk := 165) (d := 32) (V c main_arg0) (V c main_arg2) (((cfg0.win 2).blk t).view.emb j)
  unfold matProd
  refine Finset.sum_congr rfl fun k _ => ?_
  have h0 : ((cfg0.win 0).blk t).view.emb (ix2 (⟨(j 0).val, (j 0).isLt⟩ : Fin 5000) k)
      = ix2 (⟨((((cfg0.win 2).blk t).view.emb j) 0).val, ((((cfg0.win 2).blk t).view.emb j) 0).isLt⟩ : Fin 100000) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 165 + 1 * k.val = k.val; omega
  have h1 : ((cfg0.win 1).blk t).view.emb (ix2 k (⟨(j 1).val, (j 1).isLt⟩ : Fin 32))
      = ix2 k (⟨((((cfg0.win 2).blk t).view.emb j) 1).val, ((((cfg0.win 2).blk t).view.emb j) 1).isLt⟩ : Fin 32) := by
    funext a; apply Fin.ext
    match a with
    | ⟨0, _⟩ => show win0_1.index t (0 : Fin 2) * 165 + 1 * k.val = k.val; omega
    | ⟨1, _⟩ => show win0_1.index t (1 : Fin 2) * 32 + 1 * (j 1).val = win0_2.index t (1 : Fin 2) * 32 + 1 * (j 1).val; omega
  have r0 : iblk0 V c 0 t (ix2 (⟨(j 0).val, (j 0).isLt⟩ : Fin 5000) k)
      = V c main_arg0 (ix2 (⟨((((cfg0.win 2).blk t).view.emb j) 0).val, ((((cfg0.win 2).blk t).view.emb j) 0).isLt⟩ : Fin 100000) k) :=
    congrArg (V c main_arg0) h0
  have r1 : iblk0 V c 1 t (ix2 k (⟨(j 1).val, (j 1).isLt⟩ : Fin 32))
      = V c main_arg2 (ix2 k (⟨((((cfg0.win 2).blk t).view.emb j) 1).val, ((((cfg0.win 2).blk t).view.emb j) 1).isLt⟩ : Fin 32)) :=
    congrArg (V c main_arg2) h1
  rw [r0, r1]

/-- An index of the output array is in point `t`'s block iff each coordinate is in the block's range. -/
theorem mem_blk0 (t : Fin cfg0.N) (i : S100000x32.Idx) :
    i ∈ ((cfg0.win 2).blk t).view.set ↔ ∀ a : Fin 2, win0_2.index t a * S5000x32.size a ≤ (i a).val ∧ (i a).val < win0_2.index t a * S5000x32.size a + S5000x32.size a := by
  show i ∈ ((View.whole main_v28).slice (win0_2.rect t)).set ↔ _
  rw [View.set_slice_whole, Rect.mem_set_unit]
  exact Iff.rfl

/-- Row `r` of the output lies in the block of point `r / 5000`. -/
theorem cover0 (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  refine ⟨⟨(i 0).val / 5000, by show _ < 20; omega⟩, flush0_2 _, ?_⟩
  rw [mem_blk0]
  obtain ⟨e0, e1, e2, e3, e4, e5⟩ := index_maps0 ⟨(i 0).val / 5000, by show _ < 20; omega⟩
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ _ ∧ _ < (i 0).val / 5000 * 5000 + 5000; omega
  | ⟨1, _⟩ =>
    show win0_2.index _ (1 : Fin 2) * 32 ≤ (i 1).val ∧ (i 1).val < win0_2.index _ (1 : Fin 2) * 32 + 32
    rw [e5]; omega

/-- THE OUTPUT ARRAY of region 0, whatever the entry contents: the product `x · W1`. -/
theorem final0 (c : Dev nD) :
    (dat0 V c).arrAt 2 cfg0.N = matProd (n := 100000) (kk := 165) (d := 32) (V c main_arg0) (V c main_arg2) :=
  (dat0 V c).arrAt_eq_of_cover 2 _ (fun t _ => flushed0 V c t) cover0

end Cert.KernelIdeal.Val

end
-- ==== Proof.Combine1.lean ====
/-
  Region 1 of the idealized kernel: per block of 5000 nodes, the first layer's update
  `max ((agg + h · s) + b) 0` — `agg` the aggregated neighbours, `h` the transformed features, `s` the
  column of squared inverse root degrees, `b` the bias row.  Every entry of an output block depends on the
  entries of `agg` and `h` at the same place, on `s` in its row and on `b` in its column, so block `t` is
  rows `5000 t …` of one whole-array function; the twenty blocks tile the output array.
-/
import proofs.«170347_j17600775979431_1_alg».proof.Proof.Gen.KernelIdeal.Frame
import proofs.«170347_j17600775979431_1_alg».proof.Proof.Spec
import Idealize.ShloMosaic.Lib.Pipeline.Value
import Idealize.ShloMosaic.Lib.ValueIdx

set_option maxRecDepth 16384

noncomputable section

namespace Cert.KernelIdeal.Val

open Cert.KernelIdeal Cert.KernelIdeal.Gen Cert.Spec
open Idealize.ShloMosaic Idealize.ShloMosaic.TcCoe Idealize.SL.Sem Idealize.ShloMosaic.ValueIdx
open Idealize.ShloMosaic.Pipeline (Dat)

/-- One entry of the body's result: the update at that entry, then the maximum with zero. -/
theorem pay1_apply (x0 x1 : Vec Ideal S5000x32 .f32) (x2 : Vec Ideal S5000x1 .f32) (x3 : Vec Ideal S1x32 .f32) (j : S5000x32.Idx) :
    k1_pay1 (F := Ideal) x0 x1 x2 x3 j
      = FloatOps.maximumf (F := Ideal) (φ := .f32)
          (FloatOps.addf (F := Ideal) (φ := .f32)
            (FloatOps.addf (F := Ideal) (φ := .f32) (x0 j)
              (FloatOps.mulf (F := Ideal) (φ := .f32) (x1 j) (x2 (ix2 (⟨(j 0).val, (j 0).isLt⟩ : Fin 5000) (0 : Fin 1)))))
            (x3 (ix2 (0 : Fin 1) (⟨(j 1).val, (j 1).isLt⟩ : Fin 32))))
          (FloatOps.ofBits (F := Ideal) .f32 0x00000000#32) := by
  unfold k1_pay1
  dsimp only
  rw [shapeCast_self, shapeCast_self, shapeCast_self, shapeCast_self]
  have hs : broadcastTo S5000x32 x2 broadcasts_S5000x1_S5000x32 j = x2 (ix2 (⟨(j 0).val, (j 0).isLt⟩ : Fin 5000) (0 : Fin 1)) :=
    broadcastTo_apply x2 broadcasts_S5000x1_S5000x32 j _ (fun a => by
      match a with
      | ⟨0, _⟩ => rfl
      | ⟨1, _⟩ => rfl)
  have hb : broadcastTo S5000x32 x3 broadcasts_S1x32_S5000x32 j = x3 (ix2 (0 : Fin 1) (⟨(j 1).val, (j 1).isLt⟩ : Fin 32)) :=
    broadcastTo_apply x3 broadcasts_S1x32_S5000x32 j _ (fun a => by
      match a with
      | ⟨0, _⟩ => rfl
      | ⟨1, _⟩ => rfl)
  show FloatOps.maximumf (F := Ideal) (φ := .f32)
      (FloatOps.addf (F := Ideal) (φ := .f32)
        (FloatOps.addf (F := Ideal) (φ := .f32) (x0 j)
          (FloatOps.mulf (F := Ideal) (φ := .f32) (x1 j) (broadcastTo S5000x32 x2 broadcasts_S5000x1_S5000x32 j)))
        (broadcastTo S5000x32 x3 broadcasts_S1x32_S5000x32 j))
      (FloatOps.ofBits (F := Ideal) .f32 0x00000000#32) = _
  rw [hs, hb]

variable (V : (c : Dev nD) → (b : Ref sig .tc) → Buf (Elt Ideal) ((c : Thread nD τ).loc b))

private theorem zero2 : (![0, 0] : Fin 2 → Nat) = fun _ => 0 := funext fun a => by fin_cases a <;> rfl

/-- The index maps over the grid: `agg`, `h`, `s` and the output move down one block per point, the bias
    row stays. -/
theorem index_maps1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of the layer's update of the four arrays as the region finds them. -/
theorem flushed1 (c : Dev nD) (t : Fin cfg1.N) :
    (dat1 V c).flushed 4 t = ((cfg1.win 4).blk t).view.read (Elt Ideal)
      (reluOf (combine (n := 100000) (d := 32) (V c main_v41) (V c main_v28) (V c main_v27) (V c main_v42))) := by
  show (cfg1.win 4).cut (grid1.coords t) ((dat1 V c).after 4 t) = _
  rw [after1_4]
  unfold out1_4
  rw [View.canon_unit_zero zero2]
  simp only [View.ld_unit_zero (S := S5000x32) zero2, View.ld_unit_zero (S := S5000x1) zero2, View.ld_unit_zero (S := S1x32) zero2]
  obtain ⟨e0, e1, e2, e3, e4, e5, e6, e7, e8, e9⟩ := index_maps1 t
  funext j
  refine (pay1_apply _ _ _ _ j).trans ?_
  show _ = reluOf (combine (n := 100000) (d := 32) (V c main_v41) (V c main_v28) (V c main_v27) (V c main_v42)) (((cfg1.win 4).blk t).view.emb j)
  unfold reluOf combine
  have h0 : ((cfg1.win 0).blk t).view.emb j = ((cfg1.win 4).blk t).view.emb j := by
    funext a; apply Fin.ext
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 32 + 1 * (j 1).val = win1_4.index t (1 : Fin 2) * 32 + 1 * (j 1).val; omega
  have h1 : ((cfg1.win 1).blk t).view.emb j = ((cfg1.win 4).blk t).view.emb j := by
    funext a; apply Fin.ext
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 32 + 1 * (j 1).val = win1_4.index t (1 : Fin 2) * 32 + 1 * (j 1).val; omega
  have h2 : ((cfg1.win 2).blk t).view.emb (ix2 (⟨(j 0).val, (j 0).isLt⟩ : Fin 5000) (0 : Fin 1))
      = ix2 (⟨((((cfg1.win 4).blk t).view.emb j) 0).val, ((((cfg1.win 4).blk t).view.emb j) 0).isLt⟩ : Fin 100000) (0 : Fin 1) := by
    funext a; apply Fin.ext
    match a with
    | ⟨0, _⟩ => show win1_2.index t (0 : Fin 2) * 5000 + 1 * (j 0).val = win1_4.index t (0 : Fin 2) * 5000 + 1 * (j 0).val; omega
    | ⟨1, _⟩ => show win1_2.index t (1 : Fin 2) * 1 + 1 * 0 = 0; omega
  have h3 : ((cfg1.win 3).blk t).view.emb (ix2 (0 : Fin 1) (⟨(j 1).val, (j 1).isLt⟩ : Fin 32))
      = ix2 (0 : Fin 1) (⟨((((cfg1.win 4).blk t).view.emb j) 1).val, ((((cfg1.win 4).blk t).view.emb j) 1).isLt⟩ : Fin 32) := by
    funext a; apply Fin.ext
    match a with
    | ⟨0, _⟩ => show win1_3.index t (0 : Fin 2) * 1 + 1 * 0 = 0; omega
    | ⟨1, _⟩ => show win1_3.index t (1 : Fin 2) * 32 + 1 * (j 1).val = win1_4.index t (1 : Fin 2) * 32 + 1 * (j 1).val; omega
  have r0 : iblk1 V c 0 t j = V c main_v41 (((cfg1.win 4).blk t).view.emb j) := congrArg (V c main_v41) h0
  have r1 : iblk1 V c 1 t j = V c main_v28 (((cfg1.win 4).blk t).view.emb j) := congrArg (V c main_v28) h1
  have r2 : iblk1 V c 2 t (ix2 (⟨(j 0).val, (j 0).isLt⟩ : Fin 5000) (0 : Fin 1))
      = V c main_v27 (ix2 (⟨((((cfg1.win 4).blk t).view.emb j) 0).val, ((((cfg1.win 4).blk t).view.emb j) 0).isLt⟩ : Fin 100000) (0 : Fin 1)) :=
    congrArg (V c main_v27) h2
  have r3 : iblk1 V c 3 t (ix2 (0 : Fin 1) (⟨(j 1).val, (j 1).isLt⟩ : Fin 32))
      = V c main_v42 (ix2 (0 : Fin 1) (⟨((((cfg1.win 4).blk t).view.emb j) 1).val, ((((cfg1.win 4).blk t).view.emb j) 1).isLt⟩ : Fin 32)) :=
    congrArg (V c main_v42) h3
  rw [r0, r1, r2, r3]

/-- An index of the output array is in point `t`'s block iff each coordinate is in the block's range. -/
theorem mem_blk1 (t : Fin cfg1.N) (i : S100000x32.Idx) :
    i ∈ ((cfg1.win 4).blk t).view.set ↔ ∀ a : Fin 2, win1_4.index t a * S5000x32.size a ≤ (i a).val ∧ (i a).val < win1_4.index t a * S5000x32.size a + S5000x32.size a := by
  show i ∈ ((View.whole main_v43).slice (win1_4.rect t)).set ↔ _
  rw [View.set_slice_whole, Rect.mem_set_unit]
  exact Iff.rfl

/-- Row `r` of the output lies in the block of point `r / 5000`. -/
theorem cover1 (i : S100000x32.Idx) :
    ∃ t : Fin cfg1.N, (cfg1.win 4).flush t = true ∧ i ∈ ((cfg1.win 4).blk t).view.set := by
  have hi0 : (i 0).val < 100000 := (i 0).isLt
  have hi1 : (i 1).val < 32 := (i 1).isLt
  refine ⟨⟨(i 0).val / 5000, by show _ < 20; omega⟩, flush1_4 _, ?_⟩
  rw [mem_blk1]
  obtain ⟨e0, e1, e2, e3, e4, e5, e6, e7, e8, e9⟩ := index_maps1 ⟨(i 0).val / 5000, by show _ < 20; omega⟩
  intro a
  match a with
  | ⟨0, _⟩ =>
    show win1_4.index _ (0 : Fin 2) * 5000 ≤ (i 0).val ∧ (i 0).val < win1_4.index _ (0 : Fin 2) * 5000 + 5000
    rw [e8]; show (i 0).val / 5000 * 5000 ≤ _ ∧ _ < (i 0).val / 5000 * 5000 + 5000; omega
  | ⟨1, _⟩ =>
    show win1_4.index _ (1 : Fin 2) * 32 ≤ (i 1).val ∧ (i 1).val < win1_4.index _ (1 : Fin 2) * 32 + 32
    rw [e9]; omega

/-- THE OUTPUT ARRAY of region 1, whatever the entry contents: the first layer's update, then the maximum
    with zero. -/
theorem final1 (c : Dev nD) :
    (dat1 V c).arrAt 4 cfg1.N
      = reluOf (combine (n := 100000) (d := 32) (V c main_v41) (V c main_v28) (V c main_v27) (V c main_v42)) :=
  (dat1 V c).arrAt_eq_of_cover 4 _ (fun t _ => flushed1 V c t) cover1

end Cert.KernelIdeal.Val

end
-- ==== Proof.Matmul2.lean ====
/-
  Region 2 of the idealized kernel: twenty row blocks of the first layer's output `h` (5000 × 32 each)
  against the whole second weight matrix `W` (32 × 16).  As in region 0, on the extended reals the format
  changes are the identity and the product into a zero accumulator is the plain sum, so block `t` of the
  output is rows `5000 t …` of the one product `h · W`, and the twenty blocks tile the output array.
-/
import proofs.«170347_j17600775979431_1_alg».proof.Proof.Gen.KernelIdeal.Frame
import proofs.«170347_j17600775979431_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.Spec
open Idealize.ShloMosaic Idealize.ShloMosaic.TcCoe Idealize.SL.Sem Idealize.ShloMosaic.ValueIdx
open Idealize.ShloMosaic.Pipeline (Dat)

/-- One entry of the block product: the sum over the contracted axis. -/
theorem pay2_apply (x0 : Vec Ideal S5000x32 .f32) (x1 : Vec Ideal S32x16 .f32) (j : S5000x16.Idx) :
    k2_pay1 (F := Ideal) x0 x1 j
      = ∑ k : Fin 32, x0 (ix2 (⟨(j 0).val, (j 0).isLt⟩ : Fin 5000) k) * x1 (ix2 k (⟨(j 1).val, (j 1).isLt⟩ : Fin 16)) := by
  unfold k2_pay1
  dsimp only
  refine (Ideal.matmul_constant_zero_apply dot_S5000x32_S32x16_S5000x16_1_0_0_1_n_n none _ _ j).trans ?_
  rw [← Equiv.sum_comp (contrEquiv1 dot_S5000x32_S32x16_S5000x16_1_0_0_1_n_n 32 rfl rfl).symm]
  refine Finset.sum_congr rfl fun k _ => ?_
  have hk := contrEquiv1_symm_val dot_S5000x32_S32x16_S5000x16_1_0_0_1_n_n 32 rfl rfl k
  have el : dot_S5000x32_S32x16_S5000x16_1_0_0_1_n_n.lhsIdx j ((contrEquiv1 dot_S5000x32_S32x16_S5000x16_1_0_0_1_n_n 32 rfl rfl).symm k)
      = ix2 (⟨(j 0).val, (j 0).isLt⟩ : Fin 5000) k := funext fun a => Fin.ext (by
    match a with
    | ⟨0, _⟩ =>
      show (dot_S5000x32_S32x16_S5000x16_1_0_0_1_n_n.lhsIdx j _ 0).val = (j 0).val
      unfold DotDims.lhsIdx
      rw [dif_neg (show ¬(0 : Fin S5000x32.rank) ∈ dot_S5000x32_S32x16_S5000x16_1_0_0_1_n_n.lhsBatch by decide),
        dif_pos (show (0 : Fin S5000x32.rank) ∈ dot_S5000x32_S32x16_S5000x16_1_0_0_1_n_n.lhsNonContracting by decide)]
      rfl
    | ⟨1, _⟩ => exact (dot_S5000x32_S32x16_S5000x16_1_0_0_1_n_n.lhsIdx_val_of_single rfl j _).trans hk)
  have er : dot_S5000x32_S32x16_S5000x16_1_0_0_1_n_n.rhsIdx j ((contrEquiv1 dot_S5000x32_S32x16_S5000x16_1_0_0_1_n_n 32 rfl rfl).symm k)
      = ix2 k (⟨(j 1).val, (j 1).isLt⟩ : Fin 16) := funext fun a => Fin.ext (by
    match a with
    | ⟨0, _⟩ => exact (dot_S5000x32_S32x16_S5000x16_1_0_0_1_n_n.rhsIdx_val_of_single rfl j _).trans hk
    | ⟨1, _⟩ =>
      show (dot_S5000x32_S32x16_S5000x16_1_0_0_1_n_n.rhsIdx j _ 1).val = (j 1).val
      unfold DotDims.rhsIdx
      rw [dif_neg (show ¬(1 : Fin S32x16.rank) ∈ dot_S5000x32_S32x16_S5000x16_1_0_0_1_n_n.rhsBatch by decide),
        dif_pos (show (1 : Fin S32x16.rank) ∈ dot_S5000x32_S32x16_S5000x16_1_0_0_1_n_n.rhsNonContracting by decide)]
      rfl)
  rw [el, er, shapeCast_self]
  rfl

variable (V : (c : Dev nD) → (b : Ref sig .tc) → Buf (Elt Ideal) ((c : Thread nD τ).loc b))

private theorem zero2 : (![0, 0] : Fin 2 → Nat) = fun _ => 0 := funext fun a => by fin_cases a <;> rfl

/-- The index maps over the grid: the `x` block and the output block move down one block per point, the
    weight block stays. -/
theorem index_maps2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of `x · W1`. -/
theorem flushed2 (c : Dev nD) (t : Fin cfg2.N) :
    (dat2 V c).flushed 2 t = ((cfg2.win 2).blk t).view.read (Elt Ideal)
      (matProd (n := 100000) (kk := 32) (d := 16) (V c main_v43) (V c main_arg4)) := by
  show (cfg2.win 2).cut (grid2.coords t) ((dat2 V c).after 2 t) = _
  rw [after2_2]
  unfold out2_2
  rw [View.canon_unit_zero zero2]
  simp only [View.ld_unit_zero (S := S5000x32) zero2, View.ld_unit_zero (S := S32x16) zero2]
  obtain ⟨e0, e1, e2, e3, e4, e5⟩ := index_maps2 t
  funext j
  refine (pay2_apply _ _ j).trans ?_
  show _ = matProd (n := 100000) (kk := 32) (d := 16) (V c main_v43) (V c main_arg4) (((cfg2.win 2).blk t).view.emb j)
  unfold matProd
  refine Finset.sum_congr rfl fun k _ => ?_
  have h0 : ((cfg2.win 0).blk t).view.emb (ix2 (⟨(j 0).val, (j 0).isLt⟩ : Fin 5000) k)
      = ix2 (⟨((((cfg2.win 2).blk t).view.emb j) 0).val, ((((cfg2.win 2).blk t).view.emb j) 0).isLt⟩ : Fin 100000) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 32 + 1 * k.val = k.val; omega
  have h1 : ((cfg2.win 1).blk t).view.emb (ix2 k (⟨(j 1).val, (j 1).isLt⟩ : Fin 16))
      = ix2 k (⟨((((cfg2.win 2).blk t).view.emb j) 1).val, ((((cfg2.win 2).blk t).view.emb j) 1).isLt⟩ : Fin 16) := by
    funext a; apply Fin.ext
    match a with
    | ⟨0, _⟩ => show win2_1.index t (0 : Fin 2) * 32 + 1 * k.val = k.val; omega
    | ⟨1, _⟩ => show win2_1.index t (1 : Fin 2) * 16 + 1 * (j 1).val = win2_2.index t (1 : Fin 2) * 16 + 1 * (j 1).val; omega
  have r0 : iblk2 V c 0 t (ix2 (⟨(j 0).val, (j 0).isLt⟩ : Fin 5000) k)
      = V c main_v43 (ix2 (⟨((((cfg2.win 2).blk t).view.emb j) 0).val, ((((cfg2.win 2).blk t).view.emb j) 0).isLt⟩ : Fin 100000) k) :=
    congrArg (V c main_v43) h0
  have r1 : iblk2 V c 1 t (ix2 k (⟨(j 1).val, (j 1).isLt⟩ : Fin 16))
      = V c main_arg4 (ix2 k (⟨((((cfg2.win 2).blk t).view.emb j) 1).val, ((((cfg2.win 2).blk t).view.emb j) 1).isLt⟩ : Fin 16)) :=
    congrArg (V c main_arg4) h1
  rw [r0, r1]

/-- An index of the output array is in point `t`'s block iff each coordinate is in the block's range. -/
theorem mem_blk2 (t : Fin cfg2.N) (i : S100000x16.Idx) :
    i ∈ ((cfg2.win 2).blk t).view.set ↔ ∀ a : Fin 2, win2_2.index t a * S5000x16.size a ≤ (i a).val ∧ (i a).val < win2_2.index t a * S5000x16.size a + S5000x16.size a := by
  show i ∈ ((View.whole main_v44).slice (win2_2.rect t)).set ↔ _
  rw [View.set_slice_whole, Rect.mem_set_unit]
  exact Iff.rfl

/-- Row `r` of the output lies in the block of point `r / 5000`. -/
theorem cover2 (i : S100000x16.Idx) :
    ∃ t : Fin cfg2.N, (cfg2.win 2).flush t = true ∧ i ∈ ((cfg2.win 2).blk t).view.set := by
  have hi0 : (i 0).val < 100000 := (i 0).isLt
  have hi1 : (i 1).val < 16 := (i 1).isLt
  refine ⟨⟨(i 0).val / 5000, by show _ < 20; omega⟩, flush2_2 _, ?_⟩
  rw [mem_blk2]
  obtain ⟨e0, e1, e2, e3, e4, e5⟩ := index_maps2 ⟨(i 0).val / 5000, by show _ < 20; omega⟩
  intro a
  match a with
  | ⟨0, _⟩ =>
    show win2_2.index _ (0 : Fin 2) * 5000 ≤ (i 0).val ∧ (i 0).val < win2_2.index _ (0 : Fin 2) * 5000 + 5000
    rw [e4]; show (i 0).val / 5000 * 5000 ≤ _ ∧ _ < (i 0).val / 5000 * 5000 + 5000; omega
  | ⟨1, _⟩ =>
    show win2_2.index _ (1 : Fin 2) * 16 ≤ (i 1).val ∧ (i 1).val < win2_2.index _ (1 : Fin 2) * 16 + 16
    rw [e5]; omega

/-- THE OUTPUT ARRAY of region 2, whatever the entry contents: the product `x · W1`. -/
theorem final2 (c : Dev nD) :
    (dat2 V c).arrAt 2 cfg2.N = matProd (n := 100000) (kk := 32) (d := 16) (V c main_v43) (V c main_arg4) :=
  (dat2 V c).arrAt_eq_of_cover 2 _ (fun t _ => flushed2 V c t) cover2

end Cert.KernelIdeal.Val

end
-- ==== Proof.Combine3.lean ====
/-
  Region 3 of the idealized kernel: per block of 5000 nodes, the second layer's update
  `max ((agg + h · s) + b) 0` over sixteen features — `agg` the aggregated neighbours, `h` the transformed
  features, `s` the column of squared inverse root degrees, `b` the bias row.  Block `t` is rows `5000 t …` of
  one whole-array function, and the twenty blocks tile the output array.
-/
import proofs.«170347_j17600775979431_1_alg».proof.Proof.Gen.KernelIdeal.Frame
import proofs.«170347_j17600775979431_1_alg».proof.Proof.Spec
import Idealize.ShloMosaic.Lib.Pipeline.Value
import Idealize.ShloMosaic.Lib.ValueIdx

set_option maxRecDepth 16384

noncomputable section

namespace Cert.KernelIdeal.Val

open Cert.KernelIdeal Cert.KernelIdeal.Gen Cert.Spec
open Idealize.ShloMosaic Idealize.ShloMosaic.TcCoe Idealize.SL.Sem Idealize.ShloMosaic.ValueIdx
open Idealize.ShloMosaic.Pipeline (Dat)

/-- One entry of the body's result: the update at that entry, then the maximum with zero. -/
theorem pay3_apply (x0 x1 : Vec Ideal S5000x16 .f32) (x2 : Vec Ideal S5000x1 .f32) (x3 : Vec Ideal S1x16 .f32) (j : S5000x16.Idx) :
    k3_pay1 (F := Ideal) x0 x1 x2 x3 j
      = FloatOps.maximumf (F := Ideal) (φ := .f32)
          (FloatOps.addf (F := Ideal) (φ := .f32)
            (FloatOps.addf (F := Ideal) (φ := .f32) (x0 j)
              (FloatOps.mulf (F := Ideal) (φ := .f32) (x1 j) (x2 (ix2 (⟨(j 0).val, (j 0).isLt⟩ : Fin 5000) (0 : Fin 1)))))
            (x3 (ix2 (0 : Fin 1) (⟨(j 1).val, (j 1).isLt⟩ : Fin 16))))
          (FloatOps.ofBits (F := Ideal) .f32 0x00000000#32) := by
  unfold k3_pay1
  dsimp only
  rw [shapeCast_self, shapeCast_self, shapeCast_self, shapeCast_self]
  have hs : broadcastTo S5000x16 x2 broadcasts_S5000x1_S5000x16 j = x2 (ix2 (⟨(j 0).val, (j 0).isLt⟩ : Fin 5000) (0 : Fin 1)) :=
    broadcastTo_apply x2 broadcasts_S5000x1_S5000x16 j _ (fun a => by
      match a with
      | ⟨0, _⟩ => rfl
      | ⟨1, _⟩ => rfl)
  have hb : broadcastTo S5000x16 x3 broadcasts_S1x16_S5000x16 j = x3 (ix2 (0 : Fin 1) (⟨(j 1).val, (j 1).isLt⟩ : Fin 16)) :=
    broadcastTo_apply x3 broadcasts_S1x16_S5000x16 j _ (fun a => by
      match a with
      | ⟨0, _⟩ => rfl
      | ⟨1, _⟩ => rfl)
  show FloatOps.maximumf (F := Ideal) (φ := .f32)
      (FloatOps.addf (F := Ideal) (φ := .f32)
        (FloatOps.addf (F := Ideal) (φ := .f32) (x0 j)
          (FloatOps.mulf (F := Ideal) (φ := .f32) (x1 j) (broadcastTo S5000x16 x2 broadcasts_S5000x1_S5000x16 j)))
        (broadcastTo S5000x16 x3 broadcasts_S1x16_S5000x16 j))
      (FloatOps.ofBits (F := Ideal) .f32 0x00000000#32) = _
  rw [hs, hb]

variable (V : (c : Dev nD) → (b : Ref sig .tc) → Buf (Elt Ideal) ((c : Thread nD τ).loc b))

private theorem zero2 : (![0, 0] : Fin 2 → Nat) = fun _ => 0 := funext fun a => by fin_cases a <;> rfl

/-- The index maps over the grid: `agg`, `h`, `s` and the output move down one block per point, the bias
    row stays. -/
theorem index_maps3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point `t` writes back is block `t` of the layer's update of the four arrays as the region finds them. -/
theorem flushed3 (c : Dev nD) (t : Fin cfg3.N) :
    (dat3 V c).flushed 4 t = ((cfg3.win 4).blk t).view.read (Elt Ideal)
      (reluOf (combine (n := 100000) (d := 16) (V c main_v57) (V c main_v44) (V c main_v27) (V c main_v58))) := by
  show (cfg3.win 4).cut (grid3.coords t) ((dat3 V c).after 4 t) = _
  rw [after3_4]
  unfold out3_4
  rw [View.canon_unit_zero zero2]
  simp only [View.ld_unit_zero (S := S5000x16) zero2, View.ld_unit_zero (S := S5000x1) zero2, View.ld_unit_zero (S := S1x16) zero2]
  obtain ⟨e0, e1, e2, e3, e4, e5, e6, e7, e8, e9⟩ := index_maps3 t
  funext j
  refine (pay3_apply _ _ _ _ j).trans ?_
  show _ = reluOf (combine (n := 100000) (d := 16) (V c main_v57) (V c main_v44) (V c main_v27) (V c main_v58)) (((cfg3.win 4).blk t).view.emb j)
  unfold reluOf combine
  have h0 : ((cfg3.win 0).blk t).view.emb j = ((cfg3.win 4).blk t).view.emb j := by
    funext a; apply Fin.ext
    match a with
    | ⟨0, _⟩ => show win3_0.index t (0 : Fin 2) * 5000 + 1 * (j 0).val = win3_4.index t (0 : Fin 2) * 5000 + 1 * (j 0).val; omega
    | ⟨1, _⟩ => show win3_0.index t (1 : Fin 2) * 16 + 1 * (j 1).val = win3_4.index t (1 : Fin 2) * 16 + 1 * (j 1).val; omega
  have h1 : ((cfg3.win 1).blk t).view.emb j = ((cfg3.win 4).blk t).view.emb j := by
    funext a; apply Fin.ext
    match a with
    | ⟨0, _⟩ => show win3_1.index t (0 : Fin 2) * 5000 + 1 * (j 0).val = win3_4.index t (0 : Fin 2) * 5000 + 1 * (j 0).val; omega
    | ⟨1, _⟩ => show win3_1.index t (1 : Fin 2) * 16 + 1 * (j 1).val = win3_4.index t (1 : Fin 2) * 16 + 1 * (j 1).val; omega
  have h2 : ((cfg3.win 2).blk t).view.emb (ix2 (⟨(j 0).val, (j 0).isLt⟩ : Fin 5000) (0 : Fin 1))
      = ix2 (⟨((((cfg3.win 4).blk t).view.emb j) 0).val, ((((cfg3.win 4).blk t).view.emb j) 0).isLt⟩ : Fin 100000) (0 : Fin 1) := by
    funext a; apply Fin.ext
    match a with
    | ⟨0, _⟩ => show win3_2.index t (0 : Fin 2) * 5000 + 1 * (j 0).val = win3_4.index t (0 : Fin 2) * 5000 + 1 * (j 0).val; omega
    | ⟨1, _⟩ => show win3_2.index t (1 : Fin 2) * 1 + 1 * 0 = 0; omega
  have h3 : ((cfg3.win 3).blk t).view.emb (ix2 (0 : Fin 1) (⟨(j 1).val, (j 1).isLt⟩ : Fin 16))
      = ix2 (0 : Fin 1) (⟨((((cfg3.win 4).blk t).view.emb j) 1).val, ((((cfg3.win 4).blk t).view.emb j) 1).isLt⟩ : Fin 16) := by
    funext a; apply Fin.ext
    match a with
    | ⟨0, _⟩ => show win3_3.index t (0 : Fin 2) * 1 + 1 * 0 = 0; omega
    | ⟨1, _⟩ => show win3_3.index t (1 : Fin 2) * 16 + 1 * (j 1).val = win3_4.index t (1 : Fin 2) * 16 + 1 * (j 1).val; omega
  have r0 : iblk3 V c 0 t j = V c main_v57 (((cfg3.win 4).blk t).view.emb j) := congrArg (V c main_v57) h0
  have r1 : iblk3 V c 1 t j = V c main_v44 (((cfg3.win 4).blk t).view.emb j) := congrArg (V c main_v44) h1
  have r2 : iblk3 V c 2 t (ix2 (⟨(j 0).val, (j 0).isLt⟩ : Fin 5000) (0 : Fin 1))
      = V c main_v27 (ix2 (⟨((((cfg3.win 4).blk t).view.emb j) 0).val, ((((cfg3.win 4).blk t).view.emb j) 0).isLt⟩ : Fin 100000) (0 : Fin 1)) :=
    congrArg (V c main_v27) h2
  have r3 : iblk3 V c 3 t (ix2 (0 : Fin 1) (⟨(j 1).val, (j 1).isLt⟩ : Fin 16))
      = V c main_v58 (ix2 (0 : Fin 1) (⟨((((cfg3.win 4).blk t).view.emb j) 1).val, ((((cfg3.win 4).blk t).view.emb j) 1).isLt⟩ : Fin 16)) :=
    congrArg (V c main_v58) h3
  rw [r0, r1, r2, r3]

/-- An index of the output array is in point `t`'s block iff each coordinate is in the block's range. -/
theorem mem_blk3 (t : Fin cfg3.N) (i : S100000x16.Idx) :
    i ∈ ((cfg3.win 4).blk t).view.set ↔ ∀ a : Fin 2, win3_4.index t a * S5000x16.size a ≤ (i a).val ∧ (i a).val < win3_4.index t a * S5000x16.size a + S5000x16.size a := by
  show i ∈ ((View.whole main_v59).slice (win3_4.rect t)).set ↔ _
  rw [View.set_slice_whole, Rect.mem_set_unit]
  exact Iff.rfl

/-- Row `r` of the output lies in the block of point `r / 5000`. -/
theorem cover3 (i : S100000x16.Idx) :
    ∃ t : Fin cfg3.N, (cfg3.win 4).flush t = true ∧ i ∈ ((cfg3.win 4).blk t).view.set := by
  have hi0 : (i 0).val < 100000 := (i 0).isLt
  have hi1 : (i 1).val < 16 := (i 1).isLt
  refine ⟨⟨(i 0).val / 5000, by show _ < 20; omega⟩, flush3_4 _, ?_⟩
  rw [mem_blk3]
  obtain ⟨e0, e1, e2, e3, e4, e5, e6, e7, e8, e9⟩ := index_maps3 ⟨(i 0).val / 5000, by show _ < 20; omega⟩
  intro a
  match a with
  | ⟨0, _⟩ =>
    show win3_4.index _ (0 : Fin 2) * 5000 ≤ (i 0).val ∧ (i 0).val < win3_4.index _ (0 : Fin 2) * 5000 + 5000
    rw [e8]; show (i 0).val / 5000 * 5000 ≤ _ ∧ _ < (i 0).val / 5000 * 5000 + 5000; omega
  | ⟨1, _⟩ =>
    show win3_4.index _ (1 : Fin 2) * 16 ≤ (i 1).val ∧ (i 1).val < win3_4.index _ (1 : Fin 2) * 16 + 16
    rw [e9]; omega

/-- THE OUTPUT ARRAY of region 3, whatever the entry contents: the second layer's update, then the maximum
    with zero. -/
theorem final3 (c : Dev nD) :
    (dat3 V c).arrAt 4 cfg3.N
      = reluOf (combine (n := 100000) (d := 16) (V c main_v57) (V c main_v44) (V c main_v27) (V c main_v58)) :=
  (dat3 V c).arrAt_eq_of_cover 4 _ (fun t _ => flushed3 V c t) cover3

end Cert.KernelIdeal.Val

end
-- ==== Proof.Matmul4.lean ====
/-
  Region 4 of the idealized kernel: twenty row blocks of the second layer's output `h` (5000 × 16 each)
  against the whole third weight matrix `W` (16 × 2).  On the extended reals the format changes are the
  identity and the product into a zero accumulator is the plain sum, so block `t` of the output is rows
  `5000 t …` of the one product `h · W`, and the twenty blocks tile the output array.
-/
import proofs.«170347_j17600775979431_1_alg».proof.Proof.Gen.KernelIdeal.Frame
import proofs.«170347_j17600775979431_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.Spec
open Idealize.ShloMosaic Idealize.ShloMosaic.TcCoe Idealize.SL.Sem Idealize.ShloMosaic.ValueIdx
open Idealize.ShloMosaic.Pipeline (Dat)

/-- One entry of the block product: the sum over the contracted axis. -/
theorem pay4_apply (x0 : Vec Ideal S5000x16 .f32) (x1 : Vec Ideal S16x2 .f32) (j : S5000x2.Idx) :
    k4_pay1 (F := Ideal) x0 x1 j
      = ∑ k : Fin 16, x0 (ix2 (⟨(j 0).val, (j 0).isLt⟩ : Fin 5000) k) * x1 (ix2 k (⟨(j 1).val, (j 1).isLt⟩ : Fin 2)) := by
  unfold k4_pay1
  dsimp only
  refine (Ideal.matmul_constant_zero_apply dot_S5000x16_S16x2_S5000x2_1_0_0_1_n_n none _ _ j).trans ?_
  rw [← Equiv.sum_comp (contrEquiv1 dot_S5000x16_S16x2_S5000x2_1_0_0_1_n_n 16 rfl rfl).symm]
  refine Finset.sum_congr rfl fun k _ => ?_
  have hk := contrEquiv1_symm_val dot_S5000x16_S16x2_S5000x2_1_0_0_1_n_n 16 rfl rfl k
  have el : dot_S5000x16_S16x2_S5000x2_1_0_0_1_n_n.lhsIdx j ((contrEquiv1 dot_S5000x16_S16x2_S5000x2_1_0_0_1_n_n 16 rfl rfl).symm k)
      = ix2 (⟨(j 0).val, (j 0).isLt⟩ : Fin 5000) k := funext fun a => Fin.ext (by
    match a with
    | ⟨0, _⟩ =>
      show (dot_S5000x16_S16x2_S5000x2_1_0_0_1_n_n.lhsIdx j _ 0).val = (j 0).val
      unfold DotDims.lhsIdx
      rw [dif_neg (show ¬(0 : Fin S5000x16.rank) ∈ dot_S5000x16_S16x2_S5000x2_1_0_0_1_n_n.lhsBatch by decide),
        dif_pos (show (0 : Fin S5000x16.rank) ∈ dot_S5000x16_S16x2_S5000x2_1_0_0_1_n_n.lhsNonContracting by decide)]
      rfl
    | ⟨1, _⟩ => exact (dot_S5000x16_S16x2_S5000x2_1_0_0_1_n_n.lhsIdx_val_of_single rfl j _).trans hk)
  have er : dot_S5000x16_S16x2_S5000x2_1_0_0_1_n_n.rhsIdx j ((contrEquiv1 dot_S5000x16_S16x2_S5000x2_1_0_0_1_n_n 16 rfl rfl).symm k)
      = ix2 k (⟨(j 1).val, (j 1).isLt⟩ : Fin 2) := funext fun a => Fin.ext (by
    match a with
    | ⟨0, _⟩ => exact (dot_S5000x16_S16x2_S5000x2_1_0_0_1_n_n.rhsIdx_val_of_single rfl j _).trans hk
    | ⟨1, _⟩ =>
      show (dot_S5000x16_S16x2_S5000x2_1_0_0_1_n_n.rhsIdx j _ 1).val = (j 1).val
      unfold DotDims.rhsIdx
      rw [dif_neg (show ¬(1 : Fin S16x2.rank) ∈ dot_S5000x16_S16x2_S5000x2_1_0_0_1_n_n.rhsBatch by decide),
        dif_pos (show (1 : Fin S16x2.rank) ∈ dot_S5000x16_S16x2_S5000x2_1_0_0_1_n_n.rhsNonContracting by decide)]
      rfl)
  rw [el, er, shapeCast_self]
  rfl

variable (V : (c : Dev nD) → (b : Ref sig .tc) → Buf (Elt Ideal) ((c : Thread nD τ).loc b))

private theorem zero2 : (![0, 0] : Fin 2 → Nat) = fun _ => 0 := funext fun a => by fin_cases a <;> rfl

/-- The index maps over the grid: the `x` block and the output block move down one block per point, the
    weight block stays. -/
theorem index_maps4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point `t` writes back is block `t` of `x · W1`. -/
theorem flushed4 (c : Dev nD) (t : Fin cfg4.N) :
    (dat4 V c).flushed 2 t = ((cfg4.win 2).blk t).view.read (Elt Ideal)
      (matProd (n := 100000) (kk := 16) (d := 2) (V c main_v59) (V c main_arg6)) := by
  show (cfg4.win 2).cut (grid4.coords t) ((dat4 V c).after 2 t) = _
  rw [after4_2]
  unfold out4_2
  rw [View.canon_unit_zero zero2]
  simp only [View.ld_unit_zero (S := S5000x16) zero2, View.ld_unit_zero (S := S16x2) zero2]
  obtain ⟨e0, e1, e2, e3, e4, e5⟩ := index_maps4 t
  funext j
  refine (pay4_apply _ _ j).trans ?_
  show _ = matProd (n := 100000) (kk := 16) (d := 2) (V c main_v59) (V c main_arg6) (((cfg4.win 2).blk t).view.emb j)
  unfold matProd
  refine Finset.sum_congr rfl fun k _ => ?_
  have h0 : ((cfg4.win 0).blk t).view.emb (ix2 (⟨(j 0).val, (j 0).isLt⟩ : Fin 5000) k)
      = ix2 (⟨((((cfg4.win 2).blk t).view.emb j) 0).val, ((((cfg4.win 2).blk t).view.emb j) 0).isLt⟩ : Fin 100000) k := by
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 16 + 1 * k.val = k.val; omega
  have h1 : ((cfg4.win 1).blk t).view.emb (ix2 k (⟨(j 1).val, (j 1).isLt⟩ : Fin 2))
      = ix2 k (⟨((((cfg4.win 2).blk t).view.emb j) 1).val, ((((cfg4.win 2).blk t).view.emb j) 1).isLt⟩ : Fin 2) := by
    funext a; apply Fin.ext
    match a with
    | ⟨0, _⟩ => show win4_1.index t (0 : Fin 2) * 16 + 1 * k.val = k.val; omega
    | ⟨1, _⟩ => show win4_1.index t (1 : Fin 2) * 2 + 1 * (j 1).val = win4_2.index t (1 : Fin 2) * 2 + 1 * (j 1).val; omega
  have r0 : iblk4 V c 0 t (ix2 (⟨(j 0).val, (j 0).isLt⟩ : Fin 5000) k)
      = V c main_v59 (ix2 (⟨((((cfg4.win 2).blk t).view.emb j) 0).val, ((((cfg4.win 2).blk t).view.emb j) 0).isLt⟩ : Fin 100000) k) :=
    congrArg (V c main_v59) h0
  have r1 : iblk4 V c 1 t (ix2 k (⟨(j 1).val, (j 1).isLt⟩ : Fin 2))
      = V c main_arg6 (ix2 k (⟨((((cfg4.win 2).blk t).view.emb j) 1).val, ((((cfg4.win 2).blk t).view.emb j) 1).isLt⟩ : Fin 2)) :=
    congrArg (V c main_arg6) h1
  rw [r0, r1]

/-- An index of the output array is in point `t`'s block iff each coordinate is in the block's range. -/
theorem mem_blk4 (t : Fin cfg4.N) (i : S100000x2.Idx) :
    i ∈ ((cfg4.win 2).blk t).view.set ↔ ∀ a : Fin 2, win4_2.index t a * S5000x2.size a ≤ (i a).val ∧ (i a).val < win4_2.index t a * S5000x2.size a + S5000x2.size a := by
  show i ∈ ((View.whole main_v60).slice (win4_2.rect t)).set ↔ _
  rw [View.set_slice_whole, Rect.mem_set_unit]
  exact Iff.rfl

/-- Row `r` of the output lies in the block of point `r / 5000`. -/
theorem cover4 (i : S100000x2.Idx) :
    ∃ t : Fin cfg4.N, (cfg4.win 2).flush t = true ∧ i ∈ ((cfg4.win 2).blk t).view.set := by
  have hi0 : (i 0).val < 100000 := (i 0).isLt
  have hi1 : (i 1).val < 2 := (i 1).isLt
  refine ⟨⟨(i 0).val / 5000, by show _ < 20; omega⟩, flush4_2 _, ?_⟩
  rw [mem_blk4]
  obtain ⟨e0, e1, e2, e3, e4, e5⟩ := index_maps4 ⟨(i 0).val / 5000, by show _ < 20; omega⟩
  intro a
  match a with
  | ⟨0, _⟩ =>
    show win4_2.index _ (0 : Fin 2) * 5000 ≤ (i 0).val ∧ (i 0).val < win4_2.index _ (0 : Fin 2) * 5000 + 5000
    rw [e4]; show (i 0).val / 5000 * 5000 ≤ _ ∧ _ < (i 0).val / 5000 * 5000 + 5000; omega
  | ⟨1, _⟩ =>
    show win4_2.index _ (1 : Fin 2) * 2 ≤ (i 1).val ∧ (i 1).val < win4_2.index _ (1 : Fin 2) * 2 + 2
    rw [e5]; omega

/-- THE OUTPUT ARRAY of region 4, whatever the entry contents: the product `x · W1`. -/
theorem final4 (c : Dev nD) :
    (dat4 V c).arrAt 2 cfg4.N = matProd (n := 100000) (kk := 16) (d := 2) (V c main_v59) (V c main_arg6) :=
  (dat4 V c).arrAt_eq_of_cover 2 _ (fun t _ => flushed4 V c t) cover4

end Cert.KernelIdeal.Val

end
-- ==== Proof.Combine5.lean ====
/-
  Region 5 of the idealized kernel: per block of 5000 nodes, the third layer's update `v = (agg + h · s) + b`
  over two features, then the log-softmax of each row of two:  `(v − M) − log (exp (v₀ − M) + exp (v₁ − M))`
  with `M` the row's maximum (folded from −∞, and once more against −∞).  A row's result depends on that row
  of `v` only, and a row of a block is a row of the arrays, so block `t` is rows `5000 t …` of one whole-array
  function; the twenty blocks tile the output array.
-/
import proofs.«170347_j17600775979431_1_alg».proof.Proof.Gen.KernelIdeal.Frame
import proofs.«170347_j17600775979431_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.Spec
open Idealize.ShloMosaic Idealize.ShloMosaic.TcCoe Idealize.SL.Sem Idealize.ShloMosaic.ValueIdx
open Idealize.ShloMosaic.Pipeline (Dat)

/-- The update before the activation, on one block. -/
def pre5 (x0 x1 : Vec Ideal S5000x2 .f32) (x2 : Vec Ideal S5000x1 .f32) (x3 : Vec Ideal S1x2 .f32) : FVec Ideal S5000x2 .f32 :=
  addf (addf x0 (mulf x1 (broadcastTo S5000x2 x2 broadcasts_S5000x1_S5000x2))) (broadcastTo S5000x2 x3 broadcasts_S1x2_S5000x2)

/-- The row shift of a block: the row maximum folded from −∞, once more against −∞, as a column. -/
def shift5 (v : FVec Ideal S5000x2 .f32) : FVec Ideal S5000x2 .f32 :=
  broadcastTo S5000x2
    (shapeCast S5000x1
      (maximumf (broadcast S5000 (Scalar.ofBits (F := Ideal) .f32 0xFF800000#32))
        (multiReduction .maximumf [1] S5000 v 0xFF800000#32 reduces_S5000x2_S5000 (.inl rfl) rfl))
      shapeCasts_S5000_S5000x1)
    broadcasts_S5000x1_S5000x2

/-- The log-softmax of each row of a block. -/
def lsmTail (v : FVec Ideal S5000x2 .f32) : FVec Ideal S5000x2 .f32 :=
  subf (subf v (shift5 v))
    (broadcastTo S5000x2
      (log (shapeCast S5000x1
        (multiReduction .add [1] S5000 (exp (subf v (shift5 v))) 0x00000000#32 reduces_S5000x2_S5000 (.inl rfl) rfl)
        shapeCasts_S5000_S5000x1))
      broadcasts_S5000x1_S5000x2)

/-- The body's result is the log-softmax tail of the update. -/
theorem pay5_eq (x0 x1 : Vec Ideal S5000x2 .f32) (x2 : Vec Ideal S5000x1 .f32) (x3 : Vec Ideal S1x2 .f32) :
    k5_pay1 (F := Ideal) x0 x1 x2 x3 = lsmTail (pre5 x0 x1 x2 x3) := by
  unfold k5_pay1 lsmTail shift5 pre5
  dsimp only
  rw [shapeCast_self, shapeCast_self, shapeCast_self, shapeCast_self]

/-- One entry of the update. -/
theorem pre5_apply (x0 x1 : Vec Ideal S5000x2 .f32) (x2 : Vec Ideal S5000x1 .f32) (x3 : Vec Ideal S1x2 .f32) (j : S5000x2.Idx) :
    pre5 x0 x1 x2 x3 j
      = FloatOps.addf (F := Ideal) (φ := .f32)
          (FloatOps.addf (F := Ideal) (φ := .f32) (x0 j)
            (FloatOps.mulf (F := Ideal) (φ := .f32) (x1 j) (x2 (ix2 (⟨(j 0).val, (j 0).isLt⟩ : Fin 5000) (0 : Fin 1)))))
          (x3 (ix2 (0 : Fin 1) (⟨(j 1).val, (j 1).isLt⟩ : Fin 2))) := by
  unfold pre5
  have hs : broadcastTo S5000x2 x2 broadcasts_S5000x1_S5000x2 j = x2 (ix2 (⟨(j 0).val, (j 0).isLt⟩ : Fin 5000) (0 : Fin 1)) :=
    broadcastTo_apply x2 broadcasts_S5000x1_S5000x2 j _ (fun a => by
      match a with
      | ⟨0, _⟩ => rfl
      | ⟨1, _⟩ => rfl)
  have hb : broadcastTo S5000x2 x3 broadcasts_S1x2_S5000x2 j = x3 (ix2 (0 : Fin 1) (⟨(j 1).val, (j 1).isLt⟩ : Fin 2)) :=
    broadcastTo_apply x3 broadcasts_S1x2_S5000x2 j _ (fun a => by
      match a with
      | ⟨0, _⟩ => rfl
      | ⟨1, _⟩ => rfl)
  show FloatOps.addf (F := Ideal) (φ := .f32)
      (FloatOps.addf (F := Ideal) (φ := .f32) (x0 j)
        (FloatOps.mulf (F := Ideal) (φ := .f32) (x1 j) (broadcastTo S5000x2 x2 broadcasts_S5000x1_S5000x2 j)))
      (broadcastTo S5000x2 x3 broadcasts_S1x2_S5000x2 j) = _
  rw [hs, hb]

/-- A column made from a vector, read in row `r`. -/
theorem col5_apply (u : FVec Ideal S5000 .f32) (r : Fin 5000) :
    shapeCast S5000x1 u shapeCasts_S5000_S5000x1 (ix2 r (0 : Fin 1)) = u (ix1 r) :=
  shapeCast_apply u shapeCasts_S5000_S5000x1 (ix2 r (0 : Fin 1)) (ix1 r) (by
    rw [Shape.rowMajor_val_one, Shape.rowMajor_val_two]
    show r.val = r.val * 1 + 0
    omega)

/-- A column spread over the two features, read at `(r, k)`. -/
theorem spread5_apply (w : FVec Ideal S5000x1 .f32) (r : Fin 5000) (k : Fin 2) :
    broadcastTo S5000x2 w broadcasts_S5000x1_S5000x2 (ix2 r k) = w (ix2 r (0 : Fin 1)) :=
  broadcastTo_apply w broadcasts_S5000x1_S5000x2 (ix2 r k) _ (fun a => by
    match a with
    | ⟨0, _⟩ => rfl
    | ⟨1, _⟩ => rfl)

/-- The source index of a row reduction: row `r`, feature `k`. -/
theorem lift5 (r : Fin 5000) (k : Fin 2) : reduces_S5000x2_S5000.lift (ix1 r) k = ix2 r k :=
  funext fun a => Fin.ext (by
    match a with
    | ⟨0, _⟩ => rfl
    | ⟨1, _⟩ => rfl)

/-- The shift of a block at `(r, k)` is the spec's shift of row `r`. -/
theorem shift5_apply (v : FVec Ideal S5000x2 .f32) (r : Fin 5000) (k : Fin 2) :
    shift5 v (ix2 r k) = rowShift2 (n := 5000) v r := by
  unfold shift5
  rw [spread5_apply, col5_apply]
  show FloatOps.maximumf (F := Ideal) (φ := .f32) (FloatOps.ofBits (F := Ideal) .f32 0xFF800000#32)
      (multiReduction .maximumf [1] S5000 v 0xFF800000#32 reduces_S5000x2_S5000 (.inl rfl) rfl (ix1 r)) = _
  have hf : (v ∘ reduces_S5000x2_S5000.lift (ix1 r)) = fun k => v (ix2 r k) := funext fun k => congrArg v (lift5 r k)
  have hmax : multiReduction .maximumf [1] S5000 v 0xFF800000#32 reduces_S5000x2_S5000 (.inl rfl) rfl (ix1 r)
      = (Finset.univ : Finset (Fin 2)).fold max (FloatOps.ofBits (F := Ideal) .f32 0xFF800000#32) (fun k => v (ix2 r k)) :=
    (Ideal.multiReduction_maximumf_single v 0xFF800000#32 reduces_S5000x2_S5000 (.inl rfl) rfl (ix1 r)).trans (by rw [hf]; rfl)
  rw [hmax]
  rfl

/-- The log-softmax tail of a block at `(r, q)` is the spec's log-softmax there. -/
theorem lsmTail_apply (v : FVec Ideal S5000x2 .f32) (r : Fin 5000) (q : Fin 2) :
    lsmTail v (ix2 r q) = logSoftmax2 (n := 5000) v (ix2 r q) := by
  unfold lsmTail
  show FloatOps.subf (F := Ideal) (φ := .f32)
      (FloatOps.subf (F := Ideal) (φ := .f32) (v (ix2 r q)) (shift5 v (ix2 r q)))
      (broadcastTo S5000x2
        (log (shapeCast S5000x1
          (multiReduction .add [1] S5000 (exp (subf v (shift5 v))) 0x00000000#32 reduces_S5000x2_S5000 (.inl rfl) rfl)
          shapeCasts_S5000_S5000x1))
        broadcasts_S5000x1_S5000x2 (ix2 r q)) = _
  rw [spread5_apply]
  show FloatOps.subf (F := Ideal) (φ := .f32)
      (FloatOps.subf (F := Ideal) (φ := .f32) (v (ix2 r q)) (shift5 v (ix2 r q)))
      (FloatOps.log (F := Ideal) (φ := .f32)
        (shapeCast S5000x1
          (multiReduction .add [1] S5000 (exp (subf v (shift5 v))) 0x00000000#32 reduces_S5000x2_S5000 (.inl rfl) rfl)
          shapeCasts_S5000_S5000x1 (ix2 r (0 : Fin 1)))) = _
  have hred : multiReduction .add [1] S5000 (exp (subf v (shift5 v))) 0x00000000#32 reduces_S5000x2_S5000 (.inl rfl) rfl (ix1 r)
      = ∑ k : Fin 2, FloatOps.exp (F := Ideal) (φ := .f32)
          (FloatOps.subf (F := Ideal) (φ := .f32) (v (ix2 r k)) (rowShift2 (n := 5000) v r)) :=
    (Ideal.multiReduction_add_single (exp (subf v (shift5 v))) 0x00000000#32 reduces_S5000x2_S5000 (.inl rfl) rfl (ix1 r)).trans
      (Finset.sum_congr rfl fun (k : Fin 2) _ => (congrArg (exp (subf v (shift5 v))) (lift5 r k)).trans (by
        show FloatOps.exp (F := Ideal) (φ := .f32) (FloatOps.subf (F := Ideal) (φ := .f32) (v (ix2 r k)) (shift5 v (ix2 r k))) = _
        rw [shift5_apply]))
  rw [col5_apply, hred, shift5_apply]
  rfl

variable (V : (c : Dev nD) → (b : Ref sig .tc) → Buf (Elt Ideal) ((c : Thread nD τ).loc b))

private theorem zero2 : (![0, 0] : Fin 2 → Nat) = fun _ => 0 := funext fun a => by fin_cases a <;> rfl

/-- The index maps over the grid: `agg`, `h`, `s` and the output move down one block per point, the bias
    row stays. -/
theorem index_maps5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- What point `t` writes back is block `t` of the log-softmax of the third layer's update of the four arrays
    as the region finds them: row `r` of the block is row `5000 t + r` of the arrays. -/
theorem flushed5 (c : Dev nD) (t : Fin cfg5.N) :
    (dat5 V c).flushed 4 t = ((cfg5.win 4).blk t).view.read (Elt Ideal)
      (logSoftmax2 (combine (n := 100000) (d := 2) (V c main_v73) (V c main_v60) (V c main_v27) (V c main_v74))) := by
  show (cfg5.win 4).cut (grid5.coords t) ((dat5 V c).after 4 t) = _
  rw [after5_4]
  unfold out5_4
  rw [View.canon_unit_zero zero2]
  simp only [View.ld_unit_zero (S := S5000x2) zero2, View.ld_unit_zero (S := S5000x1) zero2, View.ld_unit_zero (S := S1x2) zero2]
  obtain ⟨e0, e1, e2, e3, e4, e5, e6, e7, e8, e9⟩ := index_maps5 t
  have ht : t.val < 20 := t.isLt
  funext j
  obtain ⟨r, q, rfl⟩ : ∃ (r : Fin 5000) (q : Fin 2), j = ix2 r q := ⟨j 0, j 1, eq_ix2 j⟩
  refine (congrFun (pay5_eq _ _ _ _) (ix2 r q)).trans ?_
  refine (lsmTail_apply _ r q).trans ?_
  have hr : r.val < 5000 := r.isLt
  have hE : ((cfg5.win 4).blk t).view.emb (ix2 r q) = ix2 (⟨t.val * 5000 + r.val, by omega⟩ : Fin 100000) q := by
    funext a; apply Fin.ext
    match a with
    | ⟨0, _⟩ => show win5_4.index t (0 : Fin 2) * 5000 + 1 * r.val = t.val * 5000 + r.val; omega
    | ⟨1, _⟩ => show win5_4.index t (1 : Fin 2) * 2 + 1 * q.val = q.val; omega
  show _ = logSoftmax2 (combine (n := 100000) (d := 2) (V c main_v73) (V c main_v60) (V c main_v27) (V c main_v74)) (((cfg5.win 4).blk t).view.emb (ix2 r q))
  rw [hE]
  refine logSoftmax2_row _ _ r _ (fun k => ?_) q
  refine (pre5_apply _ _ _ _ (ix2 r k)).trans ?_
  have h0 : ((cfg5.win 0).blk t).view.emb (ix2 r k) = ix2 (⟨t.val * 5000 + r.val, by omega⟩ : Fin 100000) k := by
    funext a; apply Fin.ext
    match a with
    | ⟨0, _⟩ => show win5_0.index t (0 : Fin 2) * 5000 + 1 * r.val = t.val * 5000 + r.val; omega
    | ⟨1, _⟩ => show win5_0.index t (1 : Fin 2) * 2 + 1 * k.val = k.val; omega
  have h1 : ((cfg5.win 1).blk t).view.emb (ix2 r k) = ix2 (⟨t.val * 5000 + r.val, by omega⟩ : Fin 100000) k := by
    funext a; apply Fin.ext
    match a with
    | ⟨0, _⟩ => show win5_1.index t (0 : Fin 2) * 5000 + 1 * r.val = t.val * 5000 + r.val; omega
    | ⟨1, _⟩ => show win5_1.index t (1 : Fin 2) * 2 + 1 * k.val = k.val; omega
  have h2 : ((cfg5.win 2).blk t).view.emb (ix2 r (0 : Fin 1)) = ix2 (⟨t.val * 5000 + r.val, by omega⟩ : Fin 100000) (0 : Fin 1) := by
    funext a; apply Fin.ext
    match a with
    | ⟨0, _⟩ => show win5_2.index t (0 : Fin 2) * 5000 + 1 * r.val = t.val * 5000 + r.val; omega
    | ⟨1, _⟩ => show win5_2.index t (1 : Fin 2) * 1 + 1 * 0 = 0; omega
  have h3 : ((cfg5.win 3).blk t).view.emb (ix2 (0 : Fin 1) k) = ix2 (0 : Fin 1) k := by
    funext a; apply Fin.ext
    match a with
    | ⟨0, _⟩ => show win5_3.index t (0 : Fin 2) * 1 + 1 * 0 = 0; omega
    | ⟨1, _⟩ => show win5_3.index t (1 : Fin 2) * 2 + 1 * k.val = k.val; omega
  have r0 : iblk5 V c 0 t (ix2 r k) = V c main_v73 (ix2 (⟨t.val * 5000 + r.val, by omega⟩ : Fin 100000) k) := congrArg (V c main_v73) h0
  have r1 : iblk5 V c 1 t (ix2 r k) = V c main_v60 (ix2 (⟨t.val * 5000 + r.val, by omega⟩ : Fin 100000) k) := congrArg (V c main_v60) h1
  have r2 : iblk5 V c 2 t (ix2 r (0 : Fin 1)) = V c main_v27 (ix2 (⟨t.val * 5000 + r.val, by omega⟩ : Fin 100000) (0 : Fin 1)) := congrArg (V c main_v27) h2
  have r3 : iblk5 V c 3 t (ix2 (0 : Fin 1) k) = V c main_v74 (ix2 (0 : Fin 1) k) := congrArg (V c main_v74) h3
  show FloatOps.addf (F := Ideal) (φ := .f32)
      (FloatOps.addf (F := Ideal) (φ := .f32) (iblk5 V c 0 t (ix2 r k))
        (FloatOps.mulf (F := Ideal) (φ := .f32) (iblk5 V c 1 t (ix2 r k)) (iblk5 V c 2 t (ix2 r (0 : Fin 1)))))
      (iblk5 V c 3 t (ix2 (0 : Fin 1) k))
    = FloatOps.addf (F := Ideal) (φ := .f32)
      (FloatOps.addf (F := Ideal) (φ := .f32) (V c main_v73 (ix2 (⟨t.val * 5000 + r.val, by omega⟩ : Fin 100000) k))
        (FloatOps.mulf (F := Ideal) (φ := .f32) (V c main_v60 (ix2 (⟨t.val * 5000 + r.val, by omega⟩ : Fin 100000) k))
          (V c main_v27 (ix2 (⟨t.val * 5000 + r.val, by omega⟩ : Fin 100000) (0 : Fin 1)))))
      (V c main_v74 (ix2 (0 : Fin 1) k))
  rw [r0, r1, r2, r3]

/-- An index of the output array is in point `t`'s block iff each coordinate is in the block's range. -/
theorem mem_blk5 (t : Fin cfg5.N) (i : S100000x2.Idx) :
    i ∈ ((cfg5.win 4).blk t).view.set ↔ ∀ a : Fin 2, win5_4.index t a * S5000x2.size a ≤ (i a).val ∧ (i a).val < win5_4.index t a * S5000x2.size a + S5000x2.size a := by
  show i ∈ ((View.whole main_v75).slice (win5_4.rect t)).set ↔ _
  rw [View.set_slice_whole, Rect.mem_set_unit]
  exact Iff.rfl

/-- Row `r` of the output lies in the block of point `r / 5000`. -/
theorem cover5 (i : S100000x2.Idx) :
    ∃ t : Fin cfg5.N, (cfg5.win 4).flush t = true ∧ i ∈ ((cfg5.win 4).blk t).view.set := by
  have hi0 : (i 0).val < 100000 := (i 0).isLt
  have hi1 : (i 1).val < 2 := (i 1).isLt
  refine ⟨⟨(i 0).val / 5000, by show _ < 20; omega⟩, flush5_4 _, ?_⟩
  rw [mem_blk5]
  obtain ⟨e0, e1, e2, e3, e4, e5, e6, e7, e8, e9⟩ := index_maps5 ⟨(i 0).val / 5000, by show _ < 20; omega⟩
  intro a
  match a with
  | ⟨0, _⟩ =>
    show win5_4.index _ (0 : Fin 2) * 5000 ≤ (i 0).val ∧ (i 0).val < win5_4.index _ (0 : Fin 2) * 5000 + 5000
    rw [e8]; show (i 0).val / 5000 * 5000 ≤ _ ∧ _ < (i 0).val / 5000 * 5000 + 5000; omega
  | ⟨1, _⟩ =>
    show win5_4.index _ (1 : Fin 2) * 2 ≤ (i 1).val ∧ (i 1).val < win5_4.index _ (1 : Fin 2) * 2 + 2
    rw [e9]; omega

/-- THE OUTPUT ARRAY of region 5, whatever the entry contents: the log-softmax, row by row, of the third
    layer's update. -/
theorem final5 (c : Dev nD) :
    (dat5 V c).arrAt 4 cfg5.N
      = logSoftmax2 (combine (n := 100000) (d := 2) (V c main_v73) (V c main_v60) (V c main_v27) (V c main_v74)) :=
  (dat5 V c).arrAt_eq_of_cover 4 _ (fun t _ => flushed5 V c t) cover5

end Cert.KernelIdeal.Val

end
-- ==== Proof.KernelFold.lean ====
/-
  The idealized kernel's buffers at each boundary of @main, followed from the launch memory: the edge list's
  two rows, the per-edge normalisation and the self-loop column after the first stretch of host operations
  (none of the later stretches or regions writes them); then, layer by layer, the dense product a region
  leaves, the aggregated neighbours the next stretch leaves, and the update the next region leaves.  The
  result buffer ends at one nested function of the eight argument arrays.
-/
import proofs.«170347_j17600775979431_1_alg».proof.Proof.Gen.KernelIdeal.Frame
import proofs.«170347_j17600775979431_1_alg».proof.Proof.KernelRun
import proofs.«170347_j17600775979431_1_alg».proof.Proof.Spec
import proofs.«170347_j17600775979431_1_alg».proof.Proof.Chain
import proofs.«170347_j17600775979431_1_alg».proof.Proof.Network
import proofs.«170347_j17600775979431_1_alg».proof.Proof.Matmul0
import proofs.«170347_j17600775979431_1_alg».proof.Proof.Combine1
import proofs.«170347_j17600775979431_1_alg».proof.Proof.Matmul2
import proofs.«170347_j17600775979431_1_alg».proof.Proof.Combine3
import proofs.«170347_j17600775979431_1_alg».proof.Proof.Matmul4
import proofs.«170347_j17600775979431_1_alg».proof.Proof.Combine5
import Idealize.ShloMosaic.Lib.StableHlo.Run

set_option maxRecDepth 16384

noncomputable section

namespace Cert.KernelIdeal.Val

open Cert.KernelIdeal Cert.KernelIdeal.Gen Cert.Spec Cert.Chain Cert.Network
open Idealize.ShloMosaic Idealize.ShloMosaic.TcCoe Idealize.SL.Sem Idealize.ShloMosaic.StableHlo

variable (m : (ℓ : Loc nD τ sig) → Buf (Elt Ideal) ℓ) (ρ : Dev nD → PrngReg)

/-! ## After the first stretch of host operations -/

theorem W1_src (c : Dev nD) : W1 m ρ c (Proc.devRef .tc main_v1) = srcOf (m ((c : Thread nD τ).loc main_arg1)) := by
  show StableHlo.after hostOps0 (W0 m ρ c) (Proc.devRef .tc main_v1) = _
  after_results_simp
  rfl

theorem W1_dst (c : Dev nD) : W1 m ρ c (Proc.devRef .tc main_v3) = dstOf (m ((c : Thread nD τ).loc main_arg1)) := by
  show StableHlo.after hostOps0 (W0 m ρ c) (Proc.devRef .tc main_v3) = _
  after_results_simp
  rfl

theorem W1_norm (c : Dev nD) : W1 m ρ c (Proc.devRef .tc main_v25)
    = normOf (srcOf (m ((c : Thread nD τ).loc main_arg1))) (dstOf (m ((c : Thread nD τ).loc main_arg1))) := by
  show StableHlo.after hostOps0 (W0 m ρ c) (Proc.devRef .tc main_v25) = _
  after_results_simp
  rfl

theorem W1_self (c : Dev nD) : W1 m ρ c (Proc.devRef .tc main_v27) = selfColOf (dstOf (m ((c : Thread nD τ).loc main_arg1))) := by
  show StableHlo.after hostOps0 (W0 m ρ c) (Proc.devRef .tc main_v27) = _
  after_results_simp
  rfl

theorem W1_arg0 (c : Dev nD) : W1 m ρ c (Proc.devRef .tc main_arg0) = m ((c : Thread nD τ).loc main_arg0) := by
  show StableHlo.after hostOps0 (W0 m ρ c) (Proc.devRef .tc main_arg0) = _
  after_results_simp <;> rfl

theorem W1_arg2 (c : Dev nD) : W1 m ρ c (Proc.devRef .tc main_arg2) = m ((c : Thread nD τ).loc main_arg2) := by
  show StableHlo.after hostOps0 (W0 m ρ c) (Proc.devRef .tc main_arg2) = _
  after_results_simp <;> rfl

theorem W1_arg3 (c : Dev nD) : W1 m ρ c (Proc.devRef .tc main_arg3) = m ((c : Thread nD τ).loc main_arg3) := by
  show StableHlo.after hostOps0 (W0 m ρ c) (Proc.devRef .tc main_arg3) = _
  after_results_simp <;> rfl

/-! ## Buffers nothing writes between two boundaries keep their contents -/

/-- No operation of a stretch writes the buffer: each operation's result buffer is another one. -/
local macro "not_written" : tactic => `(tactic| exact List.forall_iff_forall_mem.mp (by
  simp only [hostOps0, hostOps1, hostOps3, hostOps5, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

theorem keep_W0_W1 (b : Ref sig .tc)
    (hn : ∀ op ∈ (hostOps0 : List (HloOp τ sig (Elt Ideal))), Proc.devRef .tc b ∉ op.writes) (c : Dev nD) :
    W1 m ρ c (Proc.devRef .tc b) = m ((c : Thread nD τ).loc b) :=
  StableHlo.after_of_forall_not_mem (b := Proc.devRef .tc b) hostOps0 (W0 m ρ c) hn

theorem keep_W1_W2 (b : Ref sig .tc) (h0 : ∀ w, Pipeline.arrRef spec0 w ≠ b) (c : Dev nD) :
    W2 m ρ c (Proc.devRef .tc b) = W1 m ρ c (Proc.devRef .tc b) := W2_of_ne m ρ c b h0

theorem keep_W2_W3 (b : Ref sig .tc)
    (hn : ∀ op ∈ (hostOps1 : List (HloOp τ sig (Elt Ideal))), Proc.devRef .tc b ∉ op.writes) (c : Dev nD) :
    W3 m ρ c (Proc.devRef .tc b) = W2 m ρ c (Proc.devRef .tc b) :=
  StableHlo.after_of_forall_not_mem (b := Proc.devRef .tc b) hostOps1 (W2 m ρ c) hn

theorem keep_W3_W5 (b : Ref sig .tc) (h1 : ∀ w, Pipeline.arrRef spec1 w ≠ b) (h2 : ∀ w, Pipeline.arrRef spec2 w ≠ b) (c : Dev nD) :
    W5 m ρ c (Proc.devRef .tc b) = W3 m ρ c (Proc.devRef .tc b) :=
  (W5_of_ne m ρ c b h2).trans (W4_of_ne m ρ c b h1)

theorem keep_W5_W6 (b : Ref sig .tc)
    (hn : ∀ op ∈ (hostOps3 : List (HloOp τ sig (Elt Ideal))), Proc.devRef .tc b ∉ op.writes) (c : Dev nD) :
    W6 m ρ c (Proc.devRef .tc b) = W5 m ρ c (Proc.devRef .tc b) :=
  StableHlo.after_of_forall_not_mem (b := Proc.devRef .tc b) hostOps3 (W5 m ρ c) hn

theorem keep_W6_W8 (b : Ref sig .tc) (h3 : ∀ w, Pipeline.arrRef spec3 w ≠ b) (h4 : ∀ w, Pipeline.arrRef spec4 w ≠ b) (c : Dev nD) :
    W8 m ρ c (Proc.devRef .tc b) = W6 m ρ c (Proc.devRef .tc b) :=
  (W8_of_ne m ρ c b h4).trans (W7_of_ne m ρ c b h3)

theorem keep_W8_W9 (b : Ref sig .tc)
    (hn : ∀ op ∈ (hostOps5 : List (HloOp τ sig (Elt Ideal))), Proc.devRef .tc b ∉ op.writes) (c : Dev nD) :
    W9 m ρ c (Proc.devRef .tc b) = W8 m ρ c (Proc.devRef .tc b) :=
  StableHlo.after_of_forall_not_mem (b := Proc.devRef .tc b) hostOps5 (W8 m ρ c) hn

/-! ## The rows of the edge list and the normalisation, where each later stretch reads them -/

theorem W2_src (c : Dev nD) : W2 m ρ c (Proc.devRef .tc main_v1) = srcOf (m ((c : Thread nD τ).loc main_arg1)) :=
  (keep_W1_W2 m ρ main_v1 (by decide) c).trans (W1_src m ρ c)
theorem W2_dst (c : Dev nD) : W2 m ρ c (Proc.devRef .tc main_v3) = dstOf (m ((c : Thread nD τ).loc main_arg1)) :=
  (keep_W1_W2 m ρ main_v3 (by decide) c).trans (W1_dst m ρ c)
theorem W2_norm (c : Dev nD) : W2 m ρ c (Proc.devRef .tc main_v25)
    = normOf (srcOf (m ((c : Thread nD τ).loc main_arg1))) (dstOf (m ((c : Thread nD τ).loc main_arg1))) :=
  (keep_W1_W2 m ρ main_v25 (by decide) c).trans (W1_norm m ρ c)

theorem W5_src (c : Dev nD) : W5 m ρ c (Proc.devRef .tc main_v1) = srcOf (m ((c : Thread nD τ).loc main_arg1)) :=
  (keep_W3_W5 m ρ main_v1 (by decide) (by decide) c).trans ((keep_W2_W3 m ρ main_v1 (by not_written) c).trans (W2_src m ρ c))
theorem W5_dst (c : Dev nD) : W5 m ρ c (Proc.devRef .tc main_v3) = dstOf (m ((c : Thread nD τ).loc main_arg1)) :=
  (keep_W3_W5 m ρ main_v3 (by decide) (by decide) c).trans ((keep_W2_W3 m ρ main_v3 (by not_written) c).trans (W2_dst m ρ c))
theorem W5_norm (c : Dev nD) : W5 m ρ c (Proc.devRef .tc main_v25)
    = normOf (srcOf (m ((c : Thread nD τ).loc main_arg1))) (dstOf (m ((c : Thread nD τ).loc main_arg1))) :=
  (keep_W3_W5 m ρ main_v25 (by decide) (by decide) c).trans ((keep_W2_W3 m ρ main_v25 (by not_written) c).trans (W2_norm m ρ c))

theorem W8_src (c : Dev nD) : W8 m ρ c (Proc.devRef .tc main_v1) = srcOf (m ((c : Thread nD τ).loc main_arg1)) :=
  (keep_W6_W8 m ρ main_v1 (by decide) (by decide) c).trans ((keep_W5_W6 m ρ main_v1 (by not_written) c).trans (W5_src m ρ c))
theorem W8_dst (c : Dev nD) : W8 m ρ c (Proc.devRef .tc main_v3) = dstOf (m ((c : Thread nD τ).loc main_arg1)) :=
  (keep_W6_W8 m ρ main_v3 (by decide) (by decide) c).trans ((keep_W5_W6 m ρ main_v3 (by not_written) c).trans (W5_dst m ρ c))
theorem W8_norm (c : Dev nD) : W8 m ρ c (Proc.devRef .tc main_v25)
    = normOf (srcOf (m ((c : Thread nD τ).loc main_arg1))) (dstOf (m ((c : Thread nD τ).loc main_arg1))) :=
  (keep_W6_W8 m ρ main_v25 (by decide) (by decide) c).trans ((keep_W5_W6 m ρ main_v25 (by not_written) c).trans (W5_norm m ρ c))

/-! ## The self-loop column, where each update region reads it (an input window of regions 1, 3 and 5) -/

theorem W3_self (c : Dev nD) : W3 m ρ c (Proc.devRef .tc main_v27) = selfColOf (dstOf (m ((c : Thread nD τ).loc main_arg1))) :=
  (keep_W2_W3 m ρ main_v27 (by not_written) c).trans ((keep_W1_W2 m ρ main_v27 (by decide) c).trans (W1_self m ρ c))

theorem W6_self (c : Dev nD) : W6 m ρ c (Proc.devRef .tc main_v27) = selfColOf (dstOf (m ((c : Thread nD τ).loc main_arg1))) :=
  calc W6 m ρ c (Proc.devRef .tc main_v27)
    _ = W5 m ρ c (Proc.devRef .tc main_v27) := keep_W5_W6 m ρ main_v27 (by not_written) c
    _ = W4 m ρ c (Proc.devRef .tc main_v27) := W5_of_ne m ρ c main_v27 (by decide)
    _ = W3 m ρ c (Proc.devRef .tc main_v27) :=
          (W4_arr m ρ c 2).trans (((dat1 (V3 m ρ) c).arrAt_in 2 rfl _).trans (A_eq1 (V3 m ρ) c 2))
    _ = _ := W3_self m ρ c

theorem W9_self (c : Dev nD) : W9 m ρ c (Proc.devRef .tc main_v27) = selfColOf (dstOf (m ((c : Thread nD τ).loc main_arg1))) :=
  calc W9 m ρ c (Proc.devRef .tc main_v27)
    _ = W8 m ρ c (Proc.devRef .tc main_v27) := keep_W8_W9 m ρ main_v27 (by not_written) c
    _ = W7 m ρ c (Proc.devRef .tc main_v27) := W8_of_ne m ρ c main_v27 (by decide)
    _ = W6 m ρ c (Proc.devRef .tc main_v27) :=
          (W7_arr m ρ c 2).trans (((dat3 (V6 m ρ) c).arrAt_in 2 rfl _).trans (A_eq3 (V6 m ρ) c 2))
    _ = _ := W6_self m ρ c

/-! ## The weights and biases, where each is read -/

theorem W2_arg3 (c : Dev nD) : W2 m ρ c (Proc.devRef .tc main_arg3) = m ((c : Thread nD τ).loc main_arg3) :=
  (keep_W1_W2 m ρ main_arg3 (by decide) c).trans (keep_W0_W1 m ρ main_arg3 (by not_written) c)

theorem W3_arg (b : Ref sig .tc) (h0 : ∀ w, Pipeline.arrRef spec0 w ≠ b)
    (hn0 : ∀ op ∈ (hostOps0 : List (HloOp τ sig (Elt Ideal))), Proc.devRef .tc b ∉ op.writes)
    (hn1 : ∀ op ∈ (hostOps1 : List (HloOp τ sig (Elt Ideal))), Proc.devRef .tc b ∉ op.writes) (c : Dev nD) :
    W3 m ρ c (Proc.devRef .tc b) = m ((c : Thread nD τ).loc b) :=
  (keep_W2_W3 m ρ b hn1 c).trans ((keep_W1_W2 m ρ b h0 c).trans (keep_W0_W1 m ρ b hn0 c))

theorem W4_arg4 (c : Dev nD) : W4 m ρ c (Proc.devRef .tc main_arg4) = m ((c : Thread nD τ).loc main_arg4) :=
  (W4_of_ne m ρ c main_arg4 (by decide)).trans (W3_arg m ρ main_arg4 (by decide) (by not_written) (by not_written) c)

theorem W5_arg5 (c : Dev nD) : W5 m ρ c (Proc.devRef .tc main_arg5) = m ((c : Thread nD τ).loc main_arg5) :=
  (keep_W3_W5 m ρ main_arg5 (by decide) (by decide) c).trans (W3_arg m ρ main_arg5 (by decide) (by not_written) (by not_written) c)

theorem W6_arg (b : Ref sig .tc) (h0 : ∀ w, Pipeline.arrRef spec0 w ≠ b) (h1 : ∀ w, Pipeline.arrRef spec1 w ≠ b)
    (h2 : ∀ w, Pipeline.arrRef spec2 w ≠ b)
    (hn0 : ∀ op ∈ (hostOps0 : List (HloOp τ sig (Elt Ideal))), Proc.devRef .tc b ∉ op.writes)
    (hn1 : ∀ op ∈ (hostOps1 : List (HloOp τ sig (Elt Ideal))), Proc.devRef .tc b ∉ op.writes)
    (hn3 : ∀ op ∈ (hostOps3 : List (HloOp τ sig (Elt Ideal))), Proc.devRef .tc b ∉ op.writes) (c : Dev nD) :
    W6 m ρ c (Proc.devRef .tc b) = m ((c : Thread nD τ).loc b) :=
  (keep_W5_W6 m ρ b hn3 c).trans ((keep_W3_W5 m ρ b h1 h2 c).trans (W3_arg m ρ b h0 hn0 hn1 c))

theorem W7_arg6 (c : Dev nD) : W7 m ρ c (Proc.devRef .tc main_arg6) = m ((c : Thread nD τ).loc main_arg6) :=
  (W7_of_ne m ρ c main_arg6 (by decide)).trans
    (W6_arg m ρ main_arg6 (by decide) (by decide) (by decide) (by not_written) (by not_written) (by not_written) c)

theorem W8_arg7 (c : Dev nD) : W8 m ρ c (Proc.devRef .tc main_arg7) = m ((c : Thread nD τ).loc main_arg7) :=
  (keep_W6_W8 m ρ main_arg7 (by decide) (by decide) c).trans
    (W6_arg m ρ main_arg7 (by decide) (by decide) (by decide) (by not_written) (by not_written) (by not_written) c)

/-! ## The layers, in order -/

theorem W2_p1 (c : Dev nD) : W2 m ρ c (Proc.devRef .tc main_v28) = p1 (m ((c : Thread nD τ).loc main_arg0)) (m ((c : Thread nD τ).loc main_arg2)) :=
  (W2_arr m ρ c 2).trans ((final0 (V1 m ρ) c).trans (by
    show matProd (n := 100000) (kk := 165) (d := 32) (W1 m ρ c (Proc.devRef .tc main_arg0)) (W1 m ρ c (Proc.devRef .tc main_arg2)) = _
    rw [W1_arg0, W1_arg2]
    rfl))

theorem W3_agg (c : Dev nD) : W3 m ρ c (Proc.devRef .tc main_v41)
    = agg32 (p1 (m ((c : Thread nD τ).loc main_arg0)) (m ((c : Thread nD τ).loc main_arg2))) (srcOf (m ((c : Thread nD τ).loc main_arg1))) (dstOf (m ((c : Thread nD τ).loc main_arg1))) (normOf (srcOf (m ((c : Thread nD τ).loc main_arg1))) (dstOf (m ((c : Thread nD τ).loc main_arg1)))) := by
  show StableHlo.after hostOps1 (W2 m ρ c) (Proc.devRef .tc main_v41) = _
  after_results_simp
  rw [W2_p1, W2_src, W2_dst, W2_norm]
  rfl

theorem W3_row (c : Dev nD) : W3 m ρ c (Proc.devRef .tc main_v42) = shapeCast Cert.ReferenceIdeal.S1x32 (m ((c : Thread nD τ).loc main_arg3)) cast32 := by
  show StableHlo.after hostOps1 (W2 m ρ c) (Proc.devRef .tc main_v42) = _
  after_results_simp
  rw [W2_arg3]
  rfl

theorem W3_p1 (c : Dev nD) : W3 m ρ c (Proc.devRef .tc main_v28) = p1 (m ((c : Thread nD τ).loc main_arg0)) (m ((c : Thread nD τ).loc main_arg2)) :=
  (keep_W2_W3 m ρ main_v28 (by not_written) c).trans (W2_p1 m ρ c)

theorem W4_h1 (c : Dev nD) : W4 m ρ c (Proc.devRef .tc main_v43) = h1 (m ((c : Thread nD τ).loc main_arg0)) (m ((c : Thread nD τ).loc main_arg1)) (m ((c : Thread nD τ).loc main_arg2)) (m ((c : Thread nD τ).loc main_arg3)) :=
  (W4_arr m ρ c 4).trans ((final1 (V3 m ρ) c).trans (by
    show reluOf (combine (n := 100000) (d := 32) (W3 m ρ c (Proc.devRef .tc main_v41)) (W3 m ρ c (Proc.devRef .tc main_v28))
      (W3 m ρ c (Proc.devRef .tc main_v27)) (W3 m ρ c (Proc.devRef .tc main_v42))) = _
    rw [W3_agg, W3_p1, W3_self, W3_row]
    rfl))

theorem W5_p2 (c : Dev nD) : W5 m ρ c (Proc.devRef .tc main_v44) = p2 (m ((c : Thread nD τ).loc main_arg0)) (m ((c : Thread nD τ).loc main_arg1)) (m ((c : Thread nD τ).loc main_arg2)) (m ((c : Thread nD τ).loc main_arg3)) (m ((c : Thread nD τ).loc main_arg4)) :=
  (W5_arr m ρ c 2).trans ((final2 (V4 m ρ) c).trans (by
    show matProd (n := 100000) (kk := 32) (d := 16) (W4 m ρ c (Proc.devRef .tc main_v43)) (W4 m ρ c (Proc.devRef .tc main_arg4)) = _
    rw [W4_h1, W4_arg4]
    rfl))

theorem W6_agg (c : Dev nD) : W6 m ρ c (Proc.devRef .tc main_v57)
    = agg16 (p2 (m ((c : Thread nD τ).loc main_arg0)) (m ((c : Thread nD τ).loc main_arg1)) (m ((c : Thread nD τ).loc main_arg2)) (m ((c : Thread nD τ).loc main_arg3)) (m ((c : Thread nD τ).loc main_arg4))) (srcOf (m ((c : Thread nD τ).loc main_arg1))) (dstOf (m ((c : Thread nD τ).loc main_arg1))) (normOf (srcOf (m ((c : Thread nD τ).loc main_arg1))) (dstOf (m ((c : Thread nD τ).loc main_arg1)))) := by
  show StableHlo.after hostOps3 (W5 m ρ c) (Proc.devRef .tc main_v57) = _
  after_results_simp
  rw [W5_p2, W5_src, W5_dst, W5_norm]
  rfl

theorem W6_row (c : Dev nD) : W6 m ρ c (Proc.devRef .tc main_v58) = shapeCast Cert.ReferenceIdeal.S1x16 (m ((c : Thread nD τ).loc main_arg5)) cast16 := by
  show StableHlo.after hostOps3 (W5 m ρ c) (Proc.devRef .tc main_v58) = _
  after_results_simp
  rw [W5_arg5]
  rfl

theorem W6_p2 (c : Dev nD) : W6 m ρ c (Proc.devRef .tc main_v44) = p2 (m ((c : Thread nD τ).loc main_arg0)) (m ((c : Thread nD τ).loc main_arg1)) (m ((c : Thread nD τ).loc main_arg2)) (m ((c : Thread nD τ).loc main_arg3)) (m ((c : Thread nD τ).loc main_arg4)) :=
  (keep_W5_W6 m ρ main_v44 (by not_written) c).trans (W5_p2 m ρ c)

theorem W7_h2 (c : Dev nD) : W7 m ρ c (Proc.devRef .tc main_v59) = h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W7_arr m ρ c 4).trans ((final3 (V6 m ρ) c).trans (by
    show reluOf (combine (n := 100000) (d := 16) (W6 m ρ c (Proc.devRef .tc main_v57)) (W6 m ρ c (Proc.devRef .tc main_v44))
      (W6 m ρ c (Proc.devRef .tc main_v27)) (W6 m ρ c (Proc.devRef .tc main_v58))) = _
    rw [W6_agg, W6_p2, W6_self, W6_row]
    rfl))

theorem W8_p3 (c : Dev nD) : W8 m ρ c (Proc.devRef .tc main_v60) = p3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W8_arr m ρ c 2).trans ((final4 (V7 m ρ) c).trans (by
    show matProd (n := 100000) (kk := 16) (d := 2) (W7 m ρ c (Proc.devRef .tc main_v59)) (W7 m ρ c (Proc.devRef .tc main_arg6)) = _
    rw [W7_h2, W7_arg6]
    rfl))

theorem W9_agg (c : Dev nD) : W9 m ρ c (Proc.devRef .tc main_v73)
    = agg2 (p3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (srcOf (m ((c : Thread nD τ).loc main_arg1))) (dstOf (m ((c : Thread nD τ).loc main_arg1))) (normOf (srcOf (m ((c : Thread nD τ).loc main_arg1))) (dstOf (m ((c : Thread nD τ).loc main_arg1)))) := by
  show StableHlo.after hostOps5 (W8 m ρ c) (Proc.devRef .tc main_v73) = _
  after_results_simp
  rw [W8_p3, W8_src, W8_dst, W8_norm]
  rfl

theorem W9_row (c : Dev nD) : W9 m ρ c (Proc.devRef .tc main_v74) = shapeCast Cert.ReferenceIdeal.S1x2 (m ((c : Thread nD τ).loc main_arg7)) cast2 := by
  show StableHlo.after hostOps5 (W8 m ρ c) (Proc.devRef .tc main_v74) = _
  after_results_simp
  rw [W8_arg7]
  rfl

theorem W9_p3 (c : Dev nD) : W9 m ρ c (Proc.devRef .tc main_v60) = p3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (keep_W8_W9 m ρ main_v60 (by not_written) c).trans (W8_p3 m ρ c)

/-- THE RESULT BUFFER at the last boundary: the network's function of the eight arguments. -/
theorem W10_out (c : Dev nD) : W10 m ρ c (Proc.devRef .tc main_v75)
    = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W10_arr m ρ c 4).trans ((final5 (V9 m ρ) c).trans (by
    show logSoftmax2 (combine (n := 100000) (d := 2) (W9 m ρ c (Proc.devRef .tc main_v73)) (W9 m ρ c (Proc.devRef .tc main_v60))
      (W9 m ρ c (Proc.devRef .tc main_v27)) (W9 m ρ c (Proc.devRef .tc main_v74))) = _
    rw [W9_agg, W9_p3, W9_self, W9_row]
    rfl))

/-- The idealized kernel's run: the result is the network's function of the arguments, the arguments unchanged. -/
theorem run_out : θ_run defs (onTc (τ := τ) (main (F := Ideal))) ⟨m, fun _ => 0, ρ⟩ (fun r => ∀ c : Dev nD,
      r.2.mem ((c.tc : Thread nD τ).loc main_v75)
        = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (W10_out m ρ c), (h c).2⟩) (run_value m ρ)

end Cert.KernelIdeal.Val

end
-- ==== Proof.RefStretch.lean ====
/-
  The reference's 187 host operations cut into seven stretches — per layer the stretch that ends with the
  per-edge normalisation (the dense product, the degrees, their inverse roots, the two gathers) and the stretch
  that ends with the layer's output (the aggregation, the self-loop, the bias, the activation); then the
  log-softmax — and its fold as the seven stretches' folds one after the other.
-/
import proofs.«170347_j17600775979431_1_alg».proof.Proof.RefRunFolded
import Idealize.ShloMosaic.Lib.StableHlo.Run
import Idealize.ShloMosaic.PureOps.Ideal

set_option maxRecDepth 65536

noncomputable section

namespace Cert.ReferenceIdeal.RefValue

open Cert.ReferenceIdeal Cert.ReferenceIdeal.Gen Cert.ReferenceIdeal.ValueF
open Idealize.ShloMosaic Idealize.ShloMosaic.TcCoe Idealize.SL.Sem Idealize.ShloMosaic.StableHlo

/-- Running two lists of operations one after the other is running their concatenation. -/
theorem after_append (l1 l2 : List (HloOp τ sig (Elt Ideal))) (V : Valuation τ sig (Elt Ideal)) :
    after (l1 ++ l2) V = after l2 (after l1 V) := by
  induction l1 generalizing V with
  | nil => rfl
  | cons a l ih => exact ih _

/-- Contents carried to a buffer's own type and back are unchanged. -/
theorem ofBuf_toBuf {T : BufTy} (x : TRef sig T) (v : T.Contents (Elt Ideal)) : x.ofBuf (x.toBuf v) = v := by
  obtain ⟨r, h1, h2, h3⟩ := x
  subst h1
  rfl

/-- The first `n` entries and the rest. -/
theorem split1 {α : Type} (l : List α) (n : Nat) : l = l.take n ++ l.drop n := (List.take_append_drop n l).symm

/-- The operations after the first 34, 61, 91, 118, 148 and 172. -/
def rest1 : List (HloOp τ sig (Elt Ideal)) := (ops (F := Ideal)).drop 34
def rest2 : List (HloOp τ sig (Elt Ideal)) := rest1.drop 27
def rest3 : List (HloOp τ sig (Elt Ideal)) := rest2.drop 30
def rest4 : List (HloOp τ sig (Elt Ideal)) := rest3.drop 27
def rest5 : List (HloOp τ sig (Elt Ideal)) := rest4.drop 30

/-- The seven stretches. -/
def opsA1 : List (HloOp τ sig (Elt Ideal)) := (ops (F := Ideal)).take 34
def opsA2 : List (HloOp τ sig (Elt Ideal)) := rest1.take 27
def opsB1 : List (HloOp τ sig (Elt Ideal)) := rest2.take 30
def opsB2 : List (HloOp τ sig (Elt Ideal)) := rest3.take 27
def opsC1 : List (HloOp τ sig (Elt Ideal)) := rest4.take 30
def opsC2 : List (HloOp τ sig (Elt Ideal)) := rest5.take 24
def opsD : List (HloOp τ sig (Elt Ideal)) := rest5.drop 24

theorem after_ops (V : Valuation τ sig (Elt Ideal)) :
    after (ops (F := Ideal)) V
      = after opsD (after opsC2 (after opsC1 (after opsB2 (after opsB1 (after opsA2 (after opsA1 V)))))) := by
  have e1 : (ops (F := Ideal)) = opsA1 ++ rest1 := split1 _ 34
  have e2 : rest1 = opsA2 ++ rest2 := split1 _ 27
  have e3 : rest2 = opsB1 ++ rest3 := split1 _ 30
  have e4 : rest3 = opsB2 ++ rest4 := split1 _ 27
  have e5 : rest4 = opsC1 ++ rest5 := split1 _ 30
  have e6 : rest5 = opsC2 ++ opsD := split1 _ 24
  rw [e1, after_append, e2, after_append, e3, after_append, e4, after_append, e5, after_append, e6, after_append]

end Cert.ReferenceIdeal.RefValue

end
-- ==== Proof.RefFoldA1.lean ====
/-
  The reference's first stretch, read from any entry contents `V`: the two rows of the edge list, the first dense
  product, the inverse root degrees and the per-edge normalisation; the weights and biases of all layers untouched.
-/
import proofs.«170347_j17600775979431_1_alg».proof.Proof.RefStretch
import proofs.«170347_j17600775979431_1_alg».proof.Proof.Chain
import proofs.«170347_j17600775979431_1_alg».proof.Proof.Network
import Idealize.ShloMosaic.Lib.StableHlo.Run
import Idealize.ShloMosaic.PureOps.Ideal

set_option maxRecDepth 65536

noncomputable section

namespace Cert.ReferenceIdeal.RefValue

open Cert.ReferenceIdeal Cert.ReferenceIdeal.Gen Cert.ReferenceIdeal.ValueF Cert.Chain Cert.Network
open Idealize.ShloMosaic Idealize.ShloMosaic.TcCoe Idealize.SL.Sem Idealize.ShloMosaic.StableHlo

variable (V : Valuation τ sig (Elt Ideal))

theorem A1_src : after opsA1 V (Proc.devRef .tc main_v1) = srcOf (V (Proc.devRef .tc main_arg1)) := by
  simp only [opsA1, rest1, rest2, rest3, rest4, rest5, ops, List.drop_succ_cons, List.drop_zero, List.take_succ_cons, List.take_zero]
  after_results_simp <;> rfl

theorem A1_dst : after opsA1 V (Proc.devRef .tc main_v3) = dstOf (V (Proc.devRef .tc main_arg1)) := by
  simp only [opsA1, rest1, rest2, rest3, rest4, rest5, ops, List.drop_succ_cons, List.drop_zero, List.take_succ_cons, List.take_zero]
  after_results_simp <;> rfl

theorem A1_p1 : after opsA1 V (Proc.devRef .tc main_v4) = Host.dotGeneral (F := Ideal) (φ₁ := .f32) (φ₂ := .f32) dot_S100000x165_S165x32_S100000x32_1_0_0_1_n_n none (V (Proc.devRef .tc main_arg0)) (V (Proc.devRef .tc main_arg2)) := by
  simp only [opsA1, rest1, rest2, rest3, rest4, rest5, ops, List.drop_succ_cons, List.drop_zero, List.take_succ_cons, List.take_zero]
  after_results_simp <;> rfl

theorem A1_dinv : after opsA1 V (Proc.devRef .tc main_v11) = dinvOf (dstOf (V (Proc.devRef .tc main_arg1))) := by
  simp only [opsA1, rest1, rest2, rest3, rest4, rest5, ops, List.drop_succ_cons, List.drop_zero, List.take_succ_cons, List.take_zero]
  after_results_simp <;> rfl

theorem A1_norm : after opsA1 V (Proc.devRef .tc main_v26) = normOf (srcOf (V (Proc.devRef .tc main_arg1))) (dstOf (V (Proc.devRef .tc main_arg1))) := by
  simp only [opsA1, rest1, rest2, rest3, rest4, rest5, ops, List.drop_succ_cons, List.drop_zero, List.take_succ_cons, List.take_zero]
  after_results_simp <;> rfl

theorem A1_keep3 : after opsA1 V (Proc.devRef .tc main_arg3) = (V (Proc.devRef .tc main_arg3)) := by
  simp only [opsA1, rest1, rest2, rest3, rest4, rest5, ops, List.drop_succ_cons, List.drop_zero, List.take_succ_cons, List.take_zero]
  after_results_simp <;> rfl

theorem A1_keep4 : after opsA1 V (Proc.devRef .tc main_arg4) = (V (Proc.devRef .tc main_arg4)) := by
  simp only [opsA1, rest1, rest2, rest3, rest4, rest5, ops, List.drop_succ_cons, List.drop_zero, List.take_succ_cons, List.take_zero]
  after_results_simp <;> rfl

theorem A1_keep5 : after opsA1 V (Proc.devRef .tc main_arg5) = (V (Proc.devRef .tc main_arg5)) := by
  simp only [opsA1, rest1, rest2, rest3, rest4, rest5, ops, List.drop_succ_cons, List.drop_zero, List.take_succ_cons, List.take_zero]
  after_results_simp <;> rfl

theorem A1_keep6 : after opsA1 V (Proc.devRef .tc main_arg6) = (V (Proc.devRef .tc main_arg6)) := by
  simp only [opsA1, rest1, rest2, rest3, rest4, rest5, ops, List.drop_succ_cons, List.drop_zero, List.take_succ_cons, List.take_zero]
  after_results_simp <;> rfl

theorem A1_keep7 : after opsA1 V (Proc.devRef .tc main_arg7) = (V (Proc.devRef .tc main_arg7)) := by
  simp only [opsA1, rest1, rest2, rest3, rest4, rest5, ops, List.drop_succ_cons, List.drop_zero, List.take_succ_cons, List.take_zero]
  after_results_simp <;> rfl

end Cert.ReferenceIdeal.RefValue

end
-- ==== Proof.RefFoldA2.lean ====
/-
  The reference's second stretch, read from any entry contents `V`: the first layer's output as the host writes it,
  over the product, the edge rows, the normalisation and the inverse root degrees as `V` holds them; the edge rows and
  the later layers' weights and biases untouched.
-/
import proofs.«170347_j17600775979431_1_alg».proof.Proof.RefStretch
import proofs.«170347_j17600775979431_1_alg».proof.Proof.Chain
import proofs.«170347_j17600775979431_1_alg».proof.Proof.Network
import Idealize.ShloMosaic.Lib.StableHlo.Run
import Idealize.ShloMosaic.PureOps.Ideal

set_option maxRecDepth 65536

noncomputable section

namespace Cert.ReferenceIdeal.RefValue

open Cert.ReferenceIdeal Cert.ReferenceIdeal.Gen Cert.ReferenceIdeal.ValueF Cert.Chain Cert.Network
open Idealize.ShloMosaic Idealize.ShloMosaic.TcCoe Idealize.SL.Sem Idealize.ShloMosaic.StableHlo

variable (V : Valuation τ sig (Elt Ideal))

/-- The layer's pre-activation buffer read at its value type, and the output buffer written from it: the identity. -/
theorem ofBuf_v47 (v : RVec S100000x32) : (TRef.of (T := ⟨S100000x32, .f32⟩) main_v47).ofBuf (Val := Elt Ideal) v = v := rfl
theorem toBuf_v48 (v : RVec S100000x32) : (TRef.of (T := ⟨S100000x32, .f32⟩) main_v48).toBuf (Val := Elt Ideal) v = v := rfl

theorem A2_h1 : after opsA2 V (Proc.devRef .tc main_v48) = reluHost32 (layerHost32 (agg32 (V (Proc.devRef .tc main_v4)) (V (Proc.devRef .tc main_v1)) (V (Proc.devRef .tc main_v3)) (V (Proc.devRef .tc main_v26))) (V (Proc.devRef .tc main_v4))
      (broadcastInDim S100000x1 ![0] bcast_S100000_S100000x1_0 (mulf (F := Ideal) (V (Proc.devRef .tc main_v11)) (V (Proc.devRef .tc main_v11)))) (V (Proc.devRef .tc main_arg3))) := by
  simp only [opsA2, rest1, rest2, rest3, rest4, rest5, ops, List.drop_succ_cons, List.drop_zero, List.take_succ_cons, List.take_zero]
  after_results_simp
  rw [ofBuf_toBuf (TRef.of (T := ⟨S_, .f32⟩) main_call0_cst), ofBuf_toBuf (TRef.of (T := ⟨S100000x32, .f32⟩) main_call0_v0), ofBuf_v47, toBuf_v48]
  rfl

theorem A2_keep_v1 : after opsA2 V (Proc.devRef .tc main_v1) = (V (Proc.devRef .tc main_v1)) := by
  simp only [opsA2, rest1, rest2, rest3, rest4, rest5, ops, List.drop_succ_cons, List.drop_zero, List.take_succ_cons, List.take_zero]
  after_results_simp <;> rfl

theorem A2_keep_v3 : after opsA2 V (Proc.devRef .tc main_v3) = (V (Proc.devRef .tc main_v3)) := by
  simp only [opsA2, rest1, rest2, rest3, rest4, rest5, ops, List.drop_succ_cons, List.drop_zero, List.take_succ_cons, List.take_zero]
  after_results_simp <;> rfl

theorem A2_keep_arg4 : after opsA2 V (Proc.devRef .tc main_arg4) = (V (Proc.devRef .tc main_arg4)) := by
  simp only [opsA2, rest1, rest2, rest3, rest4, rest5, ops, List.drop_succ_cons, List.drop_zero, List.take_succ_cons, List.take_zero]
  after_results_simp <;> rfl

theorem A2_keep_arg5 : after opsA2 V (Proc.devRef .tc main_arg5) = (V (Proc.devRef .tc main_arg5)) := by
  simp only [opsA2, rest1, rest2, rest3, rest4, rest5, ops, List.drop_succ_cons, List.drop_zero, List.take_succ_cons, List.take_zero]
  after_results_simp <;> rfl

theorem A2_keep_arg6 : after opsA2 V (Proc.devRef .tc main_arg6) = (V (Proc.devRef .tc main_arg6)) := by
  simp only [opsA2, rest1, rest2, rest3, rest4, rest5, ops, List.drop_succ_cons, List.drop_zero, List.take_succ_cons, List.take_zero]
  after_results_simp <;> rfl

theorem A2_keep_arg7 : after opsA2 V (Proc.devRef .tc main_arg7) = (V (Proc.devRef .tc main_arg7)) := by
  simp only [opsA2, rest1, rest2, rest3, rest4, rest5, ops, List.drop_succ_cons, List.drop_zero, List.take_succ_cons, List.take_zero]
  after_results_simp <;> rfl

end Cert.ReferenceIdeal.RefValue

end
-- ==== Proof.RefFoldB1.lean ====
/-
  The reference's third stretch, read from any entry contents `V`: the second dense product over the first layer's
  output, and the inverse root degrees and the normalisation recomputed from the edge rows `V` holds.
-/
import proofs.«170347_j17600775979431_1_alg».proof.Proof.RefStretch
import proofs.«170347_j17600775979431_1_alg».proof.Proof.Chain
import proofs.«170347_j17600775979431_1_alg».proof.Proof.Network
import Idealize.ShloMosaic.Lib.StableHlo.Run
import Idealize.ShloMosaic.PureOps.Ideal

set_option maxRecDepth 65536

noncomputable section

namespace Cert.ReferenceIdeal.RefValue

open Cert.ReferenceIdeal Cert.ReferenceIdeal.Gen Cert.ReferenceIdeal.ValueF Cert.Chain Cert.Network
open Idealize.ShloMosaic Idealize.ShloMosaic.TcCoe Idealize.SL.Sem Idealize.ShloMosaic.StableHlo

variable (V : Valuation τ sig (Elt Ideal))

theorem B1_p2 : after opsB1 V (Proc.devRef .tc main_v49) = Host.dotGeneral (F := Ideal) (φ₁ := .f32) (φ₂ := .f32) dot_S100000x32_S32x16_S100000x16_1_0_0_1_n_n none (V (Proc.devRef .tc main_v48)) (V (Proc.devRef .tc main_arg4)) := by
  simp only [opsB1, rest1, rest2, rest3, rest4, rest5, ops, List.drop_succ_cons, List.drop_zero, List.take_succ_cons, List.take_zero]
  after_results_simp <;> rfl

theorem B1_dinv : after opsB1 V (Proc.devRef .tc main_v56) = dinvOf (V (Proc.devRef .tc main_v3)) := by
  simp only [opsB1, rest1, rest2, rest3, rest4, rest5, ops, List.drop_succ_cons, List.drop_zero, List.take_succ_cons, List.take_zero]
  after_results_simp <;> rfl

theorem B1_norm : after opsB1 V (Proc.devRef .tc main_v71) = normOf (V (Proc.devRef .tc main_v1)) (V (Proc.devRef .tc main_v3)) := by
  simp only [opsB1, rest1, rest2, rest3, rest4, rest5, ops, List.drop_succ_cons, List.drop_zero, List.take_succ_cons, List.take_zero]
  after_results_simp <;> rfl

theorem B1_keep_v1 : after opsB1 V (Proc.devRef .tc main_v1) = (V (Proc.devRef .tc main_v1)) := by
  simp only [opsB1, rest1, rest2, rest3, rest4, rest5, ops, List.drop_succ_cons, List.drop_zero, List.take_succ_cons, List.take_zero]
  after_results_simp <;> rfl

theorem B1_keep_v3 : after opsB1 V (Proc.devRef .tc main_v3) = (V (Proc.devRef .tc main_v3)) := by
  simp only [opsB1, rest1, rest2, rest3, rest4, rest5, ops, List.drop_succ_cons, List.drop_zero, List.take_succ_cons, List.take_zero]
  after_results_simp <;> rfl

theorem B1_keep_arg5 : after opsB1 V (Proc.devRef .tc main_arg5) = (V (Proc.devRef .tc main_arg5)) := by
  simp only [opsB1, rest1, rest2, rest3, rest4, rest5, ops, List.drop_succ_cons, List.drop_zero, List.take_succ_cons, List.take_zero]
  after_results_simp <;> rfl

theorem B1_keep_arg6 : after opsB1 V (Proc.devRef .tc main_arg6) = (V (Proc.devRef .tc main_arg6)) := by
  simp only [opsB1, rest1, rest2, rest3, rest4, rest5, ops, List.drop_succ_cons, List.drop_zero, List.take_succ_cons, List.take_zero]
  after_results_simp <;> rfl

theorem B1_keep_arg7 : after opsB1 V (Proc.devRef .tc main_arg7) = (V (Proc.devRef .tc main_arg7)) := by
  simp only [opsB1, rest1, rest2, rest3, rest4, rest5, ops, List.drop_succ_cons, List.drop_zero, List.take_succ_cons, List.take_zero]
  after_results_simp <;> rfl

end Cert.ReferenceIdeal.RefValue

end
-- ==== Proof.RefFoldB2.lean ====
/-
  The reference's fourth stretch, read from any entry contents `V`: the second layer's output as the host writes it.
-/
import proofs.«170347_j17600775979431_1_alg».proof.Proof.RefStretch
import proofs.«170347_j17600775979431_1_alg».proof.Proof.Chain
import proofs.«170347_j17600775979431_1_alg».proof.Proof.Network
import Idealize.ShloMosaic.Lib.StableHlo.Run
import Idealize.ShloMosaic.PureOps.Ideal

set_option maxRecDepth 65536

noncomputable section

namespace Cert.ReferenceIdeal.RefValue

open Cert.ReferenceIdeal Cert.ReferenceIdeal.Gen Cert.ReferenceIdeal.ValueF Cert.Chain Cert.Network
open Idealize.ShloMosaic Idealize.ShloMosaic.TcCoe Idealize.SL.Sem Idealize.ShloMosaic.StableHlo

variable (V : Valuation τ sig (Elt Ideal))

/-- The layer's pre-activation buffer read at its value type, and the output buffer written from it: the identity. -/
theorem ofBuf_v92 (v : RVec S100000x16) : (TRef.of (T := ⟨S100000x16, .f32⟩) main_v92).ofBuf (Val := Elt Ideal) v = v := rfl
theorem toBuf_v93 (v : RVec S100000x16) : (TRef.of (T := ⟨S100000x16, .f32⟩) main_v93).toBuf (Val := Elt Ideal) v = v := rfl

theorem B2_h2 : after opsB2 V (Proc.devRef .tc main_v93) = reluHost16 (layerHost16 (agg16 (V (Proc.devRef .tc main_v49)) (V (Proc.devRef .tc main_v1)) (V (Proc.devRef .tc main_v3)) (V (Proc.devRef .tc main_v71))) (V (Proc.devRef .tc main_v49))
      (broadcastInDim S100000x1 ![0] bcast_S100000_S100000x1_0 (mulf (F := Ideal) (V (Proc.devRef .tc main_v56)) (V (Proc.devRef .tc main_v56)))) (V (Proc.devRef .tc main_arg5))) := by
  simp only [opsB2, rest1, rest2, rest3, rest4, rest5, ops, List.drop_succ_cons, List.drop_zero, List.take_succ_cons, List.take_zero]
  after_results_simp
  rw [ofBuf_toBuf (TRef.of (T := ⟨S_, .f32⟩) main_call1_cst), ofBuf_toBuf (TRef.of (T := ⟨S100000x16, .f32⟩) main_call1_v0), ofBuf_v92, toBuf_v93]
  rfl

theorem B2_keep_v1 : after opsB2 V (Proc.devRef .tc main_v1) = (V (Proc.devRef .tc main_v1)) := by
  simp only [opsB2, rest1, rest2, rest3, rest4, rest5, ops, List.drop_succ_cons, List.drop_zero, List.take_succ_cons, List.take_zero]
  after_results_simp <;> rfl

theorem B2_keep_v3 : after opsB2 V (Proc.devRef .tc main_v3) = (V (Proc.devRef .tc main_v3)) := by
  simp only [opsB2, rest1, rest2, rest3, rest4, rest5, ops, List.drop_succ_cons, List.drop_zero, List.take_succ_cons, List.take_zero]
  after_results_simp <;> rfl

theorem B2_keep_arg6 : after opsB2 V (Proc.devRef .tc main_arg6) = (V (Proc.devRef .tc main_arg6)) := by
  simp only [opsB2, rest1, rest2, rest3, rest4, rest5, ops, List.drop_succ_cons, List.drop_zero, List.take_succ_cons, List.take_zero]
  after_results_simp <;> rfl

theorem B2_keep_arg7 : after opsB2 V (Proc.devRef .tc main_arg7) = (V (Proc.devRef .tc main_arg7)) := by
  simp only [opsB2, rest1, rest2, rest3, rest4, rest5, ops, List.drop_succ_cons, List.drop_zero, List.take_succ_cons, List.take_zero]
  after_results_simp <;> rfl

end Cert.ReferenceIdeal.RefValue

end
-- ==== Proof.RefFoldC1.lean ====
/-
  The reference's fifth stretch, read from any entry contents `V`: the third dense product over the second layer's
  output, and the inverse root degrees and the normalisation recomputed from the edge rows `V` holds.
-/
import proofs.«170347_j17600775979431_1_alg».proof.Proof.RefStretch
import proofs.«170347_j17600775979431_1_alg».proof.Proof.Chain
import proofs.«170347_j17600775979431_1_alg».proof.Proof.Network
import Idealize.ShloMosaic.Lib.StableHlo.Run
import Idealize.ShloMosaic.PureOps.Ideal

set_option maxRecDepth 65536

noncomputable section

namespace Cert.ReferenceIdeal.RefValue

open Cert.ReferenceIdeal Cert.ReferenceIdeal.Gen Cert.ReferenceIdeal.ValueF Cert.Chain Cert.Network
open Idealize.ShloMosaic Idealize.ShloMosaic.TcCoe Idealize.SL.Sem Idealize.ShloMosaic.StableHlo

variable (V : Valuation τ sig (Elt Ideal))

theorem C1_p3 : after opsC1 V (Proc.devRef .tc main_v94) = Host.dotGeneral (F := Ideal) (φ₁ := .f32) (φ₂ := .f32) dot_S100000x16_S16x2_S100000x2_1_0_0_1_n_n none (V (Proc.devRef .tc main_v93)) (V (Proc.devRef .tc main_arg6)) := by
  simp only [opsC1, rest1, rest2, rest3, rest4, rest5, ops, List.drop_succ_cons, List.drop_zero, List.take_succ_cons, List.take_zero]
  after_results_simp <;> rfl

theorem C1_dinv : after opsC1 V (Proc.devRef .tc main_v101) = dinvOf (V (Proc.devRef .tc main_v3)) := by
  simp only [opsC1, rest1, rest2, rest3, rest4, rest5, ops, List.drop_succ_cons, List.drop_zero, List.take_succ_cons, List.take_zero]
  after_results_simp <;> rfl

theorem C1_norm : after opsC1 V (Proc.devRef .tc main_v116) = normOf (V (Proc.devRef .tc main_v1)) (V (Proc.devRef .tc main_v3)) := by
  simp only [opsC1, rest1, rest2, rest3, rest4, rest5, ops, List.drop_succ_cons, List.drop_zero, List.take_succ_cons, List.take_zero]
  after_results_simp <;> rfl

theorem C1_keep_v1 : after opsC1 V (Proc.devRef .tc main_v1) = (V (Proc.devRef .tc main_v1)) := by
  simp only [opsC1, rest1, rest2, rest3, rest4, rest5, ops, List.drop_succ_cons, List.drop_zero, List.take_succ_cons, List.take_zero]
  after_results_simp <;> rfl

theorem C1_keep_v3 : after opsC1 V (Proc.devRef .tc main_v3) = (V (Proc.devRef .tc main_v3)) := by
  simp only [opsC1, rest1, rest2, rest3, rest4, rest5, ops, List.drop_succ_cons, List.drop_zero, List.take_succ_cons, List.take_zero]
  after_results_simp <;> rfl

theorem C1_keep_arg7 : after opsC1 V (Proc.devRef .tc main_arg7) = (V (Proc.devRef .tc main_arg7)) := by
  simp only [opsC1, rest1, rest2, rest3, rest4, rest5, ops, List.drop_succ_cons, List.drop_zero, List.take_succ_cons, List.take_zero]
  after_results_simp <;> rfl

end Cert.ReferenceIdeal.RefValue

end
-- ==== Proof.RefSoftmax.lean ====
/-
  The reference's log-softmax over rows of two, as the host writes it (a row maximum folded from −∞ and taken once
  more against −∞, spread back over the row; the shifted row; the logarithm of the row sum of its exponentials,
  started from zero, spread back), is the spec's `logSoftmax2`, index by index at the ideal values.
-/
import proofs.«170347_j17600775979431_1_alg».proof.Proof.Chain
import proofs.«170347_j17600775979431_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.Spec Cert.Chain
open Idealize.ShloMosaic Idealize.ShloMosaic.ValueIdx

/-- The row shift as the host writes it: per node, `max (−∞) (the row's maximum from −∞)`. -/
def mxHost (v : RVec S100000x2) : RVec S100000 :=
  maximumf (F := Ideal) (broadcastInDim S100000 ![] bcast_S_S100000 (constant (F := Ideal) S_ .f32 0xFF800000#32))
    (Host.reduce FloatOps.maximumf v (constant (F := Ideal) S_ .f32 0xFF800000#32) reducesTo_S100000x2_S100000_d1 h_S_)

/-- The shift spread over the array. -/
def shiftHost (v : RVec S100000x2) : RVec S100000x2 :=
  broadcastInDim S100000x2 ![0, 1] bcast_S100000x1_S100000x2_0_1
    (broadcastInDim S100000x1 ![0] bcast_S100000_S100000x1_0 (mxHost v))

/-- The host's log-softmax over rows of two. -/
def lsmHost (v : RVec S100000x2) : RVec S100000x2 :=
  subf (F := Ideal) (subf (F := Ideal) v (shiftHost v))
    (broadcastInDim S100000x2 ![0, 1] bcast_S100000x1_S100000x2_0_1
      (Host.log (F := Ideal)
        (broadcastInDim S100000x1 ![0] bcast_S100000_S100000x1_0
          (Host.reduceAdd (F := Ideal) (Host.exp (F := Ideal) (subf (F := Ideal) v (shiftHost v)))
            (constant (F := Ideal) S_ .f32 0x00000000#32) reducesTo_S100000x2_S100000_d1 h_S_))))

theorem red2 : S100000x2.Reduces [1] S100000 := by decide

/-- A vector as a column, read in row `r`. -/
theorem colB_apply (u : RVec S100000) (r : Fin 100000) :
    broadcastInDim S100000x1 ![0] bcast_S100000_S100000x1_0 u (ix2 r (0 : Fin 1)) = u (ix1 r) :=
  broadcastInDim_apply _ bcast_S100000_S100000x1_0 u _ (ix1 r) (fun a => by
    match a with
    | ⟨0, _⟩ => rfl)

/-- A column spread over the two features, read at `(r, k)`. -/
theorem spreadB_apply (w : RVec S100000x1) (r : Fin 100000) (k : Fin 2) :
    broadcastInDim S100000x2 ![0, 1] bcast_S100000x1_S100000x2_0_1 w (ix2 r k) = w (ix2 r (0 : Fin 1)) :=
  broadcastInDim_apply _ bcast_S100000x1_S100000x2_0_1 w _ (ix2 r (0 : Fin 1)) (fun a => by
    match a with
    | ⟨0, _⟩ => rfl
    | ⟨1, _⟩ => rfl)

/-- The source index of a row reduction: row `r`, feature `k`. -/
theorem liftB (r : Fin 100000) (k : Fin 2) : red2.lift (ix1 r) k = ix2 r k :=
  funext fun a => Fin.ext (by
    match a with
    | ⟨0, _⟩ => rfl
    | ⟨1, _⟩ => rfl)

/-- The host's shift of row `r` is the spec's. -/
theorem mxHost_apply (v : RVec S100000x2) (r : Fin 100000) : mxHost v (ix1 r) = rowShift2 (n := 100000) v r := by
  unfold mxHost
  have hinf : broadcastInDim S100000 ![] bcast_S_S100000 (constant (F := Ideal) S_ .f32 0xFF800000#32) (ix1 r)
      = FloatOps.ofBits (F := Ideal) .f32 0xFF800000#32 :=
    broadcastInDim_apply _ bcast_S_S100000 _ (ix1 r) (fun a => a.elim0) (fun a => a.elim0)
  have hf : (v ∘ red2.lift (ix1 r)) = fun k => v (ix2 r k) := funext fun k => congrArg v (liftB r k)
  have hmax : Host.reduce FloatOps.maximumf v (constant (F := Ideal) S_ .f32 0xFF800000#32) reducesTo_S100000x2_S100000_d1 h_S_ (ix1 r)
      = (Finset.univ : Finset (Fin 2)).fold max (FloatOps.ofBits (F := Ideal) .f32 0xFF800000#32) (fun k => v (ix2 r k)) :=
    (Host.reduce_eq_fold_single FloatOps.maximumf v _ reducesTo_S100000x2_S100000_d1 red2 h_S_ (ix1 r)).trans (by rw [hf]; rfl)
  show FloatOps.maximumf (F := Ideal) (φ := .f32)
      (broadcastInDim S100000 ![] bcast_S_S100000 (constant (F := Ideal) S_ .f32 0xFF800000#32) (ix1 r))
      (Host.reduce FloatOps.maximumf v (constant (F := Ideal) S_ .f32 0xFF800000#32) reducesTo_S100000x2_S100000_d1 h_S_ (ix1 r)) = _
  rw [hinf, hmax]
  rfl

theorem shiftHost_apply (v : RVec S100000x2) (r : Fin 100000) (k : Fin 2) :
    shiftHost v (ix2 r k) = rowShift2 (n := 100000) v r := by
  unfold shiftHost
  rw [spreadB_apply, colB_apply, mxHost_apply]

/-- The host's log-softmax is the spec's. -/
theorem lsmHost_eq (v : RVec S100000x2) : lsmHost v = logSoftmax2 (n := 100000) v := by
  funext i
  obtain ⟨r, q, rfl⟩ : ∃ (r : Fin 100000) (q : Fin 2), i = ix2 r q := ⟨i 0, i 1, eq_ix2 i⟩
  unfold lsmHost
  have hsum : Host.reduceAdd (F := Ideal) (Host.exp (F := Ideal) (subf (F := Ideal) v (shiftHost v)))
        (constant (F := Ideal) S_ .f32 0x00000000#32) reducesTo_S100000x2_S100000_d1 h_S_ (ix1 r)
      = ∑ k : Fin 2, FloatOps.exp (F := Ideal) (φ := .f32)
          (FloatOps.subf (F := Ideal) (φ := .f32) (v (ix2 r k)) (rowShift2 (n := 100000) v r)) :=
    (Ideal.hostReduceAdd_single reducesTo_S100000x2_S100000_d1 red2 (Host.exp (F := Ideal) (subf (F := Ideal) v (shiftHost v)))
        (Ideal.ofBits .f32 0x00000000#32) (ix1 r)).trans (by
      rw [Ideal.ofBits_zero_f32, zero_add]
      exact Finset.sum_congr rfl fun (k : Fin 2) _ =>
        (congrArg (Host.exp (F := Ideal) (subf (F := Ideal) v (shiftHost v))) (liftB r k)).trans (by
          show FloatOps.exp (F := Ideal) (φ := .f32)
            (FloatOps.subf (F := Ideal) (φ := .f32) (v (ix2 r k)) (shiftHost v (ix2 r k))) = _
          rw [shiftHost_apply]))
  show FloatOps.subf (F := Ideal) (φ := .f32)
      (FloatOps.subf (F := Ideal) (φ := .f32) (v (ix2 r q)) (shiftHost v (ix2 r q)))
      (broadcastInDim S100000x2 ![0, 1] bcast_S100000x1_S100000x2_0_1
        (Host.log (F := Ideal)
          (broadcastInDim S100000x1 ![0] bcast_S100000_S100000x1_0
            (Host.reduceAdd (F := Ideal) (Host.exp (F := Ideal) (subf (F := Ideal) v (shiftHost v)))
              (constant (F := Ideal) S_ .f32 0x00000000#32) reducesTo_S100000x2_S100000_d1 h_S_))) (ix2 r q)) = _
  rw [spreadB_apply]
  show FloatOps.subf (F := Ideal) (φ := .f32)
      (FloatOps.subf (F := Ideal) (φ := .f32) (v (ix2 r q)) (shiftHost v (ix2 r q)))
      (FloatOps.log (F := Ideal) (φ := .f32)
        (broadcastInDim S100000x1 ![0] bcast_S100000_S100000x1_0
          (Host.reduceAdd (F := Ideal) (Host.exp (F := Ideal) (subf (F := Ideal) v (shiftHost v)))
            (constant (F := Ideal) S_ .f32 0x00000000#32) reducesTo_S100000x2_S100000_d1 h_S_) (ix2 r (0 : Fin 1)))) = _
  rw [colB_apply, hsum, shiftHost_apply]
  rfl

end Cert.ReferenceIdeal.RefValue

end
-- ==== Proof.RefFoldC2.lean ====
/-
  The reference's last two stretches, read from any entry contents `V`: the third layer's update as the host writes
  it, and the host's log-softmax of that update.
-/
import proofs.«170347_j17600775979431_1_alg».proof.Proof.RefStretch
import proofs.«170347_j17600775979431_1_alg».proof.Proof.Chain
import proofs.«170347_j17600775979431_1_alg».proof.Proof.Network
import proofs.«170347_j17600775979431_1_alg».proof.Proof.RefSoftmax
import Idealize.ShloMosaic.Lib.StableHlo.Run
import Idealize.ShloMosaic.PureOps.Ideal

set_option maxRecDepth 65536

noncomputable section

namespace Cert.ReferenceIdeal.RefValue

open Cert.ReferenceIdeal Cert.ReferenceIdeal.Gen Cert.ReferenceIdeal.ValueF Cert.Chain Cert.Network
open Idealize.ShloMosaic Idealize.ShloMosaic.TcCoe Idealize.SL.Sem Idealize.ShloMosaic.StableHlo

variable (V : Valuation τ sig (Elt Ideal))

theorem C2_pre : after opsC2 V (Proc.devRef .tc main_v137) = layerHost2 (agg2 (V (Proc.devRef .tc main_v94)) (V (Proc.devRef .tc main_v1)) (V (Proc.devRef .tc main_v3)) (V (Proc.devRef .tc main_v116))) (V (Proc.devRef .tc main_v94))
      (broadcastInDim S100000x1 ![0] bcast_S100000_S100000x1_0 (mulf (F := Ideal) (V (Proc.devRef .tc main_v101)) (V (Proc.devRef .tc main_v101)))) (V (Proc.devRef .tc main_arg7)) := by
  simp only [opsC2, rest1, rest2, rest3, rest4, rest5, ops, List.drop_succ_cons, List.drop_zero, List.take_succ_cons, List.take_zero]
  after_results_simp
  rfl

/-- The update buffer read at its value type, and the result buffer written: the identity. -/
theorem ofBuf_v137 (v : RVec S100000x2) : (TRef.of (T := ⟨S100000x2, .f32⟩) main_v137).ofBuf (Val := Elt Ideal) v = v := rfl
theorem toBuf_v138 (v : RVec S100000x2) : (TRef.of (T := ⟨S100000x2, .f32⟩) main_v138).toBuf (Val := Elt Ideal) v = v := rfl

theorem D_out : after opsD V (Proc.devRef .tc main_v138) = lsmHost (V (Proc.devRef .tc main_v137)) := by
  simp only [opsD, rest1, rest2, rest3, rest4, rest5, ops, List.drop_succ_cons, List.drop_zero, List.take_succ_cons, List.take_zero]
  after_results_simp
  repeat (first
    | rw [ofBuf_toBuf (TRef.of (T := ⟨S_, .f32⟩) main_call2_cst)]
    | rw [ofBuf_toBuf (TRef.of (T := ⟨S100000, .f32⟩) main_call2_v0)]
    | rw [ofBuf_toBuf (TRef.of (T := ⟨S_, .f32⟩) main_call2_cst_0)]
    | rw [ofBuf_toBuf (TRef.of (T := ⟨S100000, .f32⟩) main_call2_v1)]
    | rw [ofBuf_toBuf (TRef.of (T := ⟨S100000, .f32⟩) main_call2_v2)]
    | rw [ofBuf_toBuf (TRef.of (T := ⟨S100000x1, .f32⟩) main_call2_v3)]
    | rw [ofBuf_toBuf (TRef.of (T := ⟨S100000x2, .f32⟩) main_call2_v4)]
    | rw [ofBuf_toBuf (TRef.of (T := ⟨S100000x2, .f32⟩) main_call2_v5)]
    | rw [ofBuf_toBuf (TRef.of (T := ⟨S100000x2, .f32⟩) main_call2_v6)]
    | rw [ofBuf_toBuf (TRef.of (T := ⟨S_, .f32⟩) main_call2_cst_1)]
    | rw [ofBuf_toBuf (TRef.of (T := ⟨S100000, .f32⟩) main_call2_v7)]
    | rw [ofBuf_toBuf (TRef.of (T := ⟨S100000x1, .f32⟩) main_call2_v8)]
    | rw [ofBuf_toBuf (TRef.of (T := ⟨S100000x1, .f32⟩) main_call2_v9)]
    | rw [ofBuf_toBuf (TRef.of (T := ⟨S100000x2, .f32⟩) main_call2_v10)])
  rw [ofBuf_v137, toBuf_v138]
  unfold lsmHost shiftHost mxHost
  rfl

end Cert.ReferenceIdeal.RefValue

end
-- ==== Proof.RefSpec.lean ====
/-
  The reference's host forms are the spec's functions, index by index at the ideal values: a `dot_general`
  with one contracted axis is the sum over it; the layer update written with broadcasts of the self-loop column
  and of the bias vector is `(agg + h · s) + b` with `s` read in the row and `b` in the column; the maximum with
  the zero splat is the maximum with zero.
-/
import proofs.«170347_j17600775979431_1_alg».proof.Proof.Chain
import proofs.«170347_j17600775979431_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.Spec Cert.Chain
open Idealize.ShloMosaic Idealize.ShloMosaic.ValueIdx

/-- The host's product over the 165 contracted entries is the spec's product. -/
theorem dot165_eq (x : RVec S100000x165) (w : RVec S165x32) :
    Host.dotGeneral dot_S100000x165_S165x32_S100000x32_1_0_0_1_n_n none x w = matProd (n := 100000) (kk := 165) (d := 32) x w := by
  funext i
  simp only [Host.dotGeneral]
  rw [Ideal.dotGeneral_apply, ← Equiv.sum_comp (contrEquiv1 dot_S100000x165_S165x32_S100000x32_1_0_0_1_n_n 165 rfl rfl).symm]
  unfold matProd
  refine Finset.sum_congr rfl fun k _ => ?_
  have hk := contrEquiv1_symm_val dot_S100000x165_S165x32_S100000x32_1_0_0_1_n_n 165 rfl rfl k
  have el : dot_S100000x165_S165x32_S100000x32_1_0_0_1_n_n.lhsIdx i ((contrEquiv1 dot_S100000x165_S165x32_S100000x32_1_0_0_1_n_n 165 rfl rfl).symm k)
      = ix2 (⟨(i 0).val, (i 0).isLt⟩ : Fin 100000) k := funext fun a => Fin.ext (by
    match a with
    | ⟨0, _⟩ =>
      show (dot_S100000x165_S165x32_S100000x32_1_0_0_1_n_n.lhsIdx i _ 0).val = (i 0).val
      unfold DotDims.lhsIdx
      rw [dif_neg (show ¬(0 : Fin S100000x165.rank) ∈ dot_S100000x165_S165x32_S100000x32_1_0_0_1_n_n.lhsBatch by decide),
        dif_pos (show (0 : Fin S100000x165.rank) ∈ dot_S100000x165_S165x32_S100000x32_1_0_0_1_n_n.lhsNonContracting by decide)]
      rfl
    | ⟨1, _⟩ => exact (dot_S100000x165_S165x32_S100000x32_1_0_0_1_n_n.lhsIdx_val_of_single rfl i _).trans hk)
  have er : dot_S100000x165_S165x32_S100000x32_1_0_0_1_n_n.rhsIdx i ((contrEquiv1 dot_S100000x165_S165x32_S100000x32_1_0_0_1_n_n 165 rfl rfl).symm k)
      = ix2 k (⟨(i 1).val, (i 1).isLt⟩ : Fin 32) := funext fun a => Fin.ext (by
    match a with
    | ⟨0, _⟩ => exact (dot_S100000x165_S165x32_S100000x32_1_0_0_1_n_n.rhsIdx_val_of_single rfl i _).trans hk
    | ⟨1, _⟩ =>
      show (dot_S100000x165_S165x32_S100000x32_1_0_0_1_n_n.rhsIdx i _ 1).val = (i 1).val
      unfold DotDims.rhsIdx
      rw [dif_neg (show ¬(1 : Fin S165x32.rank) ∈ dot_S100000x165_S165x32_S100000x32_1_0_0_1_n_n.rhsBatch by decide),
        dif_pos (show (1 : Fin S165x32.rank) ∈ dot_S100000x165_S165x32_S100000x32_1_0_0_1_n_n.rhsNonContracting by decide)]
      rfl)
  rw [el, er]

/-- The host's product over the 32 contracted entries is the spec's product. -/
theorem dot32_eq (x : RVec S100000x32) (w : RVec S32x16) :
    Host.dotGeneral dot_S100000x32_S32x16_S100000x16_1_0_0_1_n_n none x w = matProd (n := 100000) (kk := 32) (d := 16) x w := by
  funext i
  simp only [Host.dotGeneral]
  rw [Ideal.dotGeneral_apply, ← Equiv.sum_comp (contrEquiv1 dot_S100000x32_S32x16_S100000x16_1_0_0_1_n_n 32 rfl rfl).symm]
  unfold matProd
  refine Finset.sum_congr rfl fun k _ => ?_
  have hk := contrEquiv1_symm_val dot_S100000x32_S32x16_S100000x16_1_0_0_1_n_n 32 rfl rfl k
  have el : dot_S100000x32_S32x16_S100000x16_1_0_0_1_n_n.lhsIdx i ((contrEquiv1 dot_S100000x32_S32x16_S100000x16_1_0_0_1_n_n 32 rfl rfl).symm k)
      = ix2 (⟨(i 0).val, (i 0).isLt⟩ : Fin 100000) k := funext fun a => Fin.ext (by
    match a with
    | ⟨0, _⟩ =>
      show (dot_S100000x32_S32x16_S100000x16_1_0_0_1_n_n.lhsIdx i _ 0).val = (i 0).val
      unfold DotDims.lhsIdx
      rw [dif_neg (show ¬(0 : Fin S100000x32.rank) ∈ dot_S100000x32_S32x16_S100000x16_1_0_0_1_n_n.lhsBatch by decide),
        dif_pos (show (0 : Fin S100000x32.rank) ∈ dot_S100000x32_S32x16_S100000x16_1_0_0_1_n_n.lhsNonContracting by decide)]
      rfl
    | ⟨1, _⟩ => exact (dot_S100000x32_S32x16_S100000x16_1_0_0_1_n_n.lhsIdx_val_of_single rfl i _).trans hk)
  have er : dot_S100000x32_S32x16_S100000x16_1_0_0_1_n_n.rhsIdx i ((contrEquiv1 dot_S100000x32_S32x16_S100000x16_1_0_0_1_n_n 32 rfl rfl).symm k)
      = ix2 k (⟨(i 1).val, (i 1).isLt⟩ : Fin 16) := funext fun a => Fin.ext (by
    match a with
    | ⟨0, _⟩ => exact (dot_S100000x32_S32x16_S100000x16_1_0_0_1_n_n.rhsIdx_val_of_single rfl i _).trans hk
    | ⟨1, _⟩ =>
      show (dot_S100000x32_S32x16_S100000x16_1_0_0_1_n_n.rhsIdx i _ 1).val = (i 1).val
      unfold DotDims.rhsIdx
      rw [dif_neg (show ¬(1 : Fin S32x16.rank) ∈ dot_S100000x32_S32x16_S100000x16_1_0_0_1_n_n.rhsBatch by decide),
        dif_pos (show (1 : Fin S32x16.rank) ∈ dot_S100000x32_S32x16_S100000x16_1_0_0_1_n_n.rhsNonContracting by decide)]
      rfl)
  rw [el, er]

/-- The host's product over the 16 contracted entries is the spec's product. -/
theorem dot16_eq (x : RVec S100000x16) (w : RVec S16x2) :
    Host.dotGeneral dot_S100000x16_S16x2_S100000x2_1_0_0_1_n_n none x w = matProd (n := 100000) (kk := 16) (d := 2) x w := by
  funext i
  simp only [Host.dotGeneral]
  rw [Ideal.dotGeneral_apply, ← Equiv.sum_comp (contrEquiv1 dot_S100000x16_S16x2_S100000x2_1_0_0_1_n_n 16 rfl rfl).symm]
  unfold matProd
  refine Finset.sum_congr rfl fun k _ => ?_
  have hk := contrEquiv1_symm_val dot_S100000x16_S16x2_S100000x2_1_0_0_1_n_n 16 rfl rfl k
  have el : dot_S100000x16_S16x2_S100000x2_1_0_0_1_n_n.lhsIdx i ((contrEquiv1 dot_S100000x16_S16x2_S100000x2_1_0_0_1_n_n 16 rfl rfl).symm k)
      = ix2 (⟨(i 0).val, (i 0).isLt⟩ : Fin 100000) k := funext fun a => Fin.ext (by
    match a with
    | ⟨0, _⟩ =>
      show (dot_S100000x16_S16x2_S100000x2_1_0_0_1_n_n.lhsIdx i _ 0).val = (i 0).val
      unfold DotDims.lhsIdx
      rw [dif_neg (show ¬(0 : Fin S100000x16.rank) ∈ dot_S100000x16_S16x2_S100000x2_1_0_0_1_n_n.lhsBatch by decide),
        dif_pos (show (0 : Fin S100000x16.rank) ∈ dot_S100000x16_S16x2_S100000x2_1_0_0_1_n_n.lhsNonContracting by decide)]
      rfl
    | ⟨1, _⟩ => exact (dot_S100000x16_S16x2_S100000x2_1_0_0_1_n_n.lhsIdx_val_of_single rfl i _).trans hk)
  have er : dot_S100000x16_S16x2_S100000x2_1_0_0_1_n_n.rhsIdx i ((contrEquiv1 dot_S100000x16_S16x2_S100000x2_1_0_0_1_n_n 16 rfl rfl).symm k)
      = ix2 k (⟨(i 1).val, (i 1).isLt⟩ : Fin 2) := funext fun a => Fin.ext (by
    match a with
    | ⟨0, _⟩ => exact (dot_S100000x16_S16x2_S100000x2_1_0_0_1_n_n.rhsIdx_val_of_single rfl i _).trans hk
    | ⟨1, _⟩ =>
      show (dot_S100000x16_S16x2_S100000x2_1_0_0_1_n_n.rhsIdx i _ 1).val = (i 1).val
      unfold DotDims.rhsIdx
      rw [dif_neg (show ¬(1 : Fin S16x2.rank) ∈ dot_S100000x16_S16x2_S100000x2_1_0_0_1_n_n.rhsBatch by decide),
        dif_pos (show (1 : Fin S16x2.rank) ∈ dot_S100000x16_S16x2_S100000x2_1_0_0_1_n_n.rhsNonContracting by decide)]
      rfl)
  rw [el, er]

/-- The host's layer update over 32 features — the self-loop column and the bias spread over the array, two
    sums — is the spec's update with the bias as a row. -/
theorem layerHost32_eq (agg h : RVec S100000x32) (s : RVec S100000x1) (b : RVec S32) (hc : S32.ShapeCasts S1x32) :
    layerHost32 agg h s b = combine (n := 100000) (d := 32) agg h s (shapeCast S1x32 b hc) := by
  funext i
  unfold layerHost32 combine
  have hs : broadcastInDim S100000x32 ![0, 1] bcast_S100000x1_S100000x32_0_1 s i
      = s (ix2 (⟨(i 0).val, (i 0).isLt⟩ : Fin 100000) (0 : Fin 1)) :=
    broadcastInDim_apply _ bcast_S100000x1_S100000x32_0_1 s i _ (fun a => by
      match a with
      | ⟨0, _⟩ => rfl
      | ⟨1, _⟩ => rfl)
  have hb1 : broadcastInDim S100000x32 ![0, 1] bcast_S1x32_S100000x32_0_1 (broadcastInDim S1x32 ![1] bcast_S32_S1x32_1 b) i
      = broadcastInDim S1x32 ![1] bcast_S32_S1x32_1 b (ix2 (0 : Fin 1) (⟨(i 1).val, (i 1).isLt⟩ : Fin 32)) :=
    broadcastInDim_apply _ bcast_S1x32_S100000x32_0_1 _ i _ (fun a => by
      match a with
      | ⟨0, _⟩ => rfl
      | ⟨1, _⟩ => rfl)
  have hb2 : broadcastInDim S1x32 ![1] bcast_S32_S1x32_1 b (ix2 (0 : Fin 1) (⟨(i 1).val, (i 1).isLt⟩ : Fin 32))
      = b (ix1 (⟨(i 1).val, (i 1).isLt⟩ : Fin 32)) :=
    broadcastInDim_apply _ bcast_S32_S1x32_1 b _ _ (fun a => by
      match a with
      | ⟨0, _⟩ => rfl)
  have hb3 : shapeCast S1x32 b hc (ix2 (0 : Fin 1) (⟨(i 1).val, (i 1).isLt⟩ : Fin 32))
      = b (ix1 (⟨(i 1).val, (i 1).isLt⟩ : Fin 32)) :=
    shapeCast_apply b hc _ _ (by
      rw [Shape.rowMajor_val_one, Shape.rowMajor_val_two]
      show (i 1).val = 0 * 32 + (i 1).val
      omega)
  show FloatOps.addf (F := Ideal) (φ := .f32)
      (FloatOps.addf (F := Ideal) (φ := .f32) (agg i)
        (FloatOps.mulf (F := Ideal) (φ := .f32) (h i) (broadcastInDim S100000x32 ![0, 1] bcast_S100000x1_S100000x32_0_1 s i)))
      (broadcastInDim S100000x32 ![0, 1] bcast_S1x32_S100000x32_0_1 (broadcastInDim S1x32 ![1] bcast_S32_S1x32_1 b) i) = _
  rw [hs, hb1, hb2, hb3]

/-- The host's layer update over 16 features — the self-loop column and the bias spread over the array, two
    sums — is the spec's update with the bias as a row. -/
theorem layerHost16_eq (agg h : RVec S100000x16) (s : RVec S100000x1) (b : RVec S16) (hc : S16.ShapeCasts S1x16) :
    layerHost16 agg h s b = combine (n := 100000) (d := 16) agg h s (shapeCast S1x16 b hc) := by
  funext i
  unfold layerHost16 combine
  have hs : broadcastInDim S100000x16 ![0, 1] bcast_S100000x1_S100000x16_0_1 s i
      = s (ix2 (⟨(i 0).val, (i 0).isLt⟩ : Fin 100000) (0 : Fin 1)) :=
    broadcastInDim_apply _ bcast_S100000x1_S100000x16_0_1 s i _ (fun a => by
      match a with
      | ⟨0, _⟩ => rfl
      | ⟨1, _⟩ => rfl)
  have hb1 : broadcastInDim S100000x16 ![0, 1] bcast_S1x16_S100000x16_0_1 (broadcastInDim S1x16 ![1] bcast_S16_S1x16_1 b) i
      = broadcastInDim S1x16 ![1] bcast_S16_S1x16_1 b (ix2 (0 : Fin 1) (⟨(i 1).val, (i 1).isLt⟩ : Fin 16)) :=
    broadcastInDim_apply _ bcast_S1x16_S100000x16_0_1 _ i _ (fun a => by
      match a with
      | ⟨0, _⟩ => rfl
      | ⟨1, _⟩ => rfl)
  have hb2 : broadcastInDim S1x16 ![1] bcast_S16_S1x16_1 b (ix2 (0 : Fin 1) (⟨(i 1).val, (i 1).isLt⟩ : Fin 16))
      = b (ix1 (⟨(i 1).val, (i 1).isLt⟩ : Fin 16)) :=
    broadcastInDim_apply _ bcast_S16_S1x16_1 b _ _ (fun a => by
      match a with
      | ⟨0, _⟩ => rfl)
  have hb3 : shapeCast S1x16 b hc (ix2 (0 : Fin 1) (⟨(i 1).val, (i 1).isLt⟩ : Fin 16))
      = b (ix1 (⟨(i 1).val, (i 1).isLt⟩ : Fin 16)) :=
    shapeCast_apply b hc _ _ (by
      rw [Shape.rowMajor_val_one, Shape.rowMajor_val_two]
      show (i 1).val = 0 * 16 + (i 1).val
      omega)
  show FloatOps.addf (F := Ideal) (φ := .f32)
      (FloatOps.addf (F := Ideal) (φ := .f32) (agg i)
        (FloatOps.mulf (F := Ideal) (φ := .f32) (h i) (broadcastInDim S100000x16 ![0, 1] bcast_S100000x1_S100000x16_0_1 s i)))
      (broadcastInDim S100000x16 ![0, 1] bcast_S1x16_S100000x16_0_1 (broadcastInDim S1x16 ![1] bcast_S16_S1x16_1 b) i) = _
  rw [hs, hb1, hb2, hb3]

/-- The host's layer update over 2 features — the self-loop column and the bias spread over the array, two
    sums — is the spec's update with the bias as a row. -/
theorem layerHost2_eq (agg h : RVec S100000x2) (s : RVec S100000x1) (b : RVec S2) (hc : S2.ShapeCasts S1x2) :
    layerHost2 agg h s b = combine (n := 100000) (d := 2) agg h s (shapeCast S1x2 b hc) := by
  funext i
  unfold layerHost2 combine
  have hs : broadcastInDim S100000x2 ![0, 1] bcast_S100000x1_S100000x2_0_1 s i
      = s (ix2 (⟨(i 0).val, (i 0).isLt⟩ : Fin 100000) (0 : Fin 1)) :=
    broadcastInDim_apply _ bcast_S100000x1_S100000x2_0_1 s i _ (fun a => by
      match a with
      | ⟨0, _⟩ => rfl
      | ⟨1, _⟩ => rfl)
  have hb1 : broadcastInDim S100000x2 ![0, 1] bcast_S1x2_S100000x2_0_1 (broadcastInDim S1x2 ![1] bcast_S2_S1x2_1 b) i
      = broadcastInDim S1x2 ![1] bcast_S2_S1x2_1 b (ix2 (0 : Fin 1) (⟨(i 1).val, (i 1).isLt⟩ : Fin 2)) :=
    broadcastInDim_apply _ bcast_S1x2_S100000x2_0_1 _ i _ (fun a => by
      match a with
      | ⟨0, _⟩ => rfl
      | ⟨1, _⟩ => rfl)
  have hb2 : broadcastInDim S1x2 ![1] bcast_S2_S1x2_1 b (ix2 (0 : Fin 1) (⟨(i 1).val, (i 1).isLt⟩ : Fin 2))
      = b (ix1 (⟨(i 1).val, (i 1).isLt⟩ : Fin 2)) :=
    broadcastInDim_apply _ bcast_S2_S1x2_1 b _ _ (fun a => by
      match a with
      | ⟨0, _⟩ => rfl)
  have hb3 : shapeCast S1x2 b hc (ix2 (0 : Fin 1) (⟨(i 1).val, (i 1).isLt⟩ : Fin 2))
      = b (ix1 (⟨(i 1).val, (i 1).isLt⟩ : Fin 2)) :=
    shapeCast_apply b hc _ _ (by
      rw [Shape.rowMajor_val_one, Shape.rowMajor_val_two]
      show (i 1).val = 0 * 2 + (i 1).val
      omega)
  show FloatOps.addf (F := Ideal) (φ := .f32)
      (FloatOps.addf (F := Ideal) (φ := .f32) (agg i)
        (FloatOps.mulf (F := Ideal) (φ := .f32) (h i) (broadcastInDim S100000x2 ![0, 1] bcast_S100000x1_S100000x2_0_1 s i)))
      (broadcastInDim S100000x2 ![0, 1] bcast_S1x2_S100000x2_0_1 (broadcastInDim S1x2 ![1] bcast_S2_S1x2_1 b) i) = _
  rw [hs, hb1, hb2, hb3]

/-- The host's maximum with the zero splat is the spec's. -/
theorem reluHost32_eq (v : RVec S100000x32) : reluHost32 v = reluOf (n := 100000) (d := 32) v := by
  funext i
  unfold reluHost32 reluOf
  have hz : broadcastInDim S100000x32 ![] bcast_S_S100000x32 (constant (F := Ideal) S_ .f32 0x00000000#32) i
      = FloatOps.ofBits (F := Ideal) .f32 0x00000000#32 :=
    broadcastInDim_apply _ bcast_S_S100000x32 _ i (fun a => a.elim0) (fun a => a.elim0)
  show FloatOps.maximumf (F := Ideal) (φ := .f32) (v i)
      (broadcastInDim S100000x32 ![] bcast_S_S100000x32 (constant (F := Ideal) S_ .f32 0x00000000#32) i) = _
  rw [hz]

/-- The host's maximum with the zero splat is the spec's. -/
theorem reluHost16_eq (v : RVec S100000x16) : reluHost16 v = reluOf (n := 100000) (d := 16) v := by
  funext i
  unfold reluHost16 reluOf
  have hz : broadcastInDim S100000x16 ![] bcast_S_S100000x16 (constant (F := Ideal) S_ .f32 0x00000000#32) i
      = FloatOps.ofBits (F := Ideal) .f32 0x00000000#32 :=
    broadcastInDim_apply _ bcast_S_S100000x16 _ i (fun a => a.elim0) (fun a => a.elim0)
  show FloatOps.maximumf (F := Ideal) (φ := .f32) (v i)
      (broadcastInDim S100000x16 ![] bcast_S_S100000x16 (constant (F := Ideal) S_ .f32 0x00000000#32) i) = _
  rw [hz]

end Cert.ReferenceIdeal.RefValue

end
-- ==== Proof.RefFold.lean ====
/-
  The reference's whole fold: the seven stretches composed from the last to the first, every buffer a stretch
  reads replaced by what the stretch before leaves there, then each host form replaced by the spec's function
  (Proof/RefSpec.lean, Proof/RefSoftmax.lean).  The result buffer ends at the network's function of the eight
  arguments as the entry contents hold them.
-/
import proofs.«170347_j17600775979431_1_alg».proof.Proof.RefStretch
import proofs.«170347_j17600775979431_1_alg».proof.Proof.RefFoldA1
import proofs.«170347_j17600775979431_1_alg».proof.Proof.RefFoldA2
import proofs.«170347_j17600775979431_1_alg».proof.Proof.RefFoldB1
import proofs.«170347_j17600775979431_1_alg».proof.Proof.RefFoldB2
import proofs.«170347_j17600775979431_1_alg».proof.Proof.RefFoldC1
import proofs.«170347_j17600775979431_1_alg».proof.Proof.RefFoldC2
import proofs.«170347_j17600775979431_1_alg».proof.Proof.Chain
import proofs.«170347_j17600775979431_1_alg».proof.Proof.Network
import proofs.«170347_j17600775979431_1_alg».proof.Proof.RefSpec
import proofs.«170347_j17600775979431_1_alg».proof.Proof.RefSoftmax
import Idealize.ShloMosaic.Lib.StableHlo.Run
import Idealize.ShloMosaic.PureOps.Ideal

set_option maxRecDepth 65536

noncomputable section

namespace Cert.ReferenceIdeal.RefValue

open Cert.ReferenceIdeal Cert.ReferenceIdeal.Gen Cert.ReferenceIdeal.ValueF Cert.Chain Cert.Network
open Idealize.ShloMosaic Idealize.ShloMosaic.TcCoe Idealize.SL.Sem Idealize.ShloMosaic.StableHlo

variable (V : Valuation τ sig (Elt Ideal))

/-- THE REFERENCE'S RESULT: the network's function of the eight arguments. -/
theorem after_ops_out : after (ops (F := Ideal)) V (Proc.devRef .tc main_v138)
    = out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [after_ops, D_out, C2_pre]
  rw [C1_p3, C1_norm, C1_dinv, C1_keep_v1, C1_keep_v3, C1_keep_arg7]
  rw [B2_h2, B2_keep_v1, B2_keep_v3, B2_keep_arg6, B2_keep_arg7]
  rw [B1_p2, B1_norm, B1_dinv, B1_keep_v1, B1_keep_v3, B1_keep_arg5, B1_keep_arg6, B1_keep_arg7]
  rw [A2_h1, A2_keep_v1, A2_keep_v3, A2_keep_arg4, A2_keep_arg5, A2_keep_arg6, A2_keep_arg7]
  rw [A1_p1, A1_src, A1_dst, A1_norm, A1_dinv, A1_keep3, A1_keep4, A1_keep5, A1_keep6, A1_keep7]
  rw [dot165_eq, reluHost32_eq, layerHost32_eq _ _ _ _ cast32, dot32_eq, reluHost16_eq, layerHost16_eq _ _ _ _ cast16, dot16_eq,
    layerHost2_eq _ _ _ _ cast2, lsmHost_eq]
  rfl

end Cert.ReferenceIdeal.RefValue

end
-- ==== Proof.lean ====
/-
  The certificate of a three-layer graph convolution: a kernel that tiles its three dense products and its three
  per-node updates over blocks of 5000 nodes, with the edge gather / scale / scatter-add on the host, against
  the plain reference.

  On the extended reals both programs compute ONE function of the eight arguments (Proof/Network.lean):
  the kernel's blocks are restrictions of whole-array functions (Proof/Matmul*.lean, Proof/Combine*.lean), its
  buffers are followed through @main's boundaries (Proof/KernelFold.lean); the reference's 187 host operations
  are read layer by layer (Proof/RefFold.lean) and each host form is the same function index by index
  (Proof/RefSpec.lean, Proof/RefSoftmax.lean).  The host operations both programs share — the rows of the edge
  list, the inverse root degrees, the normalisation, the gather and the scatter-add — are never opened
  (Proof/Chain.lean).  No law used needs finite inputs: the two sides apply the same exact operations in the
  same order, and differ only in tiling, in changes of float format (the identity here) and in summing a
  product into a zero accumulator.

  The frames of the two kernel programs are the generated ones; the reference's frame is its run with the result
  dropped; the idealization rewrote nothing, so `preserves` is trivial.
-/
import proofs.«170347_j17600775979431_1_alg».proof.Defs
import proofs.«170347_j17600775979431_1_alg».proof.Proof.Gen.Kernel
import proofs.«170347_j17600775979431_1_alg».proof.Proof.Gen.Kernel.Skeleton
import proofs.«170347_j17600775979431_1_alg».proof.Proof.Gen.Kernel.Launch
import proofs.«170347_j17600775979431_1_alg».proof.Proof.Gen.Kernel.Points
import proofs.«170347_j17600775979431_1_alg».proof.Proof.Gen.Kernel.Frame
import proofs.«170347_j17600775979431_1_alg».proof.Proof.Gen.KernelIdeal
import proofs.«170347_j17600775979431_1_alg».proof.Proof.Gen.KernelIdeal.Skeleton
import proofs.«170347_j17600775979431_1_alg».proof.Proof.Gen.KernelIdeal.Launch
import proofs.«170347_j17600775979431_1_alg».proof.Proof.Gen.KernelIdeal.Points
import proofs.«170347_j17600775979431_1_alg».proof.Proof.Gen.KernelIdeal.Frame
import proofs.«170347_j17600775979431_1_alg».proof.Proof.Gen.ReferenceIdeal
import proofs.«170347_j17600775979431_1_alg».proof.Proof.Gen.Pre_finite_inputs
import proofs.«170347_j17600775979431_1_alg».proof.Proof.KernelFold
import proofs.«170347_j17600775979431_1_alg».proof.Proof.RefFold
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with the result dropped. -/
theorem frame_ri : Cert.frame_ReferenceIdeal := fun m ρ _ =>
  (θ_run Cert.ReferenceIdeal.defs _ _).mono (fun _ h c => (h c).2) (Cert.ReferenceIdeal.ValueF.run (F := Ideal) m ρ)

theorem preserves : Cert.preserves_Kernel_KernelIdeal := trivial

/-- Both idealized programs end at the network's function of their (agreeing) arguments. -/
theorem algebraic : Cert.algebraic_KernelIdeal_ReferenceIdeal := by
  intro m ρ m' ρ' _ hagree
  refine ⟨fun c => Cert.Network.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Val.run_out m ρ, ?_⟩
  refine (θ_run Cert.ReferenceIdeal.defs _ _).mono (fun _ h c => ⟨(h c).1.trans ?_, (h c).2⟩)
    (Cert.ReferenceIdeal.ValueF.run (F := Ideal) m' ρ')
  obtain ⟨h0, h1, h2, h3, h4, h5, h6, h7⟩ := hagree c
  rw [Cert.ReferenceIdeal.RefValue.after_ops_out]
  show Cert.Network.out
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7)) = _
  rw [h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
